-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v166)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v166) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x64 .f32) (main_arg3 : FVec F S64 .f32) (main_arg4 : FVec F S64x32 .f32) (main_arg5 : FVec F S32 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x32 : Shape := ⟨2, ![100000, 32]⟩
abbrev S4000x512 : Shape := ⟨2, ![4000, 512]⟩
abbrev S4000x32 : Shape := ⟨2, ![4000, 32]⟩
abbrev S4000x64 : Shape := ⟨2, ![4000, 64]⟩
abbrev S1x64 : Shape := ⟨2, ![1, 64]⟩
abbrev S1x32 : Shape := ⟨2, ![1, 32]⟩
abbrev S3200000x32 : Shape := ⟨2, ![3200000, 32]⟩
abbrev S2000x32 : Shape := ⟨2, ![2000, 32]⟩

abbrev nBuf : Space → Nat
  | .hbm => 210
  | .vmem => 68
  | .smem => 0
  | _ => 0

abbrev hbmTy0_0 (i : Nat) : BufTy := match i % 128 with
  | 0 => ⟨S100000x512, .f32⟩
  | 1 => ⟨S2x3200000, .i32⟩
  | 2 => ⟨S512x64, .f32⟩
  | 3 => ⟨S64, .f32⟩
  | 4 => ⟨S64x32, .f32⟩
  | 5 => ⟨S32, .f32⟩
  | 6 => ⟨S1x3200000, .i32⟩
  | 7 => ⟨S3200000, .i32⟩
  | 8 => ⟨S1x3200000, .i32⟩
  | 9 => ⟨S3200000, .i32⟩
  | 10 => ⟨S_, .f32⟩
  | 11 => ⟨S3200000, .f32⟩
  | 12 => ⟨S_, .f32⟩
  | 13 => ⟨S100000, .f32⟩
  | 14 => ⟨S3200000x1, .i32⟩
  | 15 => ⟨S100000, .f32⟩
  | 16 => ⟨S_, .f32⟩
  | 17 => ⟨S100000, .f32⟩
  | 18 => ⟨S100000, .f32⟩
  | 19 => ⟨S_, .i32⟩
  | 20 => ⟨S3200000, .i32⟩
  | 21 => ⟨S3200000, .i1⟩
  | 22 => ⟨S_, .i32⟩
  | 23 => ⟨S3200000, .i32⟩
  | 24 => ⟨S3200000, .i32⟩
  | 25 => ⟨S3200000, .i32⟩
  | 26 => ⟨S3200000x1, .i32⟩
  | 27 => ⟨S3200000, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000, .f32⟩
  | 37 => ⟨S3200000, .f32⟩
  | 38 => ⟨S3200000, .f32⟩
  | 39 => ⟨S100000x32, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000x32, .f32⟩
  | 49 => ⟨S3200000x1, .f32⟩
  | 50 => ⟨S3200000x32, .f32⟩
  | 51 => ⟨S3200000x32, .f32⟩
  | 52 => ⟨S_, .f32⟩
  | 53 => ⟨S100000x32, .f32⟩
  | 54 => ⟨S3200000x1, .i32⟩
  | 55 => ⟨S100000x32, .f32⟩
  | 56 => ⟨S100000x32, .f32⟩
  | 57 => ⟨S_, .i32⟩
  | 58 => ⟨S3200000, .i32⟩
  | 59 => ⟨S3200000, .i1⟩
  | 60 => ⟨S_, .i32⟩
  | 61 => ⟨S3200000, .i32⟩
  | 62 => ⟨S3200000, .i32⟩
  | 63 => ⟨S3200000, .i32⟩
  | 64 => ⟨S3200000x1, .i32⟩
  | 65 => ⟨S3200000x32, .f32⟩
  | 66 => ⟨S3200000x1, .f32⟩
  | 67 => ⟨S3200000x32, .f32⟩
  | 68 => ⟨S3200000x32, .f32⟩
  | 69 => ⟨S_, .f32⟩
  | 70 => ⟨S100000x32, .f32⟩
  | 71 => ⟨S3200000x1, .i32⟩
  | 72 => ⟨S100000x32, .f32⟩
  | 73 => ⟨S100000x32, .f32⟩
  | 74 => ⟨S_, .i32⟩
  | 75 => ⟨S3200000, .i32⟩
  | 76 => ⟨S3200000, .i1⟩
  | 77 => ⟨S_, .i32⟩
  | 78 => ⟨S3200000, .i32⟩
  | 79 => ⟨S3200000, .i32⟩
  | 80 => ⟨S3200000, .i32⟩
  | 81 => ⟨S3200000x1, .i32⟩
  | 82 => ⟨S3200000x32, .f32⟩
  | 83 => ⟨S3200000x1, .f32⟩
  | 84 => ⟨S3200000x32, .f32⟩
  | 85 => ⟨S3200000x32, .f32⟩
  | 86 => ⟨S_, .f32⟩
  | 87 => ⟨S100000x32, .f32⟩
  | 88 => ⟨S3200000x1, .i32⟩
  | 89 => ⟨S100000x32, .f32⟩
  | 90 => ⟨S100000x32, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S3200000x32, .f32⟩
  | 100 => ⟨S3200000x1, .f32⟩
  | 101 => ⟨S3200000x32, .f32⟩
  | 102 => ⟨S3200000x32, .f32⟩
  | 103 => ⟨S_, .f32⟩
  | 104 => ⟨S100000x32, .f32⟩
  | 105 => ⟨S3200000x1, .i32⟩
  | 106 => ⟨S100000x32, .f32⟩
  | 107 => ⟨S100000x32, .f32⟩
  | 108 => ⟨S_, .i32⟩
  | 109 => ⟨S3200000, .i32⟩
  | 110 => ⟨S3200000, .i1⟩
  | 111 => ⟨S_, .i32⟩
  | 112 => ⟨S3200000, .i32⟩
  | 113 => ⟨S3200000, .i32⟩
  | 114 => ⟨S3200000, .i32⟩
  | 115 => ⟨S3200000x1, .i32⟩
  | 116 => ⟨S3200000x32, .f32⟩
  | 117 => ⟨S3200000x1, .f32⟩
  | 118 => ⟨S3200000x32, .f32⟩
  | 119 => ⟨S3200000x32, .f32⟩
  | 120 => ⟨S_, .f32⟩
  | 121 => ⟨S100000x32, .f32⟩
  | 122 => ⟨S3200000x1, .i32⟩
  | 123 => ⟨S100000x32, .f32⟩
  | 124 => ⟨S100000x32, .f32⟩
  | 125 => ⟨S_, .i32⟩
  | 126 => ⟨S3200000, .i32⟩
  | 127 => ⟨S3200000, .i1⟩
  | _ => ⟨S100000x512, .f32⟩

abbrev hbmTy0_1 (i : Nat) : BufTy := match i % 128 with
  | 0 => ⟨S_, .i32⟩
  | 1 => ⟨S3200000, .i32⟩
  | 2 => ⟨S3200000, .i32⟩
  | 3 => ⟨S3200000, .i32⟩
  | 4 => ⟨S3200000x1, .i32⟩
  | 5 => ⟨S3200000x32, .f32⟩
  | 6 => ⟨S3200000x1, .f32⟩
  | 7 => ⟨S3200000x32, .f32⟩
  | 8 => ⟨S3200000x32, .f32⟩
  | 9 => ⟨S_, .f32⟩
  | 10 => ⟨S100000x32, .f32⟩
  | 11 => ⟨S3200000x1, .i32⟩
  | 12 => ⟨S100000x32, .f32⟩
  | 13 => ⟨S100000x32, .f32⟩
  | 14 => ⟨S_, .i32⟩
  | 15 => ⟨S3200000, .i32⟩
  | 16 => ⟨S3200000, .i1⟩
  | 17 => ⟨S_, .i32⟩
  | 18 => ⟨S3200000, .i32⟩
  | 19 => ⟨S3200000, .i32⟩
  | 20 => ⟨S3200000, .i32⟩
  | 21 => ⟨S3200000x1, .i32⟩
  | 22 => ⟨S3200000x32, .f32⟩
  | 23 => ⟨S3200000x1, .f32⟩
  | 24 => ⟨S3200000x32, .f32⟩
  | 25 => ⟨S3200000x32, .f32⟩
  | 26 => ⟨S_, .f32⟩
  | 27 => ⟨S100000x32, .f32⟩
  | 28 => ⟨S3200000x1, .i32⟩
  | 29 => ⟨S100000x32, .f32⟩
  | 30 => ⟨S100000x32, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000x32, .f32⟩
  | 40 => ⟨S3200000x1, .f32⟩
  | 41 => ⟨S3200000x32, .f32⟩
  | 42 => ⟨S3200000x32, .f32⟩
  | 43 => ⟨S_, .f32⟩
  | 44 => ⟨S100000x32, .f32⟩
  | 45 => ⟨S3200000x1, .i32⟩
  | 46 => ⟨S100000x32, .f32⟩
  | 47 => ⟨S100000x32, .f32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000x32, .f32⟩
  | 57 => ⟨S3200000x1, .f32⟩
  | 58 => ⟨S3200000x32, .f32⟩
  | 59 => ⟨S3200000x32, .f32⟩
  | 60 => ⟨S_, .f32⟩
  | 61 => ⟨S100000x32, .f32⟩
  | 62 => ⟨S3200000x1, .i32⟩
  | 63 => ⟨S100000x32, .f32⟩
  | 64 => ⟨S100000x32, .f32⟩
  | 65 => ⟨S_, .i32⟩
  | 66 => ⟨S3200000, .i32⟩
  | 67 => ⟨S3200000, .i1⟩
  | 68 => ⟨S_, .i32⟩
  | 69 => ⟨S3200000, .i32⟩
  | 70 => ⟨S3200000, .i32⟩
  | 71 => ⟨S3200000, .i32⟩
  | 72 => ⟨S3200000x1, .i32⟩
  | 73 => ⟨S3200000x32, .f32⟩
  | 74 => ⟨S3200000x1, .f32⟩
  | 75 => ⟨S3200000x32, .f32⟩
  | 76 => ⟨S3200000x32, .f32⟩
  | 77 => ⟨S_, .f32⟩
  | 78 => ⟨S100000x32, .f32⟩
  | 79 => ⟨S3200000x1, .i32⟩
  | 80 => ⟨S100000x32, .f32⟩
  | 81 => ⟨S100000x32, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S64, .f32⟩
  | .local _ .vmem, ⟨4, _⟩ => ⟨S64x32, .f32⟩
  | .local _ .vmem, ⟨5, _⟩ => ⟨S32, .f32⟩
  | .local _ .vmem, ⟨6, _⟩ => ⟨S4000x32, .f32⟩
  | .local _ .vmem, ⟨7, _⟩ => ⟨S4000x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S2000x32, .f32⟩
  | .local _ .vmem, ⟨14, _⟩ => ⟨S2000x32, .f32⟩
  | .local _ .vmem, ⟨15, _⟩ => ⟨S2000x32, .f32⟩
  | .local _ .vmem, ⟨16, _⟩ => ⟨S2000x32, .f32⟩
  | .local _ .vmem, ⟨17, _⟩ => ⟨S2000x32, .f32⟩
  | .local _ .vmem, ⟨18, _⟩ => ⟨S2000x32, .f32⟩
  | .local _ .vmem, ⟨19, _⟩ => ⟨S2000x32, .f32⟩
  | .local _ .vmem, ⟨20, _⟩ => ⟨S2000x32, .f32⟩
  | .local _ .vmem, ⟨21, _⟩ => ⟨S2000x32, .f32⟩
  | .local _ .vmem, ⟨22, _⟩ => ⟨S2000x32, .f32⟩
  | .local _ .vmem, ⟨23, _⟩ => ⟨S2000x32, .f32⟩
  | .local _ .vmem, ⟨24, _⟩ => ⟨S2000x32, .f32⟩
  | .local _ .vmem, ⟨25, _⟩ => ⟨S2000x32, .f32⟩
  | .local _ .vmem, ⟨26, _⟩ => ⟨S2000x32, .f32⟩
  | .local _ .vmem, ⟨27, _⟩ => ⟨S2000x32, .f32⟩
  | .local _ .vmem, ⟨28, _⟩ => ⟨S2000x32, .f32⟩
  | .local _ .vmem, ⟨29, _⟩ => ⟨S2000x32, .f32⟩
  | .local _ .vmem, ⟨30, _⟩ => ⟨S2000x32, .f32⟩
  | .local _ .vmem, ⟨31, _⟩ => ⟨S2000x32, .f32⟩
  | .local _ .vmem, ⟨32, _⟩ => ⟨S2000x32, .f32⟩
  | .local _ .vmem, ⟨33, _⟩ => ⟨S2000x32, .f32⟩
  | .local _ .vmem, ⟨34, _⟩ => ⟨S2000x32, .f32⟩
  | .local _ .vmem, ⟨35, _⟩ => ⟨S2000x32, .f32⟩
  | .local _ .vmem, ⟨36, _⟩ => ⟨S2000x32, .f32⟩
  | .local _ .vmem, ⟨37, _⟩ => ⟨S2000x32, .f32⟩
  | .local _ .vmem, ⟨38, _⟩ => ⟨S2000x32, .f32⟩
  | .local _ .vmem, ⟨39, _⟩ => ⟨S2000x32, .f32⟩
  | .local _ .vmem, ⟨40, _⟩ => ⟨S2000x32, .f32⟩
  | .local _ .vmem, ⟨41, _⟩ => ⟨S2000x32, .f32⟩
  | .local _ .vmem, ⟨42, _⟩ => ⟨S2000x32, .f32⟩
  | .local _ .vmem, ⟨43, _⟩ => ⟨S2000x32, .f32⟩
  | .local _ .vmem, ⟨44, _⟩ => ⟨S2000x32, .f32⟩
  | .local _ .vmem, ⟨45, _⟩ => ⟨S2000x32, .f32⟩
  | .local _ .vmem, ⟨46, _⟩ => ⟨S2000x32, .f32⟩
  | .local _ .vmem, ⟨47, _⟩ => ⟨S2000x32, .f32⟩
  | .local _ .vmem, ⟨48, _⟩ => ⟨S2000x32, .f32⟩
  | .local _ .vmem, ⟨49, _⟩ => ⟨S2000x32, .f32⟩
  | .local _ .vmem, ⟨50, _⟩ => ⟨S2000x32, .f32⟩
  | .local _ .vmem, ⟨51, _⟩ => ⟨S2000x32, .f32⟩
  | .local _ .vmem, ⟨52, _⟩ => ⟨S2000x32, .f32⟩
  | .local _ .vmem, ⟨53, _⟩ => ⟨S2000x32, .f32⟩
  | .local _ .vmem, ⟨54, _⟩ => ⟨S2000x32, .f32⟩
  | .local _ .vmem, ⟨55, _⟩ => ⟨S2000x32, .f32⟩
  | .local _ .vmem, ⟨56, _⟩ => ⟨S2000x32, .f32⟩
  | .local _ .vmem, ⟨57, _⟩ => ⟨S2000x32, .f32⟩
  | .local _ .vmem, ⟨58, _⟩ => ⟨S2000x32, .f32⟩
  | .local _ .vmem, ⟨59, _⟩ => ⟨S2000x32, .f32⟩
  | .local _ .vmem, ⟨60, _⟩ => ⟨S2000x32, .f32⟩
  | .local _ .vmem, ⟨61, _⟩ => ⟨S2000x32, .f32⟩
  | .local _ .vmem, ⟨62, _⟩ => ⟨S2000x32, .f32⟩
  | .local _ .vmem, ⟨63, _⟩ => ⟨S2000x32, .f32⟩
  | .local _ .vmem, ⟨64, _⟩ => ⟨S2000x32, .f32⟩
  | .local _ .vmem, ⟨65, _⟩ => ⟨S2000x32, .f32⟩
  | .local _ .vmem, ⟨66, _⟩ => ⟨S2000x32, .f32⟩
  | .local _ .vmem, ⟨67, _⟩ => ⟨S2000x32, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_8 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_11 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_14 : Ref sig .tc := ⟨.hbm, 91, rfl⟩
abbrev main_v69 : Ref sig .tc := ⟨.hbm, 92, rfl⟩
abbrev main_v70 : Ref sig .tc := ⟨.hbm, 93, rfl⟩
abbrev main_c_15 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_16 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_c_17 : Ref sig .tc := ⟨.hbm, 108, rfl⟩
abbrev main_v83 : Ref sig .tc := ⟨.hbm, 109, rfl⟩
abbrev main_v84 : Ref sig .tc := ⟨.hbm, 110, rfl⟩
abbrev main_c_18 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_19 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_c_20 : Ref sig .tc := ⟨.hbm, 125, rfl⟩
abbrev main_v97 : Ref sig .tc := ⟨.hbm, 126, rfl⟩
abbrev main_v98 : Ref sig .tc := ⟨.hbm, 127, rfl⟩
abbrev main_c_21 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_22 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_c_23 : Ref sig .tc := ⟨.hbm, 142, rfl⟩
abbrev main_v111 : Ref sig .tc := ⟨.hbm, 143, rfl⟩
abbrev main_v112 : Ref sig .tc := ⟨.hbm, 144, rfl⟩
abbrev main_c_24 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_25 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_c_26 : Ref sig .tc := ⟨.hbm, 159, rfl⟩
abbrev main_v125 : Ref sig .tc := ⟨.hbm, 160, rfl⟩
abbrev main_v126 : Ref sig .tc := ⟨.hbm, 161, rfl⟩
abbrev main_c_27 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_cst_28 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_c_29 : Ref sig .tc := ⟨.hbm, 176, rfl⟩
abbrev main_v139 : Ref sig .tc := ⟨.hbm, 177, rfl⟩
abbrev main_v140 : Ref sig .tc := ⟨.hbm, 178, rfl⟩
abbrev main_c_30 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_cst_31 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_c_32 : Ref sig .tc := ⟨.hbm, 193, rfl⟩
abbrev main_v153 : Ref sig .tc := ⟨.hbm, 194, rfl⟩
abbrev main_v154 : Ref sig .tc := ⟨.hbm, 195, rfl⟩
abbrev main_c_33 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_cst_34 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg2_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg1_1 : Ref sig .tc := ⟨.vmem, 59, rfl⟩
abbrev cc9_stg2_0 : Ref sig .tc := ⟨.vmem, 60, rfl⟩
abbrev cc9_stg2_1 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg1_1 : Ref sig .tc := ⟨.vmem, 65, rfl⟩
abbrev cc10_stg2_0 : Ref sig .tc := ⟨.vmem, 66, rfl⟩
abbrev cc10_stg2_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem2_1 : DmaSem sig := 55
abbrev cc9_sem0_0 : DmaSem sig := 56
abbrev cc9_sem0_1 : DmaSem sig := 57
abbrev cc9_sem1_0 : DmaSem sig := 58
abbrev cc9_sem1_1 : DmaSem sig := 59
abbrev cc9_sem2_0 : DmaSem sig := 60
abbrev cc9_sem2_1 : DmaSem sig := 61
abbrev cc10_sem0_0 : DmaSem sig := 62
abbrev cc10_sem0_1 : DmaSem sig := 63
abbrev cc10_sem1_0 : DmaSem sig := 64
abbrev cc10_sem1_1 : DmaSem sig := 65
abbrev cc10_sem2_0 : DmaSem sig := 66
abbrev cc10_sem2_1 : DmaSem sig := 67

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x32 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x32 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x32 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S2000x32 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S4000x512_S512x64_S4000x64_1_0_0_1_n_n_wf : DotDims.WF S4000x512 S512x64 S4000x64 [1] [0] [0] [1] [] []
  dot_S4000x64_S64x32_S4000x32_1_0_0_1_n_n_wf : DotDims.WF S4000x64 S64x32 S4000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x32.size a ≤ S100000x32.size a
  hwx0_5 : ∀ i : grid0.Coords, EltTy.bits .f32 = 32 ∨ (Rect.block (s := S100000x32) S4000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S100000x32.size a
  hwx1_1 : ∀ i : grid1.Coords, EltTy.bits .f32 = 32 ∨ (Rect.block (s := S100000x32) S2000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S100000x32.size a
  hwx1_2 : ∀ i : grid1.Coords, EltTy.bits .f32 = 32 ∨ (Rect.block (s := S100000x32) S2000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S100000x32.size a
  hwx2_1 : ∀ i : grid2.Coords, EltTy.bits .f32 = 32 ∨ (Rect.block (s := S100000x32) S2000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S100000x32.size a
  hwx2_2 : ∀ i : grid2.Coords, EltTy.bits .f32 = 32 ∨ (Rect.block (s := S100000x32) S2000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x32.size a ≤ S100000x32.size a
  hwx3_1 : ∀ i : grid3.Coords, EltTy.bits .f32 = 32 ∨ (Rect.block (s := S100000x32) S2000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x32.size a ≤ S100000x32.size a
  hwx3_2 : ∀ i : grid3.Coords, EltTy.bits .f32 = 32 ∨ (Rect.block (s := S100000x32) S2000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S100000x32.size a
  hwx4_0 : ∀ i : grid4.Coords, EltTy.bits .f32 = 32 ∨ (Rect.block (s := S100000x32) S2000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x32.size a ≤ S100000x32.size a
  hwx4_1 : ∀ i : grid4.Coords, EltTy.bits .f32 = 32 ∨ (Rect.block (s := S100000x32) S2000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x32.size a ≤ S100000x32.size a
  hwx4_2 : ∀ i : grid4.Coords, EltTy.bits .f32 = 32 ∨ (Rect.block (s := S100000x32) S2000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S100000x32.size a
  hwx5_0 : ∀ i : grid5.Coords, EltTy.bits .f32 = 32 ∨ (Rect.block (s := S100000x32) S2000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x32.size a ≤ S100000x32.size a
  hwx5_1 : ∀ i : grid5.Coords, EltTy.bits .f32 = 32 ∨ (Rect.block (s := S100000x32) S2000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x32.size a ≤ S100000x32.size a
  hwx5_2 : ∀ i : grid5.Coords, EltTy.bits .f32 = 32 ∨ (Rect.block (s := S100000x32) S2000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x32.size a ≤ S100000x32.size a
  hwx6_0 : ∀ i : grid6.Coords, EltTy.bits .f32 = 32 ∨ (Rect.block (s := S100000x32) S2000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x32.size a ≤ S100000x32.size a
  hwx6_1 : ∀ i : grid6.Coords, EltTy.bits .f32 = 32 ∨ (Rect.block (s := S100000x32) S2000x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x32.size a ≤ S100000x32.size a
  hwx6_2 : ∀ i : grid6.Coords, EltTy.bits .f32 = 32 ∨ (Rect.block (s := S100000x32) S2000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x32.size a ≤ S100000x32.size a
  hwx7_0 : ∀ i : grid7.Coords, EltTy.bits .f32 = 32 ∨ (Rect.block (s := S100000x32) S2000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x32.size a ≤ S100000x32.size a
  hwx7_1 : ∀ i : grid7.Coords, EltTy.bits .f32 = 32 ∨ (Rect.block (s := S100000x32) S2000x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x32.size a ≤ S100000x32.size a
  hwx7_2 : ∀ i : grid7.Coords, EltTy.bits .f32 = 32 ∨ (Rect.block (s := S100000x32) S2000x32.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x32.size a ≤ S100000x32.size a
  hwx8_0 : ∀ i : grid8.Coords, EltTy.bits .f32 = 32 ∨ (Rect.block (s := S100000x32) S2000x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x32.size a ≤ S100000x32.size a
  hwx8_1 : ∀ i : grid8.Coords, EltTy.bits .f32 = 32 ∨ (Rect.block (s := S100000x32) S2000x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x32.size a ≤ S100000x32.size a
  hwx8_2 : ∀ i : grid8.Coords, EltTy.bits .f32 = 32 ∨ (Rect.block (s := S100000x32) S2000x32.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x32.size a ≤ S100000x32.size a
  hwx9_0 : ∀ i : grid9.Coords, EltTy.bits .f32 = 32 ∨ (Rect.block (s := S100000x32) S2000x32.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x32.size a ≤ S100000x32.size a
  hwx9_1 : ∀ i : grid9.Coords, EltTy.bits .f32 = 32 ∨ (Rect.block (s := S100000x32) S2000x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x32.size a ≤ S100000x32.size a
  hwx9_2 : ∀ i : grid9.Coords, EltTy.bits .f32 = 32 ∨ (Rect.block (s := S100000x32) S2000x32.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x32.size a ≤ S100000x32.size a
  hwx10_0 : ∀ i : grid10.Coords, EltTy.bits .f32 = 32 ∨ (Rect.block (s := S100000x32) S2000x32.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x32.size a ≤ S100000x32.size a
  hwx10_1 : ∀ i : grid10.Coords, EltTy.bits .f32 = 32 ∨ (Rect.block (s := S100000x32) S2000x32.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x32.size a ≤ S100000x32.size a
  hwx10_2 : ∀ i : grid10.Coords, EltTy.bits .f32 = 32 ∨ (Rect.block (s := S100000x32) S2000x32.size (cc10_transform_2 i) (hinb10_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S4000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S2000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S2000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S2000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v68) S2000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v81) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S2000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v82) S2000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v95) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v26) S2000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v96) S2000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v109) S2000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v26) S2000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v110) S2000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v123) S2000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v26) S2000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v124) S2000x32.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v137) S2000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v26) S2000x32.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v138) S2000x32.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v151) S2000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v26) S2000x32.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v152) S2000x32.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v165) S2000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v26) S2000x32.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v166) S2000x32.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S1x64 : Shape := ⟨2, ![1, 64]⟩
abbrev S100000x32 : Shape := ⟨2, ![100000, 32]⟩
abbrev S1x32 : Shape := ⟨2, ![1, 32]⟩
abbrev S3200000x32 : Shape := ⟨2, ![3200000, 32]⟩

abbrev nBuf : Space → Nat
  | .hbm => 280
  | .vmem => 0
  | .smem => 0
  | _ => 0

abbrev hbmTy0_0 (i : Nat) : BufTy := match i % 128 with
  | 0 => ⟨S100000x512, .f32⟩
  | 1 => ⟨S2x3200000, .i32⟩
  | 2 => ⟨S512x64, .f32⟩
  | 3 => ⟨S64, .f32⟩
  | 4 => ⟨S64x32, .f32⟩
  | 5 => ⟨S32, .f32⟩
  | 6 => ⟨S1x3200000, .i32⟩
  | 7 => ⟨S3200000, .i32⟩
  | 8 => ⟨S1x3200000, .i32⟩
  | 9 => ⟨S3200000, .i32⟩
  | 10 => ⟨S_, .f32⟩
  | 11 => ⟨S3200000, .f32⟩
  | 12 => ⟨S_, .f32⟩
  | 13 => ⟨S100000, .f32⟩
  | 14 => ⟨S3200000x1, .i32⟩
  | 15 => ⟨S100000, .f32⟩
  | 16 => ⟨S_, .f32⟩
  | 17 => ⟨S100000, .f32⟩
  | 18 => ⟨S100000, .f32⟩
  | 19 => ⟨S_, .i32⟩
  | 20 => ⟨S3200000, .i32⟩
  | 21 => ⟨S3200000, .i1⟩
  | 22 => ⟨S_, .i32⟩
  | 23 => ⟨S3200000, .i32⟩
  | 24 => ⟨S3200000, .i32⟩
  | 25 => ⟨S3200000, .i32⟩
  | 26 => ⟨S3200000x1, .i32⟩
  | 27 => ⟨S3200000, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000, .f32⟩
  | 37 => ⟨S3200000, .f32⟩
  | 38 => ⟨S3200000, .f32⟩
  | 39 => ⟨S100000x64, .f32⟩
  | 40 => ⟨S1x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S100000x32, .f32⟩
  | 47 => ⟨S1x32, .f32⟩
  | 48 => ⟨S100000x32, .f32⟩
  | 49 => ⟨S100000x32, .f32⟩
  | 50 => ⟨S_, .i32⟩
  | 51 => ⟨S3200000, .i32⟩
  | 52 => ⟨S3200000, .i1⟩
  | 53 => ⟨S_, .i32⟩
  | 54 => ⟨S3200000, .i32⟩
  | 55 => ⟨S3200000, .i32⟩
  | 56 => ⟨S3200000, .i32⟩
  | 57 => ⟨S3200000x1, .i32⟩
  | 58 => ⟨S3200000x32, .f32⟩
  | 59 => ⟨S3200000x1, .f32⟩
  | 60 => ⟨S3200000x32, .f32⟩
  | 61 => ⟨S3200000x32, .f32⟩
  | 62 => ⟨S_, .f32⟩
  | 63 => ⟨S100000x32, .f32⟩
  | 64 => ⟨S3200000x1, .i32⟩
  | 65 => ⟨S100000x32, .f32⟩
  | 66 => ⟨S_, .f32⟩
  | 67 => ⟨S100000x32, .f32⟩
  | 68 => ⟨S100000x32, .f32⟩
  | 69 => ⟨S_, .f32⟩
  | 70 => ⟨S100000x32, .f32⟩
  | 71 => ⟨S100000x32, .f32⟩
  | 72 => ⟨S100000x32, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000x32, .f32⟩
  | 82 => ⟨S3200000x1, .f32⟩
  | 83 => ⟨S3200000x32, .f32⟩
  | 84 => ⟨S3200000x32, .f32⟩
  | 85 => ⟨S_, .f32⟩
  | 86 => ⟨S100000x32, .f32⟩
  | 87 => ⟨S3200000x1, .i32⟩
  | 88 => ⟨S100000x32, .f32⟩
  | 89 => ⟨S_, .f32⟩
  | 90 => ⟨S100000x32, .f32⟩
  | 91 => ⟨S100000x32, .f32⟩
  | 92 => ⟨S_, .f32⟩
  | 93 => ⟨S100000x32, .f32⟩
  | 94 => ⟨S100000x32, .f32⟩
  | 95 => ⟨S100000x32, .f32⟩
  | 96 => ⟨S_, .i32⟩
  | 97 => ⟨S3200000, .i32⟩
  | 98 => ⟨S3200000, .i1⟩
  | 99 => ⟨S_, .i32⟩
  | 100 => ⟨S3200000, .i32⟩
  | 101 => ⟨S3200000, .i32⟩
  | 102 => ⟨S3200000, .i32⟩
  | 103 => ⟨S3200000x1, .i32⟩
  | 104 => ⟨S3200000x32, .f32⟩
  | 105 => ⟨S3200000x1, .f32⟩
  | 106 => ⟨S3200000x32, .f32⟩
  | 107 => ⟨S3200000x32, .f32⟩
  | 108 => ⟨S_, .f32⟩
  | 109 => ⟨S100000x32, .f32⟩
  | 110 => ⟨S3200000x1, .i32⟩
  | 111 => ⟨S100000x32, .f32⟩
  | 112 => ⟨S_, .f32⟩
  | 113 => ⟨S100000x32, .f32⟩
  | 114 => ⟨S100000x32, .f32⟩
  | 115 => ⟨S_, .f32⟩
  | 116 => ⟨S100000x32, .f32⟩
  | 117 => ⟨S100000x32, .f32⟩
  | 118 => ⟨S100000x32, .f32⟩
  | 119 => ⟨S_, .i32⟩
  | 120 => ⟨S3200000, .i32⟩
  | 121 => ⟨S3200000, .i1⟩
  | 122 => ⟨S_, .i32⟩
  | 123 => ⟨S3200000, .i32⟩
  | 124 => ⟨S3200000, .i32⟩
  | 125 => ⟨S3200000, .i32⟩
  | 126 => ⟨S3200000x1, .i32⟩
  | 127 => ⟨S3200000x32, .f32⟩
  | _ => ⟨S100000x512, .f32⟩

abbrev hbmTy0_1 (i : Nat) : BufTy := match i % 128 with
  | 0 => ⟨S3200000x1, .f32⟩
  | 1 => ⟨S3200000x32, .f32⟩
  | 2 => ⟨S3200000x32, .f32⟩
  | 3 => ⟨S_, .f32⟩
  | 4 => ⟨S100000x32, .f32⟩
  | 5 => ⟨S3200000x1, .i32⟩
  | 6 => ⟨S100000x32, .f32⟩
  | 7 => ⟨S_, .f32⟩
  | 8 => ⟨S100000x32, .f32⟩
  | 9 => ⟨S100000x32, .f32⟩
  | 10 => ⟨S_, .f32⟩
  | 11 => ⟨S100000x32, .f32⟩
  | 12 => ⟨S100000x32, .f32⟩
  | 13 => ⟨S100000x32, .f32⟩
  | 14 => ⟨S_, .i32⟩
  | 15 => ⟨S3200000, .i32⟩
  | 16 => ⟨S3200000, .i1⟩
  | 17 => ⟨S_, .i32⟩
  | 18 => ⟨S3200000, .i32⟩
  | 19 => ⟨S3200000, .i32⟩
  | 20 => ⟨S3200000, .i32⟩
  | 21 => ⟨S3200000x1, .i32⟩
  | 22 => ⟨S3200000x32, .f32⟩
  | 23 => ⟨S3200000x1, .f32⟩
  | 24 => ⟨S3200000x32, .f32⟩
  | 25 => ⟨S3200000x32, .f32⟩
  | 26 => ⟨S_, .f32⟩
  | 27 => ⟨S100000x32, .f32⟩
  | 28 => ⟨S3200000x1, .i32⟩
  | 29 => ⟨S100000x32, .f32⟩
  | 30 => ⟨S_, .f32⟩
  | 31 => ⟨S100000x32, .f32⟩
  | 32 => ⟨S100000x32, .f32⟩
  | 33 => ⟨S_, .f32⟩
  | 34 => ⟨S100000x32, .f32⟩
  | 35 => ⟨S100000x32, .f32⟩
  | 36 => ⟨S100000x32, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000x32, .f32⟩
  | 46 => ⟨S3200000x1, .f32⟩
  | 47 => ⟨S3200000x32, .f32⟩
  | 48 => ⟨S3200000x32, .f32⟩
  | 49 => ⟨S_, .f32⟩
  | 50 => ⟨S100000x32, .f32⟩
  | 51 => ⟨S3200000x1, .i32⟩
  | 52 => ⟨S100000x32, .f32⟩
  | 53 => ⟨S_, .f32⟩
  | 54 => ⟨S100000x32, .f32⟩
  | 55 => ⟨S100000x32, .f32⟩
  | 56 => ⟨S_, .f32⟩
  | 57 => ⟨S100000x32, .f32⟩
  | 58 => ⟨S100000x32, .f32⟩
  | 59 => ⟨S100000x32, .f32⟩
  | 60 => ⟨S_, .i32⟩
  | 61 => ⟨S3200000, .i32⟩
  | 62 => ⟨S3200000, .i1⟩
  | 63 => ⟨S_, .i32⟩
  | 64 => ⟨S3200000, .i32⟩
  | 65 => ⟨S3200000, .i32⟩
  | 66 => ⟨S3200000, .i32⟩
  | 67 => ⟨S3200000x1, .i32⟩
  | 68 => ⟨S3200000x32, .f32⟩
  | 69 => ⟨S3200000x1, .f32⟩
  | 70 => ⟨S3200000x32, .f32⟩
  | 71 => ⟨S3200000x32, .f32⟩
  | 72 => ⟨S_, .f32⟩
  | 73 => ⟨S100000x32, .f32⟩
  | 74 => ⟨S3200000x1, .i32⟩
  | 75 => ⟨S100000x32, .f32⟩
  | 76 => ⟨S_, .f32⟩
  | 77 => ⟨S100000x32, .f32⟩
  | 78 => ⟨S100000x32, .f32⟩
  | 79 => ⟨S_, .f32⟩
  | 80 => ⟨S100000x32, .f32⟩
  | 81 => ⟨S100000x32, .f32⟩
  | 82 => ⟨S100000x32, .f32⟩
  | 83 => ⟨S_, .i32⟩
  | 84 => ⟨S3200000, .i32⟩
  | 85 => ⟨S3200000, .i1⟩
  | 86 => ⟨S_, .i32⟩
  | 87 => ⟨S3200000, .i32⟩
  | 88 => ⟨S3200000, .i32⟩
  | 89 => ⟨S3200000, .i32⟩
  | 90 => ⟨S3200000x1, .i32⟩
  | 91 => ⟨S3200000x32, .f32⟩
  | 92 => ⟨S3200000x1, .f32⟩
  | 93 => ⟨S3200000x32, .f32⟩
  | 94 => ⟨S3200000x32, .f32⟩
  | 95 => ⟨S_, .f32⟩
  | 96 => ⟨S100000x32, .f32⟩
  | 97 => ⟨S3200000x1, .i32⟩
  | 98 => ⟨S100000x32, .f32⟩
  | 99 => ⟨S_, .f32⟩
  | 100 => ⟨S100000x32, .f32⟩
  | 101 => ⟨S100000x32, .f32⟩
  | 102 => ⟨S_, .f32⟩
  | 103 => ⟨S100000x32, .f32⟩
  | 104 => ⟨S100000x32, .f32⟩
  | 105 => ⟨S100000x32, .f32⟩
  | 106 => ⟨S_, .i32⟩
  | 107 => ⟨S3200000, .i32⟩
  | 108 => ⟨S3200000, .i1⟩
  | 109 => ⟨S_, .i32⟩
  | 110 => ⟨S3200000, .i32⟩
  | 111 => ⟨S3200000, .i32⟩
  | 112 => ⟨S3200000, .i32⟩
  | 113 => ⟨S3200000x1, .i32⟩
  | 114 => ⟨S3200000x32, .f32⟩
  | 115 => ⟨S3200000x1, .f32⟩
  | 116 => ⟨S3200000x32, .f32⟩
  | 117 => ⟨S3200000x32, .f32⟩
  | 118 => ⟨S_, .f32⟩
  | 119 => ⟨S100000x32, .f32⟩
  | 120 => ⟨S3200000x1, .i32⟩
  | 121 => ⟨S100000x32, .f32⟩
  | 122 => ⟨S_, .f32⟩
  | 123 => ⟨S100000x32, .f32⟩
  | 124 => ⟨S100000x32, .f32⟩
  | 125 => ⟨S_, .f32⟩
  | 126 => ⟨S100000x32, .f32⟩
  | 127 => ⟨S100000x32, .f32⟩
  | _ => ⟨S100000x512, .f32⟩

abbrev hbmTy0_2 (i : Nat) : BufTy := match i % 128 with
  | 0 => ⟨S100000x32, .f32⟩
  | 1 => ⟨S_, .i32⟩
  | 2 => ⟨S3200000, .i32⟩
  | 3 => ⟨S3200000, .i1⟩
  | 4 => ⟨S_, .i32⟩
  | 5 => ⟨S3200000, .i32⟩
  | 6 => ⟨S3200000, .i32⟩
  | 7 => ⟨S3200000, .i32⟩
  | 8 => ⟨S3200000x1, .i32⟩
  | 9 => ⟨S3200000x32, .f32⟩
  | 10 => ⟨S3200000x1, .f32⟩
  | 11 => ⟨S3200000x32, .f32⟩
  | 12 => ⟨S3200000x32, .f32⟩
  | 13 => ⟨S_, .f32⟩
  | 14 => ⟨S100000x32, .f32⟩
  | 15 => ⟨S3200000x1, .i32⟩
  | 16 => ⟨S100000x32, .f32⟩
  | 17 => ⟨S_, .f32⟩
  | 18 => ⟨S100000x32, .f32⟩
  | 19 => ⟨S100000x32, .f32⟩
  | 20 => ⟨S_, .f32⟩
  | 21 => ⟨S100000x32, .f32⟩
  | 22 => ⟨S100000x32, .f32⟩
  | 23 => ⟨S100000x32, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_cst : Ref sig .tc := ⟨.hbm, 43, rfl⟩
abbrev main_call0_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_18 : Ref sig .tc := ⟨.hbm, 112, rfl⟩
abbrev main_v84 : Ref sig .tc := ⟨.hbm, 113, rfl⟩
abbrev main_v85 : Ref sig .tc := ⟨.hbm, 114, rfl⟩
abbrev main_cst_19 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_20 : Ref sig .tc := ⟨.hbm, 119, rfl⟩
abbrev main_v89 : Ref sig .tc := ⟨.hbm, 120, rfl⟩
abbrev main_v90 : Ref sig .tc := ⟨.hbm, 121, rfl⟩
abbrev main_c_21 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_22 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_23 : Ref sig .tc := ⟨.hbm, 135, rfl⟩
abbrev main_v102 : Ref sig .tc := ⟨.hbm, 136, rfl⟩
abbrev main_v103 : Ref sig .tc := ⟨.hbm, 137, rfl⟩
abbrev main_cst_24 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_25 : Ref sig .tc := ⟨.hbm, 142, rfl⟩
abbrev main_v107 : Ref sig .tc := ⟨.hbm, 143, rfl⟩
abbrev main_v108 : Ref sig .tc := ⟨.hbm, 144, rfl⟩
abbrev main_c_26 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_27 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_28 : Ref sig .tc := ⟨.hbm, 158, rfl⟩
abbrev main_v120 : Ref sig .tc := ⟨.hbm, 159, rfl⟩
abbrev main_v121 : Ref sig .tc := ⟨.hbm, 160, rfl⟩
abbrev main_cst_29 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_c_30 : Ref sig .tc := ⟨.hbm, 165, rfl⟩
abbrev main_v125 : Ref sig .tc := ⟨.hbm, 166, rfl⟩
abbrev main_v126 : Ref sig .tc := ⟨.hbm, 167, rfl⟩
abbrev main_c_31 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_32 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_33 : Ref sig .tc := ⟨.hbm, 181, rfl⟩
abbrev main_v138 : Ref sig .tc := ⟨.hbm, 182, rfl⟩
abbrev main_v139 : Ref sig .tc := ⟨.hbm, 183, rfl⟩
abbrev main_cst_34 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_c_35 : Ref sig .tc := ⟨.hbm, 188, rfl⟩
abbrev main_v143 : Ref sig .tc := ⟨.hbm, 189, rfl⟩
abbrev main_v144 : Ref sig .tc := ⟨.hbm, 190, rfl⟩
abbrev main_c_36 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_37 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_cst_38 : Ref sig .tc := ⟨.hbm, 204, rfl⟩
abbrev main_v156 : Ref sig .tc := ⟨.hbm, 205, rfl⟩
abbrev main_v157 : Ref sig .tc := ⟨.hbm, 206, rfl⟩
abbrev main_cst_39 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_c_40 : Ref sig .tc := ⟨.hbm, 211, rfl⟩
abbrev main_v161 : Ref sig .tc := ⟨.hbm, 212, rfl⟩
abbrev main_v162 : Ref sig .tc := ⟨.hbm, 213, rfl⟩
abbrev main_c_41 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_cst_42 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_cst_43 : Ref sig .tc := ⟨.hbm, 227, rfl⟩
abbrev main_v174 : Ref sig .tc := ⟨.hbm, 228, rfl⟩
abbrev main_v175 : Ref sig .tc := ⟨.hbm, 229, rfl⟩
abbrev main_cst_44 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_c_45 : Ref sig .tc := ⟨.hbm, 234, rfl⟩
abbrev main_v179 : Ref sig .tc := ⟨.hbm, 235, rfl⟩
abbrev main_v180 : Ref sig .tc := ⟨.hbm, 236, rfl⟩
abbrev main_c_46 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_cst_47 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_cst_48 : Ref sig .tc := ⟨.hbm, 250, rfl⟩
abbrev main_v192 : Ref sig .tc := ⟨.hbm, 251, rfl⟩
abbrev main_v193 : Ref sig .tc := ⟨.hbm, 252, rfl⟩
abbrev main_cst_49 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_c_50 : Ref sig .tc := ⟨.hbm, 257, rfl⟩
abbrev main_v197 : Ref sig .tc := ⟨.hbm, 258, rfl⟩
abbrev main_v198 : Ref sig .tc := ⟨.hbm, 259, rfl⟩
abbrev main_c_51 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_cst_52 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_cst_53 : Ref sig .tc := ⟨.hbm, 273, rfl⟩
abbrev main_v210 : Ref sig .tc := ⟨.hbm, 274, rfl⟩
abbrev main_v211 : Ref sig .tc := ⟨.hbm, 275, rfl⟩
abbrev main_cst_54 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S100000x512_S512x64_S100000x64_1_0_0_1_n_n_wf : DotDims.WF S100000x512 S512x64 S100000x64 [1] [0] [0] [1] [] []
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

class Facts : Prop extends Facts₀ where

variable [Facts]
-- ==== Proof.KernelRun.lean ====
/-
  The idealized kernel's run with its RESULT named.  The program is eleven kernel regions (one two-layer perceptron over
  row blocks, then ten residual blends over row blocks) among stretches of host operations (degree, normalisation, and
  per propagation step a gather, a product and a scatter-add).  The launch over these segments ends with every unscoped
  buffer at the last boundary's contents; read at the result buffer this names what the program returns, and read at the
  arguments it gives them back unchanged.
-/
import proofs.«126228_j7885559956091_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the six arguments as launched. -/
theorem run_result : θ_run defs (onTc (τ := τ) (main (F := F))) ⟨m, fun _ => 0, ρ⟩ (fun r => ∀ c : Dev nD,
      r.2.mem ((c.tc : Thread nD τ).loc main_v166) = W22 m ρ c (Proc.devRef .tc main_v166)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v166 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c)⟩)

end Cert.KernelIdeal.Run

end
-- ==== Proof.HostPrefix.lean ====
/-
  The host operations before the first region.  From the edge list they cut the source and destination rows, count
  each node's in-degree by a scatter-add of ones, floor it at one, and form the symmetric normalisation
  rsqrt(deg[src] · deg[dst]) of every edge.  Both programs spell these operations alike, so each of the three values the
  later steps use — the source indices, the destination indices, the normalisation — is the reference's stage of the
  same name, as a function of the edge list.  The float arguments are not written.
-/
import proofs.«126228_j7885559956091_2_alg».proof.Proof.Gen.KernelIdeal.Launch
import proofs.«126228_j7885559956091_2_alg».proof.Proof.Gen.ReferenceIdeal.Read
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.Read (val_main_v1 val_main_v3 val_main_v25 val_main_v34)

variable {F : FTy → Type} [FloatOps F]

variable (W : Valuation τ sig (Elt F))

/-- The edges' source indices. -/
theorem src0 : after hostOps0 W (Proc.devRef .tc main_v1) = val_main_v1 (W (Proc.devRef .tc main_arg1)) := by
  after_results
  rfl

/-- The edges' destination indices. -/
theorem dst0 : after hostOps0 W (Proc.devRef .tc main_v3) = val_main_v3 (W (Proc.devRef .tc main_arg1)) := by
  after_results
  rfl

set_option maxHeartbeats 4000000 in
/-- The edges' normalisation. -/
theorem norm0 : after hostOps0 W (Proc.devRef .tc main_v25) = val_main_v25 (W (Proc.devRef .tc main_arg1)) := by
  after_results_simp
  rfl

/-- The five float arguments are as they were. -/
theorem arg0_0 : after hostOps0 W (Proc.devRef .tc main_arg0) = W (Proc.devRef .tc main_arg0) := by after_results
theorem arg2_0 : after hostOps0 W (Proc.devRef .tc main_arg2) = W (Proc.devRef .tc main_arg2) := by after_results
theorem arg3_0 : after hostOps0 W (Proc.devRef .tc main_arg3) = W (Proc.devRef .tc main_arg3) := by after_results
theorem arg4_0 : after hostOps0 W (Proc.devRef .tc main_arg4) = W (Proc.devRef .tc main_arg4) := by after_results
theorem arg5_0 : after hostOps0 W (Proc.devRef .tc main_arg5) = W (Proc.devRef .tc main_arg5) := by after_results

end Cert.KernelIdeal.Host

end
-- ==== Proof.MlpLaw.lean ====
/-
  The two-layer perceptron, entry by entry, over the extended reals.  For a row `r` of the features `x` (512 columns):
  the hidden unit `k` is  max (∑ j, x[r,j] · w1[j,k] + b1[k], 0)  and the output class `q` is
  ∑ k, hidden[r,k] · w2[k,q] + b2[q].  The zero of the rectifier is kept as the float word 0x00000000: both programs
  spell the same word there.  The number of rows is a parameter: the kernel computes a block of 4000 rows at a time, the
  reference all 100000 at once, and an output entry depends on its own row of `x` only.
-/
import Idealize.ShloMosaic.PureOps.Ideal
import Idealize.ShloMosaic.Lib.ValueIdx

set_option maxRecDepth 16384

noncomputable section

namespace Cert.Mlp

open Idealize.ShloMosaic Idealize.ShloMosaic.ValueIdx

/-- Hidden unit `k` of row `r`. -/
def hidden {R : Nat} (x : FVec Ideal ⟨2, ![R, 512]⟩ .f32) (w1 : FVec Ideal ⟨2, ![512, 64]⟩ .f32) (b1 : FVec Ideal ⟨1, ![64]⟩ .f32)
    (r : Fin R) (k : Fin 64) : Ideal .f32 :=
  max ((∑ j : Fin 512, x (ix2 r j) * w1 (ix2 j k)) + b1 (ix1 k)) (Ideal.ofBits .f32 0x00000000#32)

/-- Output class `q` of row `r`. -/
def out {R : Nat} (x : FVec Ideal ⟨2, ![R, 512]⟩ .f32) (w1 : FVec Ideal ⟨2, ![512, 64]⟩ .f32) (b1 : FVec Ideal ⟨1, ![64]⟩ .f32)
    (w2 : FVec Ideal ⟨2, ![64, 32]⟩ .f32) (b2 : FVec Ideal ⟨1, ![32]⟩ .f32) (r : Fin R) (q : Fin 32) : Ideal .f32 :=
  (∑ k : Fin 64, hidden x w1 b1 r k * w2 (ix2 k q)) + b2 (ix1 q)

/-- An output entry depends on its own row of the features only: two feature arrays that agree on a row of each give
    the same output there. -/
theorem out_congr {R R' : Nat} (x : FVec Ideal ⟨2, ![R, 512]⟩ .f32) (x' : FVec Ideal ⟨2, ![R', 512]⟩ .f32)
    (w1 : FVec Ideal ⟨2, ![512, 64]⟩ .f32) (b1 : FVec Ideal ⟨1, ![64]⟩ .f32)
    (w2 : FVec Ideal ⟨2, ![64, 32]⟩ .f32) (b2 : FVec Ideal ⟨1, ![32]⟩ .f32) (r : Fin R) (r' : Fin R') (q : Fin 32)
    (h : ∀ j : Fin 512, x (ix2 r j) = x' (ix2 r' j)) : out x w1 b1 w2 b2 r q = out x' w1 b1 w2 b2 r' q := by
  unfold out hidden
  simp only [h]

end Cert.Mlp

end
-- ==== Proof.MlpKernel.lean ====
/-
  The perceptron kernel's body, read at an index.  The body loads a block of 4000 feature rows and the whole of both
  weight matrices and both biases; it stores  (relu (x·w1 + b1))·w2 + b2,  each matrix product a matmul into a zero
  accumulator and each bias a row broadcast over the block's rows.  Over the extended reals the roundings to bf16 on the
  way into the matrix units are the identity, so entry (p, q) of the stored block is the perceptron's output for the
  block's row p and class q.
-/
import proofs.«126228_j7885559956091_2_alg».proof.Proof.Gen.KernelIdeal.Skeleton
import proofs.«126228_j7885559956091_2_alg».proof.Proof.MlpLaw
import Idealize.ShloMosaic.Lib.Pipeline.Value
import Idealize.ShloMosaic.Lib.ValueLayout
import Idealize.ShloMosaic.PureOps.Ideal.Laws

set_option maxRecDepth 16384

noncomputable section

namespace Cert.KernelIdeal.MlpBody

open Idealize.ShloMosaic Idealize.ShloMosaic.TcCoe Idealize.SL.Sem Idealize.ShloMosaic.ValueIdx
open Cert.KernelIdeal Cert.KernelIdeal.Gen

theorem first_lhs0 (i : S4000x64.Idx) (q : dot_S4000x512_S512x64_S4000x64_1_0_0_1_n_n.contr.Idx) : (dot_S4000x512_S512x64_S4000x64_1_0_0_1_n_n.lhsIdx i q 0).val = (i 0).val := by
  unfold DotDims.lhsIdx
  rw [dif_neg (show ¬(0 : Fin S4000x512.rank) ∈ dot_S4000x512_S512x64_S4000x64_1_0_0_1_n_n.lhsBatch by decide), dif_pos (show (0 : Fin S4000x512.rank) ∈ dot_S4000x512_S512x64_S4000x64_1_0_0_1_n_n.lhsNonContracting by decide)]
  rfl
theorem first_lhs1 (i : S4000x64.Idx) (q : dot_S4000x512_S512x64_S4000x64_1_0_0_1_n_n.contr.Idx) : (dot_S4000x512_S512x64_S4000x64_1_0_0_1_n_n.lhsIdx i q 1).val = (q ⟨0, by decide⟩).val :=
  dot_S4000x512_S512x64_S4000x64_1_0_0_1_n_n.lhsIdx_val_of_single rfl i q
theorem first_rhs0 (i : S4000x64.Idx) (q : dot_S4000x512_S512x64_S4000x64_1_0_0_1_n_n.contr.Idx) : (dot_S4000x512_S512x64_S4000x64_1_0_0_1_n_n.rhsIdx i q 0).val = (q ⟨0, by decide⟩).val :=
  dot_S4000x512_S512x64_S4000x64_1_0_0_1_n_n.rhsIdx_val_of_single rfl i q
theorem first_rhs1 (i : S4000x64.Idx) (q : dot_S4000x512_S512x64_S4000x64_1_0_0_1_n_n.contr.Idx) : (dot_S4000x512_S512x64_S4000x64_1_0_0_1_n_n.rhsIdx i q 1).val = (i 1).val := by
  unfold DotDims.rhsIdx
  rw [dif_neg (show ¬(1 : Fin S512x64.rank) ∈ dot_S4000x512_S512x64_S4000x64_1_0_0_1_n_n.rhsBatch by decide), dif_pos (show (1 : Fin S512x64.rank) ∈ dot_S4000x512_S512x64_S4000x64_1_0_0_1_n_n.rhsNonContracting by decide)]
  rfl

/-- The matrix product into a zero accumulator, read at row `p`, column `c`: the sum over the contracted axis of the
    left operand's row `p` times the right operand's column `c`. -/
theorem first_apply (l : FVec Ideal S4000x512 .bf16) (r : FVec Ideal S512x64 .bf16) (p : Fin 4000) (c : Fin 64) :
    matmul dot_S4000x512_S512x64_S4000x64_1_0_0_1_n_n none l r (constant (F := Ideal) S4000x64 .f32 0x00000000#32) (ix2 p c) = ∑ j : Fin 512, l (ix2 p j) * r (ix2 j c) := by
  simp only [matmul]
  rw [Ideal.matmul_constant_zero_apply, ← Equiv.sum_comp (ValueIdx.contrEquiv1 dot_S4000x512_S512x64_S4000x64_1_0_0_1_n_n 512 rfl rfl).symm]
  refine Finset.sum_congr rfl fun j _ => ?_
  have hk := ValueIdx.contrEquiv1_symm_val dot_S4000x512_S512x64_S4000x64_1_0_0_1_n_n 512 rfl rfl j
  have el : dot_S4000x512_S512x64_S4000x64_1_0_0_1_n_n.lhsIdx (ix2 p c) ((ValueIdx.contrEquiv1 dot_S4000x512_S512x64_S4000x64_1_0_0_1_n_n 512 rfl rfl).symm j) = ix2 p j := funext fun a => Fin.ext (by
    match a with
    | ⟨0, _⟩ => exact first_lhs0 _ _
    | ⟨1, _⟩ => exact (first_lhs1 _ _).trans hk)
  have er : dot_S4000x512_S512x64_S4000x64_1_0_0_1_n_n.rhsIdx (ix2 p c) ((ValueIdx.contrEquiv1 dot_S4000x512_S512x64_S4000x64_1_0_0_1_n_n 512 rfl rfl).symm j) = ix2 j c := funext fun a => Fin.ext (by
    match a with
    | ⟨0, _⟩ => exact (first_rhs0 _ _).trans hk
    | ⟨1, _⟩ => exact first_rhs1 _ _)
  rw [el, er]

theorem second_lhs0 (i : S4000x32.Idx) (q : dot_S4000x64_S64x32_S4000x32_1_0_0_1_n_n.contr.Idx) : (dot_S4000x64_S64x32_S4000x32_1_0_0_1_n_n.lhsIdx i q 0).val = (i 0).val := by
  unfold DotDims.lhsIdx
  rw [dif_neg (show ¬(0 : Fin S4000x64.rank) ∈ dot_S4000x64_S64x32_S4000x32_1_0_0_1_n_n.lhsBatch by decide), dif_pos (show (0 : Fin S4000x64.rank) ∈ dot_S4000x64_S64x32_S4000x32_1_0_0_1_n_n.lhsNonContracting by decide)]
  rfl
theorem second_lhs1 (i : S4000x32.Idx) (q : dot_S4000x64_S64x32_S4000x32_1_0_0_1_n_n.contr.Idx) : (dot_S4000x64_S64x32_S4000x32_1_0_0_1_n_n.lhsIdx i q 1).val = (q ⟨0, by decide⟩).val :=
  dot_S4000x64_S64x32_S4000x32_1_0_0_1_n_n.lhsIdx_val_of_single rfl i q
theorem second_rhs0 (i : S4000x32.Idx) (q : dot_S4000x64_S64x32_S4000x32_1_0_0_1_n_n.contr.Idx) : (dot_S4000x64_S64x32_S4000x32_1_0_0_1_n_n.rhsIdx i q 0).val = (q ⟨0, by decide⟩).val :=
  dot_S4000x64_S64x32_S4000x32_1_0_0_1_n_n.rhsIdx_val_of_single rfl i q
theorem second_rhs1 (i : S4000x32.Idx) (q : dot_S4000x64_S64x32_S4000x32_1_0_0_1_n_n.contr.Idx) : (dot_S4000x64_S64x32_S4000x32_1_0_0_1_n_n.rhsIdx i q 1).val = (i 1).val := by
  unfold DotDims.rhsIdx
  rw [dif_neg (show ¬(1 : Fin S64x32.rank) ∈ dot_S4000x64_S64x32_S4000x32_1_0_0_1_n_n.rhsBatch by decide), dif_pos (show (1 : Fin S64x32.rank) ∈ dot_S4000x64_S64x32_S4000x32_1_0_0_1_n_n.rhsNonContracting by decide)]
  rfl

/-- The matrix product into a zero accumulator, read at row `p`, column `c`: the sum over the contracted axis of the
    left operand's row `p` times the right operand's column `c`. -/
theorem second_apply (l : FVec Ideal S4000x64 .bf16) (r : FVec Ideal S64x32 .bf16) (p : Fin 4000) (c : Fin 32) :
    matmul dot_S4000x64_S64x32_S4000x32_1_0_0_1_n_n none l r (constant (F := Ideal) S4000x32 .f32 0x00000000#32) (ix2 p c) = ∑ j : Fin 64, l (ix2 p j) * r (ix2 j c) := by
  simp only [matmul]
  rw [Ideal.matmul_constant_zero_apply, ← Equiv.sum_comp (ValueIdx.contrEquiv1 dot_S4000x64_S64x32_S4000x32_1_0_0_1_n_n 64 rfl rfl).symm]
  refine Finset.sum_congr rfl fun j _ => ?_
  have hk := ValueIdx.contrEquiv1_symm_val dot_S4000x64_S64x32_S4000x32_1_0_0_1_n_n 64 rfl rfl j
  have el : dot_S4000x64_S64x32_S4000x32_1_0_0_1_n_n.lhsIdx (ix2 p c) ((ValueIdx.contrEquiv1 dot_S4000x64_S64x32_S4000x32_1_0_0_1_n_n 64 rfl rfl).symm j) = ix2 p j := funext fun a => Fin.ext (by
    match a with
    | ⟨0, _⟩ => exact second_lhs0 _ _
    | ⟨1, _⟩ => exact (second_lhs1 _ _).trans hk)
  have er : dot_S4000x64_S64x32_S4000x32_1_0_0_1_n_n.rhsIdx (ix2 p c) ((ValueIdx.contrEquiv1 dot_S4000x64_S64x32_S4000x32_1_0_0_1_n_n 64 rfl rfl).symm j) = ix2 j c := funext fun a => Fin.ext (by
    match a with
    | ⟨0, _⟩ => exact (second_rhs0 _ _).trans hk
    | ⟨1, _⟩ => exact second_rhs1 _ _)
  rw [el, er]

/-- Entry (p, q) of the block the body stores is the perceptron's output for row `p` of the loaded feature block. -/
theorem pay_apply (xb : FVec Ideal S4000x512 .f32) (w1 : FVec Ideal S512x64 .f32) (b1 : FVec Ideal S64 .f32)
    (w2 : FVec Ideal S64x32 .f32) (b2 : FVec Ideal S32 .f32) (p : Fin 4000) (q : Fin 32) :
    k0_pay1 (F := Ideal) xb w1 b1 w2 b2 (ix2 p q) = Cert.Mlp.out xb w1 b1 w2 b2 p q := by
  unfold k0_pay1 Cert.Mlp.out
  rw [addf_apply, second_apply, broadcastTo_1b_ab_apply, shapeCast_a_1a_apply]
  refine congrArg (· + b2 (ix1 q)) (Finset.sum_congr rfl fun k _ => ?_)
  rw [truncf_apply, truncf_apply, maximumf_apply, addf_apply, first_apply, broadcastTo_1b_ab_apply, shapeCast_a_1a_apply,
    broadcast_apply]
  simp only [truncf_apply]
  rfl

end Cert.KernelIdeal.MlpBody

end
-- ==== Proof.MlpRegion.lean ====
/-
  Region 0 (the perceptron) as one whole-array function.  The grid has twenty-five points; point `t` fetches rows
  4000·t … 4000·t + 3999 of the features and the whole of both weight matrices and both biases, computes the
  perceptron on that block of rows, and writes the 4000 × 32 block back to the same rows of the output array.  The
  twenty-five blocks tile the 100000 rows, and an output row depends on its own feature row only, so the output array
  ends as the perceptron of the whole feature array as the region found it.
-/
import proofs.«126228_j7885559956091_2_alg».proof.Proof.Gen.KernelIdeal.Frame
import proofs.«126228_j7885559956091_2_alg».proof.Proof.MlpKernel

set_option maxRecDepth 16384

noncomputable section

namespace Cert.KernelIdeal.MlpRegion

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The perceptron of whole arrays: entry (r, q) is the output for feature row r and class q. -/
def mlpArr (x : FVec Ideal S100000x512 .f32) (w1 : FVec Ideal S512x64 .f32) (b1 : FVec Ideal S64 .f32)
    (w2 : FVec Ideal S64x32 .f32) (b2 : FVec Ideal S32 .f32) : FVec Ideal S100000x32 .f32 :=
  fun i => Cert.Mlp.out x w1 b1 w2 b2 (i 0) (i 1)

theorem mlpArr_apply (x : FVec Ideal S100000x512 .f32) (w1 : FVec Ideal S512x64 .f32) (b1 : FVec Ideal S64 .f32)
    (w2 : FVec Ideal S64x32 .f32) (b2 : FVec Ideal S32 .f32) (r : Fin 100000) (q : Fin 32) :
    mlpArr x w1 b1 w2 b2 (ix2 r q) = Cert.Mlp.out x w1 b1 w2 b2 r q := rfl

theorem zero2 : (![0, 0] : Fin 2 → Nat) = fun _ => 0 := funext fun a => by fin_cases a <;> rfl
theorem zero1 : (![0] : Fin 1 → Nat) = fun _ => 0 := funext fun a => by fin_cases a <;> rfl

/-- The index maps over the grid: the feature window and the output window sit at block row `t`; the weights and the
    biases are fetched whole at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point `t` writes back is block `t` of the perceptron of the arrays as the region found them. -/
theorem flushed0 (c : Dev nD) (t : Fin cfg0.N) :
    (dat0 V c).flushed 5 t = ((cfg0.win 5).blk t).view.read (Elt Ideal)
      (mlpArr (V c main_arg0) (V c main_arg2) (V c main_arg3) (V c main_arg4) (V c main_arg5)) := by
  show (cfg0.win 5).cut (grid0.coords t) ((dat0 V c).after 5 t) = _
  rw [after0_5]
  unfold out0_5
  rw [View.canon_unit_zero zero2]
  simp only [View.ld_unit_zero (S := S4000x512) zero2, View.ld_unit_zero (S := S512x64) zero2, View.ld_unit_zero (S := S64) zero1,
    View.ld_unit_zero (S := S64x32) zero2, View.ld_unit_zero (S := S32) zero1]
  obtain ⟨a0, a1, a2, a3, a4, a5, a6, a7, a8, a9⟩ := idx0 t
  have ht : t.val < 25 := by have h : t.val < grid0.N := t.isLt; rwa [N_0] at h
  funext j
  obtain ⟨p, q, rfl⟩ : ∃ (p : Fin 4000) (q : Fin 32), j = ix2 p q := ⟨j 0, j 1, eq_ix2 j⟩
  have hp : p.val < 4000 := p.isLt
  refine (MlpBody.pay_apply (iblk0 V c 0 t) (iblk0 V c 1 t) (iblk0 V c 2 t) (iblk0 V c 3 t) (iblk0 V c 4 t) p q).trans ?_
  -- the whole-fetched windows' blocks are their arrays
  have w1 : iblk0 V c 1 t = V c main_arg2 := by
    funext y
    show V c main_arg2 (((cfg0.win 1).blk t).view.emb y) = V c main_arg2 y
    refine congrArg _ (funext fun a => Fin.ext ?_)
    match a with
    | ⟨0, _⟩ => show win0_1.index t (0 : Fin 2) * 512 + 1 * (y 0).val = (y 0).val; omega
    | ⟨1, _⟩ => show win0_1.index t (1 : Fin 2) * 64 + 1 * (y 1).val = (y 1).val; omega
  have w2 : iblk0 V c 2 t = V c main_arg3 := by
    funext y
    show V c main_arg3 (((cfg0.win 2).blk t).view.emb y) = V c main_arg3 y
    refine congrArg _ (funext fun a => Fin.ext ?_)
    match a with
    | ⟨0, _⟩ => show win0_2.index t (0 : Fin 1) * 64 + 1 * (y 0).val = (y 0).val; omega
  have w3 : iblk0 V c 3 t = V c main_arg4 := by
    funext y
    show V c main_arg4 (((cfg0.win 3).blk t).view.emb y) = V c main_arg4 y
    refine congrArg _ (funext fun a => Fin.ext ?_)
    match a with
    | ⟨0, _⟩ => show win0_3.index t (0 : Fin 2) * 64 + 1 * (y 0).val = (y 0).val; omega
    | ⟨1, _⟩ => show win0_3.index t (1 : Fin 2) * 32 + 1 * (y 1).val = (y 1).val; omega
  have w4 : iblk0 V c 4 t = V c main_arg5 := by
    funext y
    show V c main_arg5 (((cfg0.win 4).blk t).view.emb y) = V c main_arg5 y
    refine congrArg _ (funext fun a => Fin.ext ?_)
    match a with
    | ⟨0, _⟩ => show win0_4.index t (0 : Fin 1) * 32 + 1 * (y 0).val = (y 0).val; omega
  rw [w1, w2, w3, w4]
  -- the output's entry sits at row 4000·t + p of the array, and the feature block's row p is that row of the features
  have hi : ((cfg0.win 5).blk t).view.emb (ix2 p q) = ix2 (⟨t.val * 4000 + p.val, by omega⟩ : Fin 100000) q := by
    funext a; apply Fin.ext
    match a with
    | ⟨0, _⟩ => show win0_5.index t (0 : Fin 2) * 4000 + 1 * p.val = t.val * 4000 + p.val; omega
    | ⟨1, _⟩ => show win0_5.index t (1 : Fin 2) * 32 + 1 * q.val = q.val; omega
  show _ = mlpArr (V c main_arg0) (V c main_arg2) (V c main_arg3) (V c main_arg4) (V c main_arg5) (((cfg0.win 5).blk t).view.emb (ix2 p q))
  rw [hi, mlpArr_apply]
  refine Cert.Mlp.out_congr _ _ _ _ _ _ _ _ _ fun k => ?_
  show V c main_arg0 (((cfg0.win 0).blk t).view.emb (ix2 p k)) = V c main_arg0 (ix2 (⟨t.val * 4000 + p.val, by omega⟩ : Fin 100000) k)
  refine congrArg _ (funext fun a => Fin.ext ?_)
  match a with
  | ⟨0, _⟩ => show win0_0.index t (0 : Fin 2) * 4000 + 1 * p.val = t.val * 4000 + p.val; omega
  | ⟨1, _⟩ => show win0_0.index t (1 : Fin 2) * 512 + 1 * k.val = k.val; omega

/-- An index of the output array is in point `t`'s block iff each coordinate is in the block's range on its axis. -/
theorem mem_blk0 (t : Fin cfg0.N) (i : S100000x32.Idx) :
    i ∈ ((cfg0.win 5).blk t).view.set ↔ ∀ a : Fin 2, win0_5.index t a * S4000x32.size a ≤ (i a).val ∧ (i a).val < win0_5.index t a * S4000x32.size a + S4000x32.size a := by
  show i ∈ ((View.whole main_v26).slice (win0_5.rect t)).set ↔ _
  rw [View.set_slice_whole, Rect.mem_set_unit]
  exact Iff.rfl

/-- Every index of the output array is in some point's block: row `r` is in block `r / 4000`. -/
theorem cover0 (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  have hN : grid0.N = 25 := N_0
  refine ⟨⟨(i 0).val / 4000, by show (i 0).val / 4000 < grid0.N; omega⟩, flush0_5 _, ?_⟩
  rw [mem_blk0]
  obtain ⟨a0, a1, a2, a3, a4, a5, a6, a7, a8, a9⟩ := idx0 ⟨(i 0).val / 4000, by show (i 0).val / 4000 < grid0.N; omega⟩
  intro a
  match a with
  | ⟨0, _⟩ => show win0_5.index _ (0 : Fin 2) * 4000 ≤ (i 0).val ∧ (i 0).val < win0_5.index _ (0 : Fin 2) * 4000 + 4000; rw [a8]; show (i 0).val / 4000 * 4000 ≤ (i 0).val ∧ (i 0).val < (i 0).val / 4000 * 4000 + 4000; omega
  | ⟨1, _⟩ => show win0_5.index _ (1 : Fin 2) * 32 ≤ (i 1).val ∧ (i 1).val < win0_5.index _ (1 : Fin 2) * 32 + 32; rw [a9]; omega

/-- The output array after the region: the perceptron of the features, weights and biases as the region found them. -/
theorem arr0 (c : Dev nD) : (dat0 V c).arrAt 5 cfg0.N
    = mlpArr (V c main_arg0) (V c main_arg2) (V c main_arg3) (V c main_arg4) (V c main_arg5) :=
  (dat0 V c).arrAt_eq_of_cover 5 _ (fun t _ => flushed0 V c t) (cover0)

end Cert.KernelIdeal.MlpRegion

end
-- ==== Proof.MlpRef.lean ====
/-
  The reference's perceptron, read at an index.  The reference computes  relu (x·w1 + b1)·w2 + b2  over all 100000 rows at
  once, each product a dot_general contracting the inner axis, each bias a vector broadcast along the rows.  Reading
  the generated stages one operation at a time, entry (r, q) of its result is the perceptron's output for row r and
  class q.
-/
import proofs.«126228_j7885559956091_2_alg».proof.Proof.Gen.ReferenceIdeal.Read
import proofs.«126228_j7885559956091_2_alg».proof.Proof.MlpLaw

set_option maxRecDepth 16384

noncomputable section

namespace Cert.ReferenceIdeal.MlpRead

open Idealize.ShloMosaic Idealize.ShloMosaic.TcCoe Idealize.SL.Sem Idealize.ShloMosaic.ValueIdx
open Cert.ReferenceIdeal Cert.ReferenceIdeal.Read

/-- Entry (r, q) of the reference's perceptron stage. -/
theorem ref_apply (x0 : FVec Ideal S100000x512 .f32) (x2 : FVec Ideal S512x64 .f32) (x3 : FVec Ideal S64 .f32)
    (x4 : FVec Ideal S64x32 .f32) (x5 : FVec Ideal S32 .f32) (r : Fin 100000) (q : Fin 32) :
    val_main_v34 (F := Ideal) x0 x2 x3 x4 x5 (ix2 r q) = Cert.Mlp.out x0 x2 x3 x4 x5 r q := by
  have e1 : ∀ k, lidx_main_v31 (ix2 r q) k = ix2 r k := fun k => funext fun a => Fin.ext (by
    match a with
    | ⟨0, _⟩ => rfl
    | ⟨1, _⟩ => rfl)
  have e2 : ∀ k, ridx_main_v31 (ix2 r q) k = ix2 k q := fun k => funext fun a => Fin.ext (by
    match a with
    | ⟨0, _⟩ => rfl
    | ⟨1, _⟩ => rfl)
  have e3 : idx_main_v32 (idx_main_v33 (ix2 r q)) = ix1 q := funext fun a => Fin.ext (by
    match a with
    | ⟨0, _⟩ => rfl)
  rw [val_main_v34_apply, val_main_v31_apply, val_main_v33_apply, val_main_v32_apply]
  simp only [e1, e2, e3]
  unfold Cert.Mlp.out
  refine congrArg (· + x5 (ix1 q)) (Finset.sum_congr rfl fun k _ => ?_)
  refine congrArg (· * x4 (ix2 k q)) ?_
  have e4 : ∀ j, lidx_main_v26 (ix2 r k) j = ix2 r j := fun j => funext fun a => Fin.ext (by
    match a with
    | ⟨0, _⟩ => rfl
    | ⟨1, _⟩ => rfl)
  have e5 : ∀ j, ridx_main_v26 (ix2 r k) j = ix2 j k := fun j => funext fun a => Fin.ext (by
    match a with
    | ⟨0, _⟩ => rfl
    | ⟨1, _⟩ => rfl)
  have e6 : idx_main_v27 (idx_main_v28 (ix2 r k)) = ix1 k := funext fun a => Fin.ext (by
    match a with
    | ⟨0, _⟩ => rfl)
  rw [val_main_v30_apply, val_main_v29_apply, val_main_v26_apply, val_main_v28_apply, val_main_v27_apply,
    val_main_call0_v0_apply, val_main_call0_cst_apply]
  simp only [e4, e5, e6]
  rfl

end Cert.ReferenceIdeal.MlpRead

end
-- ==== Proof.BlendLaw.lean ====
/-
  The residual blend, as one function of two arrays.  Each propagation step ends by replacing the aggregate `a` with
  `a · (9/10 as a float) + (1/10 as a float) · h`, entry by entry, where `h` is the perceptron's output.  The two
  factors are the float words 0x3F666666 and 0x3DCCCCCD, kept as words: both programs spell the same words, so they are
  never evaluated.
-/
import Idealize.ShloMosaic.Lib.Pipeline.Value
import Idealize.ShloMosaic.Lib.ValueIdx

set_option maxRecDepth 16384

noncomputable section

namespace Cert.KernelIdeal.Blend

open Idealize.ShloMosaic Idealize.ShloMosaic.TcCoe Idealize.SL.Sem

variable {F : FTy → Type} [FloatOps F]

/-- The blend of an aggregate `a` with the perceptron's output `h`, entry by entry. -/
def blend {S : Shape} (a h : S.Idx → Elt F .f32) : S.Idx → Elt F .f32 := fun i =>
  FloatOps.addf (FloatOps.mulf (a i) (Scalar.ofBits .f32 0x3F666666#32)) (FloatOps.mulf (Scalar.ofBits .f32 0x3DCCCCCD#32) (h i))

theorem blend_apply {S : Shape} (a h : S.Idx → Elt F .f32) (i : S.Idx) :
    blend a h i = FloatOps.addf (FloatOps.mulf (a i) (Scalar.ofBits .f32 0x3F666666#32)) (FloatOps.mulf (Scalar.ofBits .f32 0x3DCCCCCD#32) (h i)) := rfl

/-- A block's offset of all zeros, as the library's lemmas about whole-buffer loads and stores ask for it. -/
theorem zero_offset : (![0, 0] : Fin 2 → Nat) = fun _ => 0 := funext fun a => by fin_cases a <;> rfl

end Cert.KernelIdeal.Blend

end
-- ==== Proof.BlendRef.lean ====
/-
  The reference's residual blend.  Each of its ten propagation steps ends with
  aggregate · (broadcast of the float 0x3F666666) + (broadcast of the float 0x3DCCCCCD) · (perceptron's output),
  entry by entry; a scalar broadcast read at any index is the scalar.  So each step's last stage is the blend (of
  BlendLaw) of that step's aggregate stage with the perceptron stage.
-/
import proofs.«126228_j7885559956091_2_alg».proof.Proof.Gen.ReferenceIdeal.Read
import proofs.«126228_j7885559956091_2_alg».proof.Proof.BlendLaw

set_option maxRecDepth 16384

noncomputable section

namespace Cert.ReferenceIdeal.BlendRead

open Idealize.ShloMosaic Idealize.ShloMosaic.TcCoe Idealize.SL.Sem
open Cert.ReferenceIdeal Cert.ReferenceIdeal.Read

variable {F : FTy → Type} [FloatOps F]
variable (x0 : (⟨S100000x512, .f32⟩ : BufTy).Contents (Elt F)) (x1 : (⟨S2x3200000, .i32⟩ : BufTy).Contents (Elt F))
  (x2 : (⟨S512x64, .f32⟩ : BufTy).Contents (Elt F)) (x3 : (⟨S64, .f32⟩ : BufTy).Contents (Elt F))
  (x4 : (⟨S64x32, .f32⟩ : BufTy).Contents (Elt F)) (x5 : (⟨S32, .f32⟩ : BufTy).Contents (Elt F))

/-- Step 1. -/
theorem blend_ref1 : Cert.KernelIdeal.Blend.blend (val_main_v47 (F := F) x0 x1 x2 x3 x4 x5) (val_main_v34 (F := F) x0 x2 x3 x4 x5)
    = val_main_v52 (F := F) x0 x1 x2 x3 x4 x5 := by
  funext i
  rw [val_main_v52_apply, val_main_v49_apply, val_main_v51_apply, val_main_v48_apply, val_main_v50_apply,
    val_main_cst_8_apply, val_main_cst_9_apply]
  rfl

/-- Step 2. -/
theorem blend_ref2 : Cert.KernelIdeal.Blend.blend (val_main_v65 (F := F) x0 x1 x2 x3 x4 x5) (val_main_v34 (F := F) x0 x2 x3 x4 x5)
    = val_main_v70 (F := F) x0 x1 x2 x3 x4 x5 := by
  funext i
  rw [val_main_v70_apply, val_main_v67_apply, val_main_v69_apply, val_main_v66_apply, val_main_v68_apply,
    val_main_cst_13_apply, val_main_cst_14_apply]
  rfl

/-- Step 3. -/
theorem blend_ref3 : Cert.KernelIdeal.Blend.blend (val_main_v83 (F := F) x0 x1 x2 x3 x4 x5) (val_main_v34 (F := F) x0 x2 x3 x4 x5)
    = val_main_v88 (F := F) x0 x1 x2 x3 x4 x5 := by
  funext i
  rw [val_main_v88_apply, val_main_v85_apply, val_main_v87_apply, val_main_v84_apply, val_main_v86_apply,
    val_main_cst_18_apply, val_main_cst_19_apply]
  rfl

/-- Step 4. -/
theorem blend_ref4 : Cert.KernelIdeal.Blend.blend (val_main_v101 (F := F) x0 x1 x2 x3 x4 x5) (val_main_v34 (F := F) x0 x2 x3 x4 x5)
    = val_main_v106 (F := F) x0 x1 x2 x3 x4 x5 := by
  funext i
  rw [val_main_v106_apply, val_main_v103_apply, val_main_v105_apply, val_main_v102_apply, val_main_v104_apply,
    val_main_cst_23_apply, val_main_cst_24_apply]
  rfl

/-- Step 5. -/
theorem blend_ref5 : Cert.KernelIdeal.Blend.blend (val_main_v119 (F := F) x0 x1 x2 x3 x4 x5) (val_main_v34 (F := F) x0 x2 x3 x4 x5)
    = val_main_v124 (F := F) x0 x1 x2 x3 x4 x5 := by
  funext i
  rw [val_main_v124_apply, val_main_v121_apply, val_main_v123_apply, val_main_v120_apply, val_main_v122_apply,
    val_main_cst_28_apply, val_main_cst_29_apply]
  rfl

/-- Step 6. -/
theorem blend_ref6 : Cert.KernelIdeal.Blend.blend (val_main_v137 (F := F) x0 x1 x2 x3 x4 x5) (val_main_v34 (F := F) x0 x2 x3 x4 x5)
    = val_main_v142 (F := F) x0 x1 x2 x3 x4 x5 := by
  funext i
  rw [val_main_v142_apply, val_main_v139_apply, val_main_v141_apply, val_main_v138_apply, val_main_v140_apply,
    val_main_cst_33_apply, val_main_cst_34_apply]
  rfl

/-- Step 7. -/
theorem blend_ref7 : Cert.KernelIdeal.Blend.blend (val_main_v155 (F := F) x0 x1 x2 x3 x4 x5) (val_main_v34 (F := F) x0 x2 x3 x4 x5)
    = val_main_v160 (F := F) x0 x1 x2 x3 x4 x5 := by
  funext i
  rw [val_main_v160_apply, val_main_v157_apply, val_main_v159_apply, val_main_v156_apply, val_main_v158_apply,
    val_main_cst_38_apply, val_main_cst_39_apply]
  rfl

/-- Step 8. -/
theorem blend_ref8 : Cert.KernelIdeal.Blend.blend (val_main_v173 (F := F) x0 x1 x2 x3 x4 x5) (val_main_v34 (F := F) x0 x2 x3 x4 x5)
    = val_main_v178 (F := F) x0 x1 x2 x3 x4 x5 := by
  funext i
  rw [val_main_v178_apply, val_main_v175_apply, val_main_v177_apply, val_main_v174_apply, val_main_v176_apply,
    val_main_cst_43_apply, val_main_cst_44_apply]
  rfl

/-- Step 9. -/
theorem blend_ref9 : Cert.KernelIdeal.Blend.blend (val_main_v191 (F := F) x0 x1 x2 x3 x4 x5) (val_main_v34 (F := F) x0 x2 x3 x4 x5)
    = val_main_v196 (F := F) x0 x1 x2 x3 x4 x5 := by
  funext i
  rw [val_main_v196_apply, val_main_v193_apply, val_main_v195_apply, val_main_v192_apply, val_main_v194_apply,
    val_main_cst_48_apply, val_main_cst_49_apply]
  rfl

/-- Step 10. -/
theorem blend_ref10 : Cert.KernelIdeal.Blend.blend (val_main_v209 (F := F) x0 x1 x2 x3 x4 x5) (val_main_v34 (F := F) x0 x2 x3 x4 x5)
    = val_main_v214 (F := F) x0 x1 x2 x3 x4 x5 := by
  funext i
  rw [val_main_v214_apply, val_main_v211_apply, val_main_v213_apply, val_main_v210_apply, val_main_v212_apply,
    val_main_cst_53_apply, val_main_cst_54_apply]
  rfl

end Cert.ReferenceIdeal.BlendRead

end
-- ==== Proof.HostStep1.lean ====
/-
  The host operations of propagation step 1: gather the current features' rows at the edges' source indices (a negative
  index first wrapped by the row count), scale each gathered row by its edge's normalisation, and scatter-add the
  rows into a zero array at the edges' destination indices.  Both programs spell these operations alike; so where the
  stretch finds the reference's stages in the buffers it reads, it leaves the reference's aggregate in the buffer it
  ends with.  The edge indices, the normalisation and the perceptron's output are not written.
-/
import proofs.«126228_j7885559956091_2_alg».proof.Proof.Gen.KernelIdeal.Launch
import proofs.«126228_j7885559956091_2_alg».proof.Proof.Gen.ReferenceIdeal.Read
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.Read (val_main_v1 val_main_v3 val_main_v25 val_main_v34)

variable {F : FTy → Type} [FloatOps F]

open Cert.ReferenceIdeal.Read (val_main_v47)

variable (W : Valuation τ sig (Elt F))
variable (x0 : (⟨Cert.ReferenceIdeal.S100000x512, .f32⟩ : BufTy).Contents (Elt F)) (x1 : (⟨Cert.ReferenceIdeal.S2x3200000, .i32⟩ : BufTy).Contents (Elt F))
  (x2 : (⟨Cert.ReferenceIdeal.S512x64, .f32⟩ : BufTy).Contents (Elt F)) (x3 : (⟨Cert.ReferenceIdeal.S64, .f32⟩ : BufTy).Contents (Elt F))
  (x4 : (⟨Cert.ReferenceIdeal.S64x32, .f32⟩ : BufTy).Contents (Elt F)) (x5 : (⟨Cert.ReferenceIdeal.S32, .f32⟩ : BufTy).Contents (Elt F))

set_option maxHeartbeats 4000000 in
/-- Step 1's aggregate. -/
theorem agg1
    (hh : W (Proc.devRef .tc main_v26) = val_main_v34 x0 x2 x3 x4 x5)
    (hs : W (Proc.devRef .tc main_v1) = val_main_v1 x1) (hd : W (Proc.devRef .tc main_v3) = val_main_v3 x1)
    (hn : W (Proc.devRef .tc main_v25) = val_main_v25 x1) :
    after hostOps1 W (Proc.devRef .tc main_v39) = val_main_v47 x0 x1 x2 x3 x4 x5 := by
  after_results_simp
  rw [hh, hs, hd, hn]
  rfl

theorem src1 : after hostOps1 W (Proc.devRef .tc main_v1) = W (Proc.devRef .tc main_v1) := by after_results
theorem dst1 : after hostOps1 W (Proc.devRef .tc main_v3) = W (Proc.devRef .tc main_v3) := by after_results
theorem norm1 : after hostOps1 W (Proc.devRef .tc main_v25) = W (Proc.devRef .tc main_v25) := by after_results
theorem mlp1 : after hostOps1 W (Proc.devRef .tc main_v26) = W (Proc.devRef .tc main_v26) := by after_results

end Cert.KernelIdeal.Host

end
-- ==== Proof.BlendRegion1.lean ====
/-
  Region 1 (propagation step 1's residual blend) as one whole-array function.  The grid has fifty points; point `t`
  fetches rows 2000·t … 2000·t + 1999 of the aggregate and of the perceptron's output, blends them entry by entry, and
  writes the block back to the same rows of the output array.  The fifty blocks tile the 100000 rows, so the output
  array ends as the blend of the two input arrays as the region found them.
-/
import proofs.«126228_j7885559956091_2_alg».proof.Proof.Gen.KernelIdeal.Frame
import proofs.«126228_j7885559956091_2_alg».proof.Proof.BlendLaw

set_option maxRecDepth 16384

noncomputable section

namespace Cert.KernelIdeal.Blend

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The body's stored value is the blend of its two loaded blocks (a shape cast to the same shape is the identity). -/
theorem pay1 (x0 x1 : Vec F S2000x32 .f32) : k1_pay1 x0 x1 = blend x0 x1 := by
  funext j
  unfold k1_pay1
  rw [shapeCast_self, shapeCast_self]
  rfl

/-- The index maps over the grid: all three windows sit at block row `t`, block column 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the blend of the two input arrays. -/
theorem flushed1 (c : Dev nD) (t : Fin cfg1.N) :
    (dat1 V c).flushed 2 t = ((cfg1.win 2).blk t).view.read (Elt F) (blend (V c main_v39) (V c main_v26)) := by
  show (cfg1.win 2).cut (grid1.coords t) ((dat1 V c).after 2 t) = _
  rw [after1_2]
  unfold out1_2
  rw [View.canon_unit_zero zero_offset]
  simp only [View.ld_unit_zero (S := S2000x32) zero_offset]
  rw [pay1]
  obtain ⟨e0, e1, e2, e3, e4, e5⟩ := idx1 t
  funext j
  show blend (iblk1 V c 0 t) (iblk1 V c 1 t) j = blend (V c main_v39) (V c main_v26) (((cfg1.win 2).blk t).view.emb j)
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 32 + 1 * (j 1).val = win1_2.index t (1 : Fin 2) * 32 + 1 * (j 1).val; omega
  have h1 : ((cfg1.win 1).blk t).view.emb j = ((cfg1.win 2).blk t).view.emb j := by
    funext a; apply Fin.ext
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 32 + 1 * (j 1).val = win1_2.index t (1 : Fin 2) * 32 + 1 * (j 1).val; omega
  show blend (fun y => V c main_v39 (((cfg1.win 0).blk t).view.emb y)) (fun y => V c main_v26 (((cfg1.win 1).blk t).view.emb y)) j = _
  rw [blend_apply, blend_apply, h0, h1]

/-- An index of the output array is in point `t`'s block iff each coordinate is in the block's range on its axis. -/
theorem mem_blk1 (t : Fin cfg1.N) (i : S100000x32.Idx) :
    i ∈ ((cfg1.win 2).blk t).view.set ↔ ∀ a : Fin 2, win1_2.index t a * S2000x32.size a ≤ (i a).val ∧ (i a).val < win1_2.index t a * S2000x32.size a + S2000x32.size a := by
  show i ∈ ((View.whole main_v40).slice (win1_2.rect t)).set ↔ _
  rw [View.set_slice_whole, Rect.mem_set_unit]
  exact Iff.rfl

/-- Every index of the output array is in some point's block: row `r` is in block `r / 2000`. -/
theorem cover1 (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : grid1.N = 50 := N_1
  refine ⟨⟨(i 0).val / 2000, by show (i 0).val / 2000 < grid1.N; omega⟩, flush1_2 _, ?_⟩
  rw [mem_blk1]
  obtain ⟨e0, e1, e2, e3, e4, e5⟩ := idx1 ⟨(i 0).val / 2000, by show (i 0).val / 2000 < grid1.N; omega⟩
  intro a
  match a with
  | ⟨0, _⟩ => show win1_2.index _ (0 : Fin 2) * 2000 ≤ (i 0).val ∧ (i 0).val < win1_2.index _ (0 : Fin 2) * 2000 + 2000; rw [e4]; show (i 0).val / 2000 * 2000 ≤ (i 0).val ∧ (i 0).val < (i 0).val / 2000 * 2000 + 2000; omega
  | ⟨1, _⟩ => show win1_2.index _ (1 : Fin 2) * 32 ≤ (i 1).val ∧ (i 1).val < win1_2.index _ (1 : Fin 2) * 32 + 32; rw [e5]; omega

/-- The output array after the region: the blend of the aggregate and the perceptron's output as the region found them. -/
theorem arr1 (c : Dev nD) : (dat1 V c).arrAt 2 cfg1.N = blend (V c main_v39) (V c main_v26) :=
  (dat1 V c).arrAt_eq_of_cover 2 (blend (V c main_v39) (V c main_v26)) (fun t _ => flushed1 V c t) (cover1)

end Cert.KernelIdeal.Blend

end
-- ==== Proof.HostStep2.lean ====
/-
  The host operations of propagation step 2: gather the current features' rows at the edges' source indices (a negative
  index first wrapped by the row count), scale each gathered row by its edge's normalisation, and scatter-add the
  rows into a zero array at the edges' destination indices.  Both programs spell these operations alike; so where the
  stretch finds the reference's stages in the buffers it reads, it leaves the reference's aggregate in the buffer it
  ends with.  The edge indices, the normalisation and the perceptron's output are not written.
-/
import proofs.«126228_j7885559956091_2_alg».proof.Proof.Gen.KernelIdeal.Launch
import proofs.«126228_j7885559956091_2_alg».proof.Proof.Gen.ReferenceIdeal.Read
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.Read (val_main_v1 val_main_v3 val_main_v25 val_main_v34)

variable {F : FTy → Type} [FloatOps F]

open Cert.ReferenceIdeal.Read (val_main_v65 val_main_v52)

variable (W : Valuation τ sig (Elt F))
variable (x0 : (⟨Cert.ReferenceIdeal.S100000x512, .f32⟩ : BufTy).Contents (Elt F)) (x1 : (⟨Cert.ReferenceIdeal.S2x3200000, .i32⟩ : BufTy).Contents (Elt F))
  (x2 : (⟨Cert.ReferenceIdeal.S512x64, .f32⟩ : BufTy).Contents (Elt F)) (x3 : (⟨Cert.ReferenceIdeal.S64, .f32⟩ : BufTy).Contents (Elt F))
  (x4 : (⟨Cert.ReferenceIdeal.S64x32, .f32⟩ : BufTy).Contents (Elt F)) (x5 : (⟨Cert.ReferenceIdeal.S32, .f32⟩ : BufTy).Contents (Elt F))

set_option maxHeartbeats 4000000 in
/-- Step 2's aggregate. -/
theorem agg2
    (hh : W (Proc.devRef .tc main_v40) = val_main_v52 x0 x1 x2 x3 x4 x5)
    (hs : W (Proc.devRef .tc main_v1) = val_main_v1 x1) (hd : W (Proc.devRef .tc main_v3) = val_main_v3 x1)
    (hn : W (Proc.devRef .tc main_v25) = val_main_v25 x1) :
    after hostOps2 W (Proc.devRef .tc main_v53) = val_main_v65 x0 x1 x2 x3 x4 x5 := by
  after_results_simp
  rw [hh, hs, hd, hn]
  rfl

theorem src2 : after hostOps2 W (Proc.devRef .tc main_v1) = W (Proc.devRef .tc main_v1) := by after_results
theorem dst2 : after hostOps2 W (Proc.devRef .tc main_v3) = W (Proc.devRef .tc main_v3) := by after_results
theorem norm2 : after hostOps2 W (Proc.devRef .tc main_v25) = W (Proc.devRef .tc main_v25) := by after_results
theorem mlp2 : after hostOps2 W (Proc.devRef .tc main_v26) = W (Proc.devRef .tc main_v26) := by after_results

end Cert.KernelIdeal.Host

end
-- ==== Proof.BlendRegion2.lean ====
/-
  Region 2 (propagation step 2's residual blend) as one whole-array function.  The grid has fifty points; point `t`
  fetches rows 2000·t … 2000·t + 1999 of the aggregate and of the perceptron's output, blends them entry by entry, and
  writes the block back to the same rows of the output array.  The fifty blocks tile the 100000 rows, so the output
  array ends as the blend of the two input arrays as the region found them.
-/
import proofs.«126228_j7885559956091_2_alg».proof.Proof.Gen.KernelIdeal.Frame
import proofs.«126228_j7885559956091_2_alg».proof.Proof.BlendLaw

set_option maxRecDepth 16384

noncomputable section

namespace Cert.KernelIdeal.Blend

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The body's stored value is the blend of its two loaded blocks (a shape cast to the same shape is the identity). -/
theorem pay2 (x0 x1 : Vec F S2000x32 .f32) : k2_pay1 x0 x1 = blend x0 x1 := by
  funext j
  unfold k2_pay1
  rw [shapeCast_self, shapeCast_self]
  rfl

/-- The index maps over the grid: all three windows sit at block row `t`, block column 0. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the blend of the two input arrays. -/
theorem flushed2 (c : Dev nD) (t : Fin cfg2.N) :
    (dat2 V c).flushed 2 t = ((cfg2.win 2).blk t).view.read (Elt F) (blend (V c main_v53) (V c main_v26)) := by
  show (cfg2.win 2).cut (grid2.coords t) ((dat2 V c).after 2 t) = _
  rw [after2_2]
  unfold out2_2
  rw [View.canon_unit_zero zero_offset]
  simp only [View.ld_unit_zero (S := S2000x32) zero_offset]
  rw [pay2]
  obtain ⟨e0, e1, e2, e3, e4, e5⟩ := idx2 t
  funext j
  show blend (iblk2 V c 0 t) (iblk2 V c 1 t) j = blend (V c main_v53) (V c main_v26) (((cfg2.win 2).blk t).view.emb j)
  have h0 : ((cfg2.win 0).blk t).view.emb j = ((cfg2.win 2).blk t).view.emb j := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 32 + 1 * (j 1).val = win2_2.index t (1 : Fin 2) * 32 + 1 * (j 1).val; omega
  have h1 : ((cfg2.win 1).blk t).view.emb j = ((cfg2.win 2).blk t).view.emb j := by
    funext a; apply Fin.ext
    match a with
    | ⟨0, _⟩ => show win2_1.index t (0 : Fin 2) * 2000 + 1 * (j 0).val = win2_2.index t (0 : Fin 2) * 2000 + 1 * (j 0).val; omega
    | ⟨1, _⟩ => show win2_1.index t (1 : Fin 2) * 32 + 1 * (j 1).val = win2_2.index t (1 : Fin 2) * 32 + 1 * (j 1).val; omega
  show blend (fun y => V c main_v53 (((cfg2.win 0).blk t).view.emb y)) (fun y => V c main_v26 (((cfg2.win 1).blk t).view.emb y)) j = _
  rw [blend_apply, blend_apply, h0, h1]

/-- An index of the output array is in point `t`'s block iff each coordinate is in the block's range on its axis. -/
theorem mem_blk2 (t : Fin cfg2.N) (i : S100000x32.Idx) :
    i ∈ ((cfg2.win 2).blk t).view.set ↔ ∀ a : Fin 2, win2_2.index t a * S2000x32.size a ≤ (i a).val ∧ (i a).val < win2_2.index t a * S2000x32.size a + S2000x32.size a := by
  show i ∈ ((View.whole main_v54).slice (win2_2.rect t)).set ↔ _
  rw [View.set_slice_whole, Rect.mem_set_unit]
  exact Iff.rfl

/-- Every index of the output array is in some point's block: row `r` is in block `r / 2000`. -/
theorem cover2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : grid2.N = 50 := N_2
  refine ⟨⟨(i 0).val / 2000, by show (i 0).val / 2000 < grid2.N; omega⟩, flush2_2 _, ?_⟩
  rw [mem_blk2]
  obtain ⟨e0, e1, e2, e3, e4, e5⟩ := idx2 ⟨(i 0).val / 2000, by show (i 0).val / 2000 < grid2.N; omega⟩
  intro a
  match a with
  | ⟨0, _⟩ => show win2_2.index _ (0 : Fin 2) * 2000 ≤ (i 0).val ∧ (i 0).val < win2_2.index _ (0 : Fin 2) * 2000 + 2000; rw [e4]; show (i 0).val / 2000 * 2000 ≤ (i 0).val ∧ (i 0).val < (i 0).val / 2000 * 2000 + 2000; omega
  | ⟨1, _⟩ => show win2_2.index _ (1 : Fin 2) * 32 ≤ (i 1).val ∧ (i 1).val < win2_2.index _ (1 : Fin 2) * 32 + 32; rw [e5]; omega

/-- The output array after the region: the blend of the aggregate and the perceptron's output as the region found them. -/
theorem arr2 (c : Dev nD) : (dat2 V c).arrAt 2 cfg2.N = blend (V c main_v53) (V c main_v26) :=
  (dat2 V c).arrAt_eq_of_cover 2 (blend (V c main_v53) (V c main_v26)) (fun t _ => flushed2 V c t) (cover2)

end Cert.KernelIdeal.Blend

end
-- ==== Proof.HostStep3.lean ====
/-
  The host operations of propagation step 3: gather the current features' rows at the edges' source indices (a negative
  index first wrapped by the row count), scale each gathered row by its edge's normalisation, and scatter-add the
  rows into a zero array at the edges' destination indices.  Both programs spell these operations alike; so where the
  stretch finds the reference's stages in the buffers it reads, it leaves the reference's aggregate in the buffer it
  ends with.  The edge indices, the normalisation and the perceptron's output are not written.
-/
import proofs.«126228_j7885559956091_2_alg».proof.Proof.Gen.KernelIdeal.Launch
import proofs.«126228_j7885559956091_2_alg».proof.Proof.Gen.ReferenceIdeal.Read
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.Read (val_main_v1 val_main_v3 val_main_v25 val_main_v34)

variable {F : FTy → Type} [FloatOps F]

open Cert.ReferenceIdeal.Read (val_main_v83 val_main_v70)

variable (W : Valuation τ sig (Elt F))
variable (x0 : (⟨Cert.ReferenceIdeal.S100000x512, .f32⟩ : BufTy).Contents (Elt F)) (x1 : (⟨Cert.ReferenceIdeal.S2x3200000, .i32⟩ : BufTy).Contents (Elt F))
  (x2 : (⟨Cert.ReferenceIdeal.S512x64, .f32⟩ : BufTy).Contents (Elt F)) (x3 : (⟨Cert.ReferenceIdeal.S64, .f32⟩ : BufTy).Contents (Elt F))
  (x4 : (⟨Cert.ReferenceIdeal.S64x32, .f32⟩ : BufTy).Contents (Elt F)) (x5 : (⟨Cert.ReferenceIdeal.S32, .f32⟩ : BufTy).Contents (Elt F))

set_option maxHeartbeats 4000000 in
/-- Step 3's aggregate. -/
theorem agg3
    (hh : W (Proc.devRef .tc main_v54) = val_main_v70 x0 x1 x2 x3 x4 x5)
    (hs : W (Proc.devRef .tc main_v1) = val_main_v1 x1) (hd : W (Proc.devRef .tc main_v3) = val_main_v3 x1)
    (hn : W (Proc.devRef .tc main_v25) = val_main_v25 x1) :
    after hostOps3 W (Proc.devRef .tc main_v67) = val_main_v83 x0 x1 x2 x3 x4 x5 := by
  after_results_simp
  rw [hh, hs, hd, hn]
  rfl

theorem src3 : after hostOps3 W (Proc.devRef .tc main_v1) = W (Proc.devRef .tc main_v1) := by after_results
theorem dst3 : after hostOps3 W (Proc.devRef .tc main_v3) = W (Proc.devRef .tc main_v3) := by after_results
theorem norm3 : after hostOps3 W (Proc.devRef .tc main_v25) = W (Proc.devRef .tc main_v25) := by after_results
theorem mlp3 : after hostOps3 W (Proc.devRef .tc main_v26) = W (Proc.devRef .tc main_v26) := by after_results

end Cert.KernelIdeal.Host

end
-- ==== Proof.BlendRegion3.lean ====
/-
  Region 3 (propagation step 3's residual blend) as one whole-array function.  The grid has fifty points; point `t`
  fetches rows 2000·t … 2000·t + 1999 of the aggregate and of the perceptron's output, blends them entry by entry, and
  writes the block back to the same rows of the output array.  The fifty blocks tile the 100000 rows, so the output
  array ends as the blend of the two input arrays as the region found them.
-/
import proofs.«126228_j7885559956091_2_alg».proof.Proof.Gen.KernelIdeal.Frame
import proofs.«126228_j7885559956091_2_alg».proof.Proof.BlendLaw

set_option maxRecDepth 16384

noncomputable section

namespace Cert.KernelIdeal.Blend

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The body's stored value is the blend of its two loaded blocks (a shape cast to the same shape is the identity). -/
theorem pay3 (x0 x1 : Vec F S2000x32 .f32) : k3_pay1 x0 x1 = blend x0 x1 := by
  funext j
  unfold k3_pay1
  rw [shapeCast_self, shapeCast_self]
  rfl

/-- The index maps over the grid: all three windows sit at block row `t`, block column 0. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the blend of the two input arrays. -/
theorem flushed3 (c : Dev nD) (t : Fin cfg3.N) :
    (dat3 V c).flushed 2 t = ((cfg3.win 2).blk t).view.read (Elt F) (blend (V c main_v67) (V c main_v26)) := by
  show (cfg3.win 2).cut (grid3.coords t) ((dat3 V c).after 2 t) = _
  rw [after3_2]
  unfold out3_2
  rw [View.canon_unit_zero zero_offset]
  simp only [View.ld_unit_zero (S := S2000x32) zero_offset]
  rw [pay3]
  obtain ⟨e0, e1, e2, e3, e4, e5⟩ := idx3 t
  funext j
  show blend (iblk3 V c 0 t) (iblk3 V c 1 t) j = blend (V c main_v67) (V c main_v26) (((cfg3.win 2).blk t).view.emb j)
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 32 + 1 * (j 1).val = win3_2.index t (1 : Fin 2) * 32 + 1 * (j 1).val; omega
  have h1 : ((cfg3.win 1).blk t).view.emb j = ((cfg3.win 2).blk t).view.emb j := by
    funext a; apply Fin.ext
    match a with
    | ⟨0, _⟩ => show win3_1.index t (0 : Fin 2) * 2000 + 1 * (j 0).val = win3_2.index t (0 : Fin 2) * 2000 + 1 * (j 0).val; omega
    | ⟨1, _⟩ => show win3_1.index t (1 : Fin 2) * 32 + 1 * (j 1).val = win3_2.index t (1 : Fin 2) * 32 + 1 * (j 1).val; omega
  show blend (fun y => V c main_v67 (((cfg3.win 0).blk t).view.emb y)) (fun y => V c main_v26 (((cfg3.win 1).blk t).view.emb y)) j = _
  rw [blend_apply, blend_apply, h0, h1]

/-- An index of the output array is in point `t`'s block iff each coordinate is in the block's range on its axis. -/
theorem mem_blk3 (t : Fin cfg3.N) (i : S100000x32.Idx) :
    i ∈ ((cfg3.win 2).blk t).view.set ↔ ∀ a : Fin 2, win3_2.index t a * S2000x32.size a ≤ (i a).val ∧ (i a).val < win3_2.index t a * S2000x32.size a + S2000x32.size a := by
  show i ∈ ((View.whole main_v68).slice (win3_2.rect t)).set ↔ _
  rw [View.set_slice_whole, Rect.mem_set_unit]
  exact Iff.rfl

/-- Every index of the output array is in some point's block: row `r` is in block `r / 2000`. -/
theorem cover3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : grid3.N = 50 := N_3
  refine ⟨⟨(i 0).val / 2000, by show (i 0).val / 2000 < grid3.N; omega⟩, flush3_2 _, ?_⟩
  rw [mem_blk3]
  obtain ⟨e0, e1, e2, e3, e4, e5⟩ := idx3 ⟨(i 0).val / 2000, by show (i 0).val / 2000 < grid3.N; omega⟩
  intro a
  match a with
  | ⟨0, _⟩ => show win3_2.index _ (0 : Fin 2) * 2000 ≤ (i 0).val ∧ (i 0).val < win3_2.index _ (0 : Fin 2) * 2000 + 2000; rw [e4]; show (i 0).val / 2000 * 2000 ≤ (i 0).val ∧ (i 0).val < (i 0).val / 2000 * 2000 + 2000; omega
  | ⟨1, _⟩ => show win3_2.index _ (1 : Fin 2) * 32 ≤ (i 1).val ∧ (i 1).val < win3_2.index _ (1 : Fin 2) * 32 + 32; rw [e5]; omega

/-- The output array after the region: the blend of the aggregate and the perceptron's output as the region found them. -/
theorem arr3 (c : Dev nD) : (dat3 V c).arrAt 2 cfg3.N = blend (V c main_v67) (V c main_v26) :=
  (dat3 V c).arrAt_eq_of_cover 2 (blend (V c main_v67) (V c main_v26)) (fun t _ => flushed3 V c t) (cover3)

end Cert.KernelIdeal.Blend

end
-- ==== Proof.HostStep4.lean ====
/-
  The host operations of propagation step 4: gather the current features' rows at the edges' source indices (a negative
  index first wrapped by the row count), scale each gathered row by its edge's normalisation, and scatter-add the
  rows into a zero array at the edges' destination indices.  Both programs spell these operations alike; so where the
  stretch finds the reference's stages in the buffers it reads, it leaves the reference's aggregate in the buffer it
  ends with.  The edge indices, the normalisation and the perceptron's output are not written.
-/
import proofs.«126228_j7885559956091_2_alg».proof.Proof.Gen.KernelIdeal.Launch
import proofs.«126228_j7885559956091_2_alg».proof.Proof.Gen.ReferenceIdeal.Read
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.Read (val_main_v1 val_main_v3 val_main_v25 val_main_v34)

variable {F : FTy → Type} [FloatOps F]

open Cert.ReferenceIdeal.Read (val_main_v101 val_main_v88)

variable (W : Valuation τ sig (Elt F))
variable (x0 : (⟨Cert.ReferenceIdeal.S100000x512, .f32⟩ : BufTy).Contents (Elt F)) (x1 : (⟨Cert.ReferenceIdeal.S2x3200000, .i32⟩ : BufTy).Contents (Elt F))
  (x2 : (⟨Cert.ReferenceIdeal.S512x64, .f32⟩ : BufTy).Contents (Elt F)) (x3 : (⟨Cert.ReferenceIdeal.S64, .f32⟩ : BufTy).Contents (Elt F))
  (x4 : (⟨Cert.ReferenceIdeal.S64x32, .f32⟩ : BufTy).Contents (Elt F)) (x5 : (⟨Cert.ReferenceIdeal.S32, .f32⟩ : BufTy).Contents (Elt F))

set_option maxHeartbeats 4000000 in
/-- Step 4's aggregate. -/
theorem agg4
    (hh : W (Proc.devRef .tc main_v68) = val_main_v88 x0 x1 x2 x3 x4 x5)
    (hs : W (Proc.devRef .tc main_v1) = val_main_v1 x1) (hd : W (Proc.devRef .tc main_v3) = val_main_v3 x1)
    (hn : W (Proc.devRef .tc main_v25) = val_main_v25 x1) :
    after hostOps4 W (Proc.devRef .tc main_v81) = val_main_v101 x0 x1 x2 x3 x4 x5 := by
  after_results_simp
  rw [hh, hs, hd, hn]
  rfl

theorem src4 : after hostOps4 W (Proc.devRef .tc main_v1) = W (Proc.devRef .tc main_v1) := by after_results
theorem dst4 : after hostOps4 W (Proc.devRef .tc main_v3) = W (Proc.devRef .tc main_v3) := by after_results
theorem norm4 : after hostOps4 W (Proc.devRef .tc main_v25) = W (Proc.devRef .tc main_v25) := by after_results
theorem mlp4 : after hostOps4 W (Proc.devRef .tc main_v26) = W (Proc.devRef .tc main_v26) := by after_results

end Cert.KernelIdeal.Host

end
-- ==== Proof.BlendRegion4.lean ====
/-
  Region 4 (propagation step 4's residual blend) as one whole-array function.  The grid has fifty points; point `t`
  fetches rows 2000·t … 2000·t + 1999 of the aggregate and of the perceptron's output, blends them entry by entry, and
  writes the block back to the same rows of the output array.  The fifty blocks tile the 100000 rows, so the output
  array ends as the blend of the two input arrays as the region found them.
-/
import proofs.«126228_j7885559956091_2_alg».proof.Proof.Gen.KernelIdeal.Frame
import proofs.«126228_j7885559956091_2_alg».proof.Proof.BlendLaw

set_option maxRecDepth 16384

noncomputable section

namespace Cert.KernelIdeal.Blend

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The body's stored value is the blend of its two loaded blocks (a shape cast to the same shape is the identity). -/
theorem pay4 (x0 x1 : Vec F S2000x32 .f32) : k4_pay1 x0 x1 = blend x0 x1 := by
  funext j
  unfold k4_pay1
  rw [shapeCast_self, shapeCast_self]
  rfl

/-- The index maps over the grid: all three windows sit at block row `t`, block column 0. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the blend of the two input arrays. -/
theorem flushed4 (c : Dev nD) (t : Fin cfg4.N) :
    (dat4 V c).flushed 2 t = ((cfg4.win 2).blk t).view.read (Elt F) (blend (V c main_v81) (V c main_v26)) := by
  show (cfg4.win 2).cut (grid4.coords t) ((dat4 V c).after 2 t) = _
  rw [after4_2]
  unfold out4_2
  rw [View.canon_unit_zero zero_offset]
  simp only [View.ld_unit_zero (S := S2000x32) zero_offset]
  rw [pay4]
  obtain ⟨e0, e1, e2, e3, e4, e5⟩ := idx4 t
  funext j
  show blend (iblk4 V c 0 t) (iblk4 V c 1 t) j = blend (V c main_v81) (V c main_v26) (((cfg4.win 2).blk t).view.emb j)
  have h0 : ((cfg4.win 0).blk t).view.emb j = ((cfg4.win 2).blk t).view.emb j := by
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 32 + 1 * (j 1).val = win4_2.index t (1 : Fin 2) * 32 + 1 * (j 1).val; omega
  have h1 : ((cfg4.win 1).blk t).view.emb j = ((cfg4.win 2).blk t).view.emb j := by
    funext a; apply Fin.ext
    match a with
    | ⟨0, _⟩ => show win4_1.index t (0 : Fin 2) * 2000 + 1 * (j 0).val = win4_2.index t (0 : Fin 2) * 2000 + 1 * (j 0).val; omega
    | ⟨1, _⟩ => show win4_1.index t (1 : Fin 2) * 32 + 1 * (j 1).val = win4_2.index t (1 : Fin 2) * 32 + 1 * (j 1).val; omega
  show blend (fun y => V c main_v81 (((cfg4.win 0).blk t).view.emb y)) (fun y => V c main_v26 (((cfg4.win 1).blk t).view.emb y)) j = _
  rw [blend_apply, blend_apply, h0, h1]

/-- An index of the output array is in point `t`'s block iff each coordinate is in the block's range on its axis. -/
theorem mem_blk4 (t : Fin cfg4.N) (i : S100000x32.Idx) :
    i ∈ ((cfg4.win 2).blk t).view.set ↔ ∀ a : Fin 2, win4_2.index t a * S2000x32.size a ≤ (i a).val ∧ (i a).val < win4_2.index t a * S2000x32.size a + S2000x32.size a := by
  show i ∈ ((View.whole main_v82).slice (win4_2.rect t)).set ↔ _
  rw [View.set_slice_whole, Rect.mem_set_unit]
  exact Iff.rfl

/-- Every index of the output array is in some point's block: row `r` is in block `r / 2000`. -/
theorem cover4 (i : S100000x32.Idx) :
    ∃ t : Fin cfg4.N, (cfg4.win 2).flush t = true ∧ i ∈ ((cfg4.win 2).blk t).view.set := by
  have hi0 : (i 0).val < 100000 := (i 0).isLt
  have hi1 : (i 1).val < 32 := (i 1).isLt
  have hN : grid4.N = 50 := N_4
  refine ⟨⟨(i 0).val / 2000, by show (i 0).val / 2000 < grid4.N; omega⟩, flush4_2 _, ?_⟩
  rw [mem_blk4]
  obtain ⟨e0, e1, e2, e3, e4, e5⟩ := idx4 ⟨(i 0).val / 2000, by show (i 0).val / 2000 < grid4.N; omega⟩
  intro a
  match a with
  | ⟨0, _⟩ => show win4_2.index _ (0 : Fin 2) * 2000 ≤ (i 0).val ∧ (i 0).val < win4_2.index _ (0 : Fin 2) * 2000 + 2000; rw [e4]; show (i 0).val / 2000 * 2000 ≤ (i 0).val ∧ (i 0).val < (i 0).val / 2000 * 2000 + 2000; omega
  | ⟨1, _⟩ => show win4_2.index _ (1 : Fin 2) * 32 ≤ (i 1).val ∧ (i 1).val < win4_2.index _ (1 : Fin 2) * 32 + 32; rw [e5]; omega

/-- The output array after the region: the blend of the aggregate and the perceptron's output as the region found them. -/
theorem arr4 (c : Dev nD) : (dat4 V c).arrAt 2 cfg4.N = blend (V c main_v81) (V c main_v26) :=
  (dat4 V c).arrAt_eq_of_cover 2 (blend (V c main_v81) (V c main_v26)) (fun t _ => flushed4 V c t) (cover4)

end Cert.KernelIdeal.Blend

end
-- ==== Proof.HostStep5.lean ====
/-
  The host operations of propagation step 5: gather the current features' rows at the edges' source indices (a negative
  index first wrapped by the row count), scale each gathered row by its edge's normalisation, and scatter-add the
  rows into a zero array at the edges' destination indices.  Both programs spell these operations alike; so where the
  stretch finds the reference's stages in the buffers it reads, it leaves the reference's aggregate in the buffer it
  ends with.  The edge indices, the normalisation and the perceptron's output are not written.
-/
import proofs.«126228_j7885559956091_2_alg».proof.Proof.Gen.KernelIdeal.Launch
import proofs.«126228_j7885559956091_2_alg».proof.Proof.Gen.ReferenceIdeal.Read
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.Read (val_main_v1 val_main_v3 val_main_v25 val_main_v34)

variable {F : FTy → Type} [FloatOps F]

open Cert.ReferenceIdeal.Read (val_main_v119 val_main_v106)

variable (W : Valuation τ sig (Elt F))
variable (x0 : (⟨Cert.ReferenceIdeal.S100000x512, .f32⟩ : BufTy).Contents (Elt F)) (x1 : (⟨Cert.ReferenceIdeal.S2x3200000, .i32⟩ : BufTy).Contents (Elt F))
  (x2 : (⟨Cert.ReferenceIdeal.S512x64, .f32⟩ : BufTy).Contents (Elt F)) (x3 : (⟨Cert.ReferenceIdeal.S64, .f32⟩ : BufTy).Contents (Elt F))
  (x4 : (⟨Cert.ReferenceIdeal.S64x32, .f32⟩ : BufTy).Contents (Elt F)) (x5 : (⟨Cert.ReferenceIdeal.S32, .f32⟩ : BufTy).Contents (Elt F))

set_option maxHeartbeats 4000000 in
/-- Step 5's aggregate. -/
theorem agg5
    (hh : W (Proc.devRef .tc main_v82) = val_main_v106 x0 x1 x2 x3 x4 x5)
    (hs : W (Proc.devRef .tc main_v1) = val_main_v1 x1) (hd : W (Proc.devRef .tc main_v3) = val_main_v3 x1)
    (hn : W (Proc.devRef .tc main_v25) = val_main_v25 x1) :
    after hostOps5 W (Proc.devRef .tc main_v95) = val_main_v119 x0 x1 x2 x3 x4 x5 := by
  after_results_simp
  rw [hh, hs, hd, hn]
  rfl

theorem src5 : after hostOps5 W (Proc.devRef .tc main_v1) = W (Proc.devRef .tc main_v1) := by after_results
theorem dst5 : after hostOps5 W (Proc.devRef .tc main_v3) = W (Proc.devRef .tc main_v3) := by after_results
theorem norm5 : after hostOps5 W (Proc.devRef .tc main_v25) = W (Proc.devRef .tc main_v25) := by after_results
theorem mlp5 : after hostOps5 W (Proc.devRef .tc main_v26) = W (Proc.devRef .tc main_v26) := by after_results

end Cert.KernelIdeal.Host

end
-- ==== Proof.BlendRegion5.lean ====
/-
  Region 5 (propagation step 5's residual blend) as one whole-array function.  The grid has fifty points; point `t`
  fetches rows 2000·t … 2000·t + 1999 of the aggregate and of the perceptron's output, blends them entry by entry, and
  writes the block back to the same rows of the output array.  The fifty blocks tile the 100000 rows, so the output
  array ends as the blend of the two input arrays as the region found them.
-/
import proofs.«126228_j7885559956091_2_alg».proof.Proof.Gen.KernelIdeal.Frame
import proofs.«126228_j7885559956091_2_alg».proof.Proof.BlendLaw

set_option maxRecDepth 16384

noncomputable section

namespace Cert.KernelIdeal.Blend

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The body's stored value is the blend of its two loaded blocks (a shape cast to the same shape is the identity). -/
theorem pay5 (x0 x1 : Vec F S2000x32 .f32) : k5_pay1 x0 x1 = blend x0 x1 := by
  funext j
  unfold k5_pay1
  rw [shapeCast_self, shapeCast_self]
  rfl

/-- The index maps over the grid: all three windows sit at block row `t`, block column 0. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the blend of the two input arrays. -/
theorem flushed5 (c : Dev nD) (t : Fin cfg5.N) :
    (dat5 V c).flushed 2 t = ((cfg5.win 2).blk t).view.read (Elt F) (blend (V c main_v95) (V c main_v26)) := by
  show (cfg5.win 2).cut (grid5.coords t) ((dat5 V c).after 2 t) = _
  rw [after5_2]
  unfold out5_2
  rw [View.canon_unit_zero zero_offset]
  simp only [View.ld_unit_zero (S := S2000x32) zero_offset]
  rw [pay5]
  obtain ⟨e0, e1, e2, e3, e4, e5⟩ := idx5 t
  funext j
  show blend (iblk5 V c 0 t) (iblk5 V c 1 t) j = blend (V c main_v95) (V c main_v26) (((cfg5.win 2).blk t).view.emb j)
  have h0 : ((cfg5.win 0).blk t).view.emb j = ((cfg5.win 2).blk t).view.emb j := by
    funext a; apply Fin.ext
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 32 + 1 * (j 1).val = win5_2.index t (1 : Fin 2) * 32 + 1 * (j 1).val; omega
  have h1 : ((cfg5.win 1).blk t).view.emb j = ((cfg5.win 2).blk t).view.emb j := by
    funext a; apply Fin.ext
    match a with
    | ⟨0, _⟩ => show win5_1.index t (0 : Fin 2) * 2000 + 1 * (j 0).val = win5_2.index t (0 : Fin 2) * 2000 + 1 * (j 0).val; omega
    | ⟨1, _⟩ => show win5_1.index t (1 : Fin 2) * 32 + 1 * (j 1).val = win5_2.index t (1 : Fin 2) * 32 + 1 * (j 1).val; omega
  show blend (fun y => V c main_v95 (((cfg5.win 0).blk t).view.emb y)) (fun y => V c main_v26 (((cfg5.win 1).blk t).view.emb y)) j = _
  rw [blend_apply, blend_apply, h0, h1]

/-- An index of the output array is in point `t`'s block iff each coordinate is in the block's range on its axis. -/
theorem mem_blk5 (t : Fin cfg5.N) (i : S100000x32.Idx) :
    i ∈ ((cfg5.win 2).blk t).view.set ↔ ∀ a : Fin 2, win5_2.index t a * S2000x32.size a ≤ (i a).val ∧ (i a).val < win5_2.index t a * S2000x32.size a + S2000x32.size a := by
  show i ∈ ((View.whole main_v96).slice (win5_2.rect t)).set ↔ _
  rw [View.set_slice_whole, Rect.mem_set_unit]
  exact Iff.rfl

/-- Every index of the output array is in some point's block: row `r` is in block `r / 2000`. -/
theorem cover5 (i : S100000x32.Idx) :
    ∃ t : Fin cfg5.N, (cfg5.win 2).flush t = true ∧ i ∈ ((cfg5.win 2).blk t).view.set := by
  have hi0 : (i 0).val < 100000 := (i 0).isLt
  have hi1 : (i 1).val < 32 := (i 1).isLt
  have hN : grid5.N = 50 := N_5
  refine ⟨⟨(i 0).val / 2000, by show (i 0).val / 2000 < grid5.N; omega⟩, flush5_2 _, ?_⟩
  rw [mem_blk5]
  obtain ⟨e0, e1, e2, e3, e4, e5⟩ := idx5 ⟨(i 0).val / 2000, by show (i 0).val / 2000 < grid5.N; omega⟩
  intro a
  match a with
  | ⟨0, _⟩ => show win5_2.index _ (0 : Fin 2) * 2000 ≤ (i 0).val ∧ (i 0).val < win5_2.index _ (0 : Fin 2) * 2000 + 2000; rw [e4]; show (i 0).val / 2000 * 2000 ≤ (i 0).val ∧ (i 0).val < (i 0).val / 2000 * 2000 + 2000; omega
  | ⟨1, _⟩ => show win5_2.index _ (1 : Fin 2) * 32 ≤ (i 1).val ∧ (i 1).val < win5_2.index _ (1 : Fin 2) * 32 + 32; rw [e5]; omega

/-- The output array after the region: the blend of the aggregate and the perceptron's output as the region found them. -/
theorem arr5 (c : Dev nD) : (dat5 V c).arrAt 2 cfg5.N = blend (V c main_v95) (V c main_v26) :=
  (dat5 V c).arrAt_eq_of_cover 2 (blend (V c main_v95) (V c main_v26)) (fun t _ => flushed5 V c t) (cover5)

end Cert.KernelIdeal.Blend

end
-- ==== Proof.HostStep6.lean ====
/-
  The host operations of propagation step 6: gather the current features' rows at the edges' source indices (a negative
  index first wrapped by the row count), scale each gathered row by its edge's normalisation, and scatter-add the
  rows into a zero array at the edges' destination indices.  Both programs spell these operations alike; so where the
  stretch finds the reference's stages in the buffers it reads, it leaves the reference's aggregate in the buffer it
  ends with.  The edge indices, the normalisation and the perceptron's output are not written.
-/
import proofs.«126228_j7885559956091_2_alg».proof.Proof.Gen.KernelIdeal.Launch
import proofs.«126228_j7885559956091_2_alg».proof.Proof.Gen.ReferenceIdeal.Read
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.Read (val_main_v1 val_main_v3 val_main_v25 val_main_v34)

variable {F : FTy → Type} [FloatOps F]

open Cert.ReferenceIdeal.Read (val_main_v137 val_main_v124)

variable (W : Valuation τ sig (Elt F))
variable (x0 : (⟨Cert.ReferenceIdeal.S100000x512, .f32⟩ : BufTy).Contents (Elt F)) (x1 : (⟨Cert.ReferenceIdeal.S2x3200000, .i32⟩ : BufTy).Contents (Elt F))
  (x2 : (⟨Cert.ReferenceIdeal.S512x64, .f32⟩ : BufTy).Contents (Elt F)) (x3 : (⟨Cert.ReferenceIdeal.S64, .f32⟩ : BufTy).Contents (Elt F))
  (x4 : (⟨Cert.ReferenceIdeal.S64x32, .f32⟩ : BufTy).Contents (Elt F)) (x5 : (⟨Cert.ReferenceIdeal.S32, .f32⟩ : BufTy).Contents (Elt F))

set_option maxHeartbeats 4000000 in
/-- Step 6's aggregate. -/
theorem agg6
    (hh : W (Proc.devRef .tc main_v96) = val_main_v124 x0 x1 x2 x3 x4 x5)
    (hs : W (Proc.devRef .tc main_v1) = val_main_v1 x1) (hd : W (Proc.devRef .tc main_v3) = val_main_v3 x1)
    (hn : W (Proc.devRef .tc main_v25) = val_main_v25 x1) :
    after hostOps6 W (Proc.devRef .tc main_v109) = val_main_v137 x0 x1 x2 x3 x4 x5 := by
  after_results_simp
  rw [hh, hs, hd, hn]
  rfl

theorem src6 : after hostOps6 W (Proc.devRef .tc main_v1) = W (Proc.devRef .tc main_v1) := by after_results
theorem dst6 : after hostOps6 W (Proc.devRef .tc main_v3) = W (Proc.devRef .tc main_v3) := by after_results
theorem norm6 : after hostOps6 W (Proc.devRef .tc main_v25) = W (Proc.devRef .tc main_v25) := by after_results
theorem mlp6 : after hostOps6 W (Proc.devRef .tc main_v26) = W (Proc.devRef .tc main_v26) := by after_results

end Cert.KernelIdeal.Host

end
-- ==== Proof.BlendRegion6.lean ====
/-
  Region 6 (propagation step 6's residual blend) as one whole-array function.  The grid has fifty points; point `t`
  fetches rows 2000·t … 2000·t + 1999 of the aggregate and of the perceptron's output, blends them entry by entry, and
  writes the block back to the same rows of the output array.  The fifty blocks tile the 100000 rows, so the output
  array ends as the blend of the two input arrays as the region found them.
-/
import proofs.«126228_j7885559956091_2_alg».proof.Proof.Gen.KernelIdeal.Frame
import proofs.«126228_j7885559956091_2_alg».proof.Proof.BlendLaw

set_option maxRecDepth 16384

noncomputable section

namespace Cert.KernelIdeal.Blend

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The body's stored value is the blend of its two loaded blocks (a shape cast to the same shape is the identity). -/
theorem pay6 (x0 x1 : Vec F S2000x32 .f32) : k6_pay1 x0 x1 = blend x0 x1 := by
  funext j
  unfold k6_pay1
  rw [shapeCast_self, shapeCast_self]
  rfl

/-- The index maps over the grid: all three windows sit at block row `t`, block column 0. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the blend of the two input arrays. -/
theorem flushed6 (c : Dev nD) (t : Fin cfg6.N) :
    (dat6 V c).flushed 2 t = ((cfg6.win 2).blk t).view.read (Elt F) (blend (V c main_v109) (V c main_v26)) := by
  show (cfg6.win 2).cut (grid6.coords t) ((dat6 V c).after 2 t) = _
  rw [after6_2]
  unfold out6_2
  rw [View.canon_unit_zero zero_offset]
  simp only [View.ld_unit_zero (S := S2000x32) zero_offset]
  rw [pay6]
  obtain ⟨e0, e1, e2, e3, e4, e5⟩ := idx6 t
  funext j
  show blend (iblk6 V c 0 t) (iblk6 V c 1 t) j = blend (V c main_v109) (V c main_v26) (((cfg6.win 2).blk t).view.emb j)
  have h0 : ((cfg6.win 0).blk t).view.emb j = ((cfg6.win 2).blk t).view.emb j := by
    funext a; apply Fin.ext
    match a with
    | ⟨0, _⟩ => show win6_0.index t (0 : Fin 2) * 2000 + 1 * (j 0).val = win6_2.index t (0 : Fin 2) * 2000 + 1 * (j 0).val; omega
    | ⟨1, _⟩ => show win6_0.index t (1 : Fin 2) * 32 + 1 * (j 1).val = win6_2.index t (1 : Fin 2) * 32 + 1 * (j 1).val; omega
  have h1 : ((cfg6.win 1).blk t).view.emb j = ((cfg6.win 2).blk t).view.emb j := by
    funext a; apply Fin.ext
    match a with
    | ⟨0, _⟩ => show win6_1.index t (0 : Fin 2) * 2000 + 1 * (j 0).val = win6_2.index t (0 : Fin 2) * 2000 + 1 * (j 0).val; omega
    | ⟨1, _⟩ => show win6_1.index t (1 : Fin 2) * 32 + 1 * (j 1).val = win6_2.index t (1 : Fin 2) * 32 + 1 * (j 1).val; omega
  show blend (fun y => V c main_v109 (((cfg6.win 0).blk t).view.emb y)) (fun y => V c main_v26 (((cfg6.win 1).blk t).view.emb y)) j = _
  rw [blend_apply, blend_apply, h0, h1]

/-- An index of the output array is in point `t`'s block iff each coordinate is in the block's range on its axis. -/
theorem mem_blk6 (t : Fin cfg6.N) (i : S100000x32.Idx) :
    i ∈ ((cfg6.win 2).blk t).view.set ↔ ∀ a : Fin 2, win6_2.index t a * S2000x32.size a ≤ (i a).val ∧ (i a).val < win6_2.index t a * S2000x32.size a + S2000x32.size a := by
  show i ∈ ((View.whole main_v110).slice (win6_2.rect t)).set ↔ _
  rw [View.set_slice_whole, Rect.mem_set_unit]
  exact Iff.rfl

/-- Every index of the output array is in some point's block: row `r` is in block `r / 2000`. -/
theorem cover6 (i : S100000x32.Idx) :
    ∃ t : Fin cfg6.N, (cfg6.win 2).flush t = true ∧ i ∈ ((cfg6.win 2).blk t).view.set := by
  have hi0 : (i 0).val < 100000 := (i 0).isLt
  have hi1 : (i 1).val < 32 := (i 1).isLt
  have hN : grid6.N = 50 := N_6
  refine ⟨⟨(i 0).val / 2000, by show (i 0).val / 2000 < grid6.N; omega⟩, flush6_2 _, ?_⟩
  rw [mem_blk6]
  obtain ⟨e0, e1, e2, e3, e4, e5⟩ := idx6 ⟨(i 0).val / 2000, by show (i 0).val / 2000 < grid6.N; omega⟩
  intro a
  match a with
  | ⟨0, _⟩ => show win6_2.index _ (0 : Fin 2) * 2000 ≤ (i 0).val ∧ (i 0).val < win6_2.index _ (0 : Fin 2) * 2000 + 2000; rw [e4]; show (i 0).val / 2000 * 2000 ≤ (i 0).val ∧ (i 0).val < (i 0).val / 2000 * 2000 + 2000; omega
  | ⟨1, _⟩ => show win6_2.index _ (1 : Fin 2) * 32 ≤ (i 1).val ∧ (i 1).val < win6_2.index _ (1 : Fin 2) * 32 + 32; rw [e5]; omega

/-- The output array after the region: the blend of the aggregate and the perceptron's output as the region found them. -/
theorem arr6 (c : Dev nD) : (dat6 V c).arrAt 2 cfg6.N = blend (V c main_v109) (V c main_v26) :=
  (dat6 V c).arrAt_eq_of_cover 2 (blend (V c main_v109) (V c main_v26)) (fun t _ => flushed6 V c t) (cover6)

end Cert.KernelIdeal.Blend

end
-- ==== Proof.HostStep7.lean ====
/-
  The host operations of propagation step 7: gather the current features' rows at the edges' source indices (a negative
  index first wrapped by the row count), scale each gathered row by its edge's normalisation, and scatter-add the
  rows into a zero array at the edges' destination indices.  Both programs spell these operations alike; so where the
  stretch finds the reference's stages in the buffers it reads, it leaves the reference's aggregate in the buffer it
  ends with.  The edge indices, the normalisation and the perceptron's output are not written.
-/
import proofs.«126228_j7885559956091_2_alg».proof.Proof.Gen.KernelIdeal.Launch
import proofs.«126228_j7885559956091_2_alg».proof.Proof.Gen.ReferenceIdeal.Read
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.Read (val_main_v1 val_main_v3 val_main_v25 val_main_v34)

variable {F : FTy → Type} [FloatOps F]

open Cert.ReferenceIdeal.Read (val_main_v155 val_main_v142)

variable (W : Valuation τ sig (Elt F))
variable (x0 : (⟨Cert.ReferenceIdeal.S100000x512, .f32⟩ : BufTy).Contents (Elt F)) (x1 : (⟨Cert.ReferenceIdeal.S2x3200000, .i32⟩ : BufTy).Contents (Elt F))
  (x2 : (⟨Cert.ReferenceIdeal.S512x64, .f32⟩ : BufTy).Contents (Elt F)) (x3 : (⟨Cert.ReferenceIdeal.S64, .f32⟩ : BufTy).Contents (Elt F))
  (x4 : (⟨Cert.ReferenceIdeal.S64x32, .f32⟩ : BufTy).Contents (Elt F)) (x5 : (⟨Cert.ReferenceIdeal.S32, .f32⟩ : BufTy).Contents (Elt F))

set_option maxHeartbeats 4000000 in
/-- Step 7's aggregate. -/
theorem agg7
    (hh : W (Proc.devRef .tc main_v110) = val_main_v142 x0 x1 x2 x3 x4 x5)
    (hs : W (Proc.devRef .tc main_v1) = val_main_v1 x1) (hd : W (Proc.devRef .tc main_v3) = val_main_v3 x1)
    (hn : W (Proc.devRef .tc main_v25) = val_main_v25 x1) :
    after hostOps7 W (Proc.devRef .tc main_v123) = val_main_v155 x0 x1 x2 x3 x4 x5 := by
  after_results_simp
  rw [hh, hs, hd, hn]
  rfl

theorem src7 : after hostOps7 W (Proc.devRef .tc main_v1) = W (Proc.devRef .tc main_v1) := by after_results
theorem dst7 : after hostOps7 W (Proc.devRef .tc main_v3) = W (Proc.devRef .tc main_v3) := by after_results
theorem norm7 : after hostOps7 W (Proc.devRef .tc main_v25) = W (Proc.devRef .tc main_v25) := by after_results
theorem mlp7 : after hostOps7 W (Proc.devRef .tc main_v26) = W (Proc.devRef .tc main_v26) := by after_results

end Cert.KernelIdeal.Host

end
-- ==== Proof.BlendRegion7.lean ====
/-
  Region 7 (propagation step 7's residual blend) as one whole-array function.  The grid has fifty points; point `t`
  fetches rows 2000·t … 2000·t + 1999 of the aggregate and of the perceptron's output, blends them entry by entry, and
  writes the block back to the same rows of the output array.  The fifty blocks tile the 100000 rows, so the output
  array ends as the blend of the two input arrays as the region found them.
-/
import proofs.«126228_j7885559956091_2_alg».proof.Proof.Gen.KernelIdeal.Frame
import proofs.«126228_j7885559956091_2_alg».proof.Proof.BlendLaw

set_option maxRecDepth 16384

noncomputable section

namespace Cert.KernelIdeal.Blend

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The body's stored value is the blend of its two loaded blocks (a shape cast to the same shape is the identity). -/
theorem pay7 (x0 x1 : Vec F S2000x32 .f32) : k7_pay1 x0 x1 = blend x0 x1 := by
  funext j
  unfold k7_pay1
  rw [shapeCast_self, shapeCast_self]
  rfl

/-- The index maps over the grid: all three windows sit at block row `t`, block column 0. -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What point `t` writes back is block `t` of the blend of the two input arrays. -/
theorem flushed7 (c : Dev nD) (t : Fin cfg7.N) :
    (dat7 V c).flushed 2 t = ((cfg7.win 2).blk t).view.read (Elt F) (blend (V c main_v123) (V c main_v26)) := by
  show (cfg7.win 2).cut (grid7.coords t) ((dat7 V c).after 2 t) = _
  rw [after7_2]
  unfold out7_2
  rw [View.canon_unit_zero zero_offset]
  simp only [View.ld_unit_zero (S := S2000x32) zero_offset]
  rw [pay7]
  obtain ⟨e0, e1, e2, e3, e4, e5⟩ := idx7 t
  funext j
  show blend (iblk7 V c 0 t) (iblk7 V c 1 t) j = blend (V c main_v123) (V c main_v26) (((cfg7.win 2).blk t).view.emb j)
  have h0 : ((cfg7.win 0).blk t).view.emb j = ((cfg7.win 2).blk t).view.emb j := by
    funext a; apply Fin.ext
    match a with
    | ⟨0, _⟩ => show win7_0.index t (0 : Fin 2) * 2000 + 1 * (j 0).val = win7_2.index t (0 : Fin 2) * 2000 + 1 * (j 0).val; omega
    | ⟨1, _⟩ => show win7_0.index t (1 : Fin 2) * 32 + 1 * (j 1).val = win7_2.index t (1 : Fin 2) * 32 + 1 * (j 1).val; omega
  have h1 : ((cfg7.win 1).blk t).view.emb j = ((cfg7.win 2).blk t).view.emb j := by
    funext a; apply Fin.ext
    match a with
    | ⟨0, _⟩ => show win7_1.index t (0 : Fin 2) * 2000 + 1 * (j 0).val = win7_2.index t (0 : Fin 2) * 2000 + 1 * (j 0).val; omega
    | ⟨1, _⟩ => show win7_1.index t (1 : Fin 2) * 32 + 1 * (j 1).val = win7_2.index t (1 : Fin 2) * 32 + 1 * (j 1).val; omega
  show blend (fun y => V c main_v123 (((cfg7.win 0).blk t).view.emb y)) (fun y => V c main_v26 (((cfg7.win 1).blk t).view.emb y)) j = _
  rw [blend_apply, blend_apply, h0, h1]

/-- An index of the output array is in point `t`'s block iff each coordinate is in the block's range on its axis. -/
theorem mem_blk7 (t : Fin cfg7.N) (i : S100000x32.Idx) :
    i ∈ ((cfg7.win 2).blk t).view.set ↔ ∀ a : Fin 2, win7_2.index t a * S2000x32.size a ≤ (i a).val ∧ (i a).val < win7_2.index t a * S2000x32.size a + S2000x32.size a := by
  show i ∈ ((View.whole main_v124).slice (win7_2.rect t)).set ↔ _
  rw [View.set_slice_whole, Rect.mem_set_unit]
  exact Iff.rfl

/-- Every index of the output array is in some point's block: row `r` is in block `r / 2000`. -/
theorem cover7 (i : S100000x32.Idx) :
    ∃ t : Fin cfg7.N, (cfg7.win 2).flush t = true ∧ i ∈ ((cfg7.win 2).blk t).view.set := by
  have hi0 : (i 0).val < 100000 := (i 0).isLt
  have hi1 : (i 1).val < 32 := (i 1).isLt
  have hN : grid7.N = 50 := N_7
  refine ⟨⟨(i 0).val / 2000, by show (i 0).val / 2000 < grid7.N; omega⟩, flush7_2 _, ?_⟩
  rw [mem_blk7]
  obtain ⟨e0, e1, e2, e3, e4, e5⟩ := idx7 ⟨(i 0).val / 2000, by show (i 0).val / 2000 < grid7.N; omega⟩
  intro a
  match a with
  | ⟨0, _⟩ => show win7_2.index _ (0 : Fin 2) * 2000 ≤ (i 0).val ∧ (i 0).val < win7_2.index _ (0 : Fin 2) * 2000 + 2000; rw [e4]; show (i 0).val / 2000 * 2000 ≤ (i 0).val ∧ (i 0).val < (i 0).val / 2000 * 2000 + 2000; omega
  | ⟨1, _⟩ => show win7_2.index _ (1 : Fin 2) * 32 ≤ (i 1).val ∧ (i 1).val < win7_2.index _ (1 : Fin 2) * 32 + 32; rw [e5]; omega

/-- The output array after the region: the blend of the aggregate and the perceptron's output as the region found them. -/
theorem arr7 (c : Dev nD) : (dat7 V c).arrAt 2 cfg7.N = blend (V c main_v123) (V c main_v26) :=
  (dat7 V c).arrAt_eq_of_cover 2 (blend (V c main_v123) (V c main_v26)) (fun t _ => flushed7 V c t) (cover7)

end Cert.KernelIdeal.Blend

end
-- ==== Proof.HostStep8.lean ====
/-
  The host operations of propagation step 8: gather the current features' rows at the edges' source indices (a negative
  index first wrapped by the row count), scale each gathered row by its edge's normalisation, and scatter-add the
  rows into a zero array at the edges' destination indices.  Both programs spell these operations alike; so where the
  stretch finds the reference's stages in the buffers it reads, it leaves the reference's aggregate in the buffer it
  ends with.  The edge indices, the normalisation and the perceptron's output are not written.
-/
import proofs.«126228_j7885559956091_2_alg».proof.Proof.Gen.KernelIdeal.Launch
import proofs.«126228_j7885559956091_2_alg».proof.Proof.Gen.ReferenceIdeal.Read
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.Read (val_main_v1 val_main_v3 val_main_v25 val_main_v34)

variable {F : FTy → Type} [FloatOps F]

open Cert.ReferenceIdeal.Read (val_main_v173 val_main_v160)

variable (W : Valuation τ sig (Elt F))
variable (x0 : (⟨Cert.ReferenceIdeal.S100000x512, .f32⟩ : BufTy).Contents (Elt F)) (x1 : (⟨Cert.ReferenceIdeal.S2x3200000, .i32⟩ : BufTy).Contents (Elt F))
  (x2 : (⟨Cert.ReferenceIdeal.S512x64, .f32⟩ : BufTy).Contents (Elt F)) (x3 : (⟨Cert.ReferenceIdeal.S64, .f32⟩ : BufTy).Contents (Elt F))
  (x4 : (⟨Cert.ReferenceIdeal.S64x32, .f32⟩ : BufTy).Contents (Elt F)) (x5 : (⟨Cert.ReferenceIdeal.S32, .f32⟩ : BufTy).Contents (Elt F))

set_option maxHeartbeats 4000000 in
/-- Step 8's aggregate. -/
theorem agg8
    (hh : W (Proc.devRef .tc main_v124) = val_main_v160 x0 x1 x2 x3 x4 x5)
    (hs : W (Proc.devRef .tc main_v1) = val_main_v1 x1) (hd : W (Proc.devRef .tc main_v3) = val_main_v3 x1)
    (hn : W (Proc.devRef .tc main_v25) = val_main_v25 x1) :
    after hostOps8 W (Proc.devRef .tc main_v137) = val_main_v173 x0 x1 x2 x3 x4 x5 := by
  after_results_simp
  rw [hh, hs, hd, hn]
  rfl

theorem src8 : after hostOps8 W (Proc.devRef .tc main_v1) = W (Proc.devRef .tc main_v1) := by after_results
theorem dst8 : after hostOps8 W (Proc.devRef .tc main_v3) = W (Proc.devRef .tc main_v3) := by after_results
theorem norm8 : after hostOps8 W (Proc.devRef .tc main_v25) = W (Proc.devRef .tc main_v25) := by after_results
theorem mlp8 : after hostOps8 W (Proc.devRef .tc main_v26) = W (Proc.devRef .tc main_v26) := by after_results

end Cert.KernelIdeal.Host

end
-- ==== Proof.BlendRegion8.lean ====
/-
  Region 8 (propagation step 8's residual blend) as one whole-array function.  The grid has fifty points; point `t`
  fetches rows 2000·t … 2000·t + 1999 of the aggregate and of the perceptron's output, blends them entry by entry, and
  writes the block back to the same rows of the output array.  The fifty blocks tile the 100000 rows, so the output
  array ends as the blend of the two input arrays as the region found them.
-/
import proofs.«126228_j7885559956091_2_alg».proof.Proof.Gen.KernelIdeal.Frame
import proofs.«126228_j7885559956091_2_alg».proof.Proof.BlendLaw

set_option maxRecDepth 16384

noncomputable section

namespace Cert.KernelIdeal.Blend

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The body's stored value is the blend of its two loaded blocks (a shape cast to the same shape is the identity). -/
theorem pay8 (x0 x1 : Vec F S2000x32 .f32) : k8_pay1 x0 x1 = blend x0 x1 := by
  funext j
  unfold k8_pay1
  rw [shapeCast_self, shapeCast_self]
  rfl

/-- The index maps over the grid: all three windows sit at block row `t`, block column 0. -/
theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- What point `t` writes back is block `t` of the blend of the two input arrays. -/
theorem flushed8 (c : Dev nD) (t : Fin cfg8.N) :
    (dat8 V c).flushed 2 t = ((cfg8.win 2).blk t).view.read (Elt F) (blend (V c main_v137) (V c main_v26)) := by
  show (cfg8.win 2).cut (grid8.coords t) ((dat8 V c).after 2 t) = _
  rw [after8_2]
  unfold out8_2
  rw [View.canon_unit_zero zero_offset]
  simp only [View.ld_unit_zero (S := S2000x32) zero_offset]
  rw [pay8]
  obtain ⟨e0, e1, e2, e3, e4, e5⟩ := idx8 t
  funext j
  show blend (iblk8 V c 0 t) (iblk8 V c 1 t) j = blend (V c main_v137) (V c main_v26) (((cfg8.win 2).blk t).view.emb j)
  have h0 : ((cfg8.win 0).blk t).view.emb j = ((cfg8.win 2).blk t).view.emb j := by
    funext a; apply Fin.ext
    match a with
    | ⟨0, _⟩ => show win8_0.index t (0 : Fin 2) * 2000 + 1 * (j 0).val = win8_2.index t (0 : Fin 2) * 2000 + 1 * (j 0).val; omega
    | ⟨1, _⟩ => show win8_0.index t (1 : Fin 2) * 32 + 1 * (j 1).val = win8_2.index t (1 : Fin 2) * 32 + 1 * (j 1).val; omega
  have h1 : ((cfg8.win 1).blk t).view.emb j = ((cfg8.win 2).blk t).view.emb j := by
    funext a; apply Fin.ext
    match a with
    | ⟨0, _⟩ => show win8_1.index t (0 : Fin 2) * 2000 + 1 * (j 0).val = win8_2.index t (0 : Fin 2) * 2000 + 1 * (j 0).val; omega
    | ⟨1, _⟩ => show win8_1.index t (1 : Fin 2) * 32 + 1 * (j 1).val = win8_2.index t (1 : Fin 2) * 32 + 1 * (j 1).val; omega
  show blend (fun y => V c main_v137 (((cfg8.win 0).blk t).view.emb y)) (fun y => V c main_v26 (((cfg8.win 1).blk t).view.emb y)) j = _
  rw [blend_apply, blend_apply, h0, h1]

/-- An index of the output array is in point `t`'s block iff each coordinate is in the block's range on its axis. -/
theorem mem_blk8 (t : Fin cfg8.N) (i : S100000x32.Idx) :
    i ∈ ((cfg8.win 2).blk t).view.set ↔ ∀ a : Fin 2, win8_2.index t a * S2000x32.size a ≤ (i a).val ∧ (i a).val < win8_2.index t a * S2000x32.size a + S2000x32.size a := by
  show i ∈ ((View.whole main_v138).slice (win8_2.rect t)).set ↔ _
  rw [View.set_slice_whole, Rect.mem_set_unit]
  exact Iff.rfl

/-- Every index of the output array is in some point's block: row `r` is in block `r / 2000`. -/
theorem cover8 (i : S100000x32.Idx) :
    ∃ t : Fin cfg8.N, (cfg8.win 2).flush t = true ∧ i ∈ ((cfg8.win 2).blk t).view.set := by
  have hi0 : (i 0).val < 100000 := (i 0).isLt
  have hi1 : (i 1).val < 32 := (i 1).isLt
  have hN : grid8.N = 50 := N_8
  refine ⟨⟨(i 0).val / 2000, by show (i 0).val / 2000 < grid8.N; omega⟩, flush8_2 _, ?_⟩
  rw [mem_blk8]
  obtain ⟨e0, e1, e2, e3, e4, e5⟩ := idx8 ⟨(i 0).val / 2000, by show (i 0).val / 2000 < grid8.N; omega⟩
  intro a
  match a with
  | ⟨0, _⟩ => show win8_2.index _ (0 : Fin 2) * 2000 ≤ (i 0).val ∧ (i 0).val < win8_2.index _ (0 : Fin 2) * 2000 + 2000; rw [e4]; show (i 0).val / 2000 * 2000 ≤ (i 0).val ∧ (i 0).val < (i 0).val / 2000 * 2000 + 2000; omega
  | ⟨1, _⟩ => show win8_2.index _ (1 : Fin 2) * 32 ≤ (i 1).val ∧ (i 1).val < win8_2.index _ (1 : Fin 2) * 32 + 32; rw [e5]; omega

/-- The output array after the region: the blend of the aggregate and the perceptron's output as the region found them. -/
theorem arr8 (c : Dev nD) : (dat8 V c).arrAt 2 cfg8.N = blend (V c main_v137) (V c main_v26) :=
  (dat8 V c).arrAt_eq_of_cover 2 (blend (V c main_v137) (V c main_v26)) (fun t _ => flushed8 V c t) (cover8)

end Cert.KernelIdeal.Blend

end
-- ==== Proof.HostStep9.lean ====
/-
  The host operations of propagation step 9: gather the current features' rows at the edges' source indices (a negative
  index first wrapped by the row count), scale each gathered row by its edge's normalisation, and scatter-add the
  rows into a zero array at the edges' destination indices.  Both programs spell these operations alike; so where the
  stretch finds the reference's stages in the buffers it reads, it leaves the reference's aggregate in the buffer it
  ends with.  The edge indices, the normalisation and the perceptron's output are not written.
-/
import proofs.«126228_j7885559956091_2_alg».proof.Proof.Gen.KernelIdeal.Launch
import proofs.«126228_j7885559956091_2_alg».proof.Proof.Gen.ReferenceIdeal.Read
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.Read (val_main_v1 val_main_v3 val_main_v25 val_main_v34)

variable {F : FTy → Type} [FloatOps F]

open Cert.ReferenceIdeal.Read (val_main_v191 val_main_v178)

variable (W : Valuation τ sig (Elt F))
variable (x0 : (⟨Cert.ReferenceIdeal.S100000x512, .f32⟩ : BufTy).Contents (Elt F)) (x1 : (⟨Cert.ReferenceIdeal.S2x3200000, .i32⟩ : BufTy).Contents (Elt F))
  (x2 : (⟨Cert.ReferenceIdeal.S512x64, .f32⟩ : BufTy).Contents (Elt F)) (x3 : (⟨Cert.ReferenceIdeal.S64, .f32⟩ : BufTy).Contents (Elt F))
  (x4 : (⟨Cert.ReferenceIdeal.S64x32, .f32⟩ : BufTy).Contents (Elt F)) (x5 : (⟨Cert.ReferenceIdeal.S32, .f32⟩ : BufTy).Contents (Elt F))

set_option maxHeartbeats 4000000 in
/-- Step 9's aggregate. -/
theorem agg9
    (hh : W (Proc.devRef .tc main_v138) = val_main_v178 x0 x1 x2 x3 x4 x5)
    (hs : W (Proc.devRef .tc main_v1) = val_main_v1 x1) (hd : W (Proc.devRef .tc main_v3) = val_main_v3 x1)
    (hn : W (Proc.devRef .tc main_v25) = val_main_v25 x1) :
    after hostOps9 W (Proc.devRef .tc main_v151) = val_main_v191 x0 x1 x2 x3 x4 x5 := by
  after_results_simp
  rw [hh, hs, hd, hn]
  rfl

theorem src9 : after hostOps9 W (Proc.devRef .tc main_v1) = W (Proc.devRef .tc main_v1) := by after_results
theorem dst9 : after hostOps9 W (Proc.devRef .tc main_v3) = W (Proc.devRef .tc main_v3) := by after_results
theorem norm9 : after hostOps9 W (Proc.devRef .tc main_v25) = W (Proc.devRef .tc main_v25) := by after_results
theorem mlp9 : after hostOps9 W (Proc.devRef .tc main_v26) = W (Proc.devRef .tc main_v26) := by after_results

end Cert.KernelIdeal.Host

end
-- ==== Proof.BlendRegion9.lean ====
/-
  Region 9 (propagation step 9's residual blend) as one whole-array function.  The grid has fifty points; point `t`
  fetches rows 2000·t … 2000·t + 1999 of the aggregate and of the perceptron's output, blends them entry by entry, and
  writes the block back to the same rows of the output array.  The fifty blocks tile the 100000 rows, so the output
  array ends as the blend of the two input arrays as the region found them.
-/
import proofs.«126228_j7885559956091_2_alg».proof.Proof.Gen.KernelIdeal.Frame
import proofs.«126228_j7885559956091_2_alg».proof.Proof.BlendLaw

set_option maxRecDepth 16384

noncomputable section

namespace Cert.KernelIdeal.Blend

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The body's stored value is the blend of its two loaded blocks (a shape cast to the same shape is the identity). -/
theorem pay9 (x0 x1 : Vec F S2000x32 .f32) : k9_pay1 x0 x1 = blend x0 x1 := by
  funext j
  unfold k9_pay1
  rw [shapeCast_self, shapeCast_self]
  rfl

/-- The index maps over the grid: all three windows sit at block row `t`, block column 0. -/
theorem idx9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0 :=
  (by decide +kernel : ∀ t : Fin grid9.N, _)

/-- What point `t` writes back is block `t` of the blend of the two input arrays. -/
theorem flushed9 (c : Dev nD) (t : Fin cfg9.N) :
    (dat9 V c).flushed 2 t = ((cfg9.win 2).blk t).view.read (Elt F) (blend (V c main_v151) (V c main_v26)) := by
  show (cfg9.win 2).cut (grid9.coords t) ((dat9 V c).after 2 t) = _
  rw [after9_2]
  unfold out9_2
  rw [View.canon_unit_zero zero_offset]
  simp only [View.ld_unit_zero (S := S2000x32) zero_offset]
  rw [pay9]
  obtain ⟨e0, e1, e2, e3, e4, e5⟩ := idx9 t
  funext j
  show blend (iblk9 V c 0 t) (iblk9 V c 1 t) j = blend (V c main_v151) (V c main_v26) (((cfg9.win 2).blk t).view.emb j)
  have h0 : ((cfg9.win 0).blk t).view.emb j = ((cfg9.win 2).blk t).view.emb j := by
    funext a; apply Fin.ext
    match a with
    | ⟨0, _⟩ => show win9_0.index t (0 : Fin 2) * 2000 + 1 * (j 0).val = win9_2.index t (0 : Fin 2) * 2000 + 1 * (j 0).val; omega
    | ⟨1, _⟩ => show win9_0.index t (1 : Fin 2) * 32 + 1 * (j 1).val = win9_2.index t (1 : Fin 2) * 32 + 1 * (j 1).val; omega
  have h1 : ((cfg9.win 1).blk t).view.emb j = ((cfg9.win 2).blk t).view.emb j := by
    funext a; apply Fin.ext
    match a with
    | ⟨0, _⟩ => show win9_1.index t (0 : Fin 2) * 2000 + 1 * (j 0).val = win9_2.index t (0 : Fin 2) * 2000 + 1 * (j 0).val; omega
    | ⟨1, _⟩ => show win9_1.index t (1 : Fin 2) * 32 + 1 * (j 1).val = win9_2.index t (1 : Fin 2) * 32 + 1 * (j 1).val; omega
  show blend (fun y => V c main_v151 (((cfg9.win 0).blk t).view.emb y)) (fun y => V c main_v26 (((cfg9.win 1).blk t).view.emb y)) j = _
  rw [blend_apply, blend_apply, h0, h1]

/-- An index of the output array is in point `t`'s block iff each coordinate is in the block's range on its axis. -/
theorem mem_blk9 (t : Fin cfg9.N) (i : S100000x32.Idx) :
    i ∈ ((cfg9.win 2).blk t).view.set ↔ ∀ a : Fin 2, win9_2.index t a * S2000x32.size a ≤ (i a).val ∧ (i a).val < win9_2.index t a * S2000x32.size a + S2000x32.size a := by
  show i ∈ ((View.whole main_v152).slice (win9_2.rect t)).set ↔ _
  rw [View.set_slice_whole, Rect.mem_set_unit]
  exact Iff.rfl

/-- Every index of the output array is in some point's block: row `r` is in block `r / 2000`. -/
theorem cover9 (i : S100000x32.Idx) :
    ∃ t : Fin cfg9.N, (cfg9.win 2).flush t = true ∧ i ∈ ((cfg9.win 2).blk t).view.set := by
  have hi0 : (i 0).val < 100000 := (i 0).isLt
  have hi1 : (i 1).val < 32 := (i 1).isLt
  have hN : grid9.N = 50 := N_9
  refine ⟨⟨(i 0).val / 2000, by show (i 0).val / 2000 < grid9.N; omega⟩, flush9_2 _, ?_⟩
  rw [mem_blk9]
  obtain ⟨e0, e1, e2, e3, e4, e5⟩ := idx9 ⟨(i 0).val / 2000, by show (i 0).val / 2000 < grid9.N; omega⟩
  intro a
  match a with
  | ⟨0, _⟩ => show win9_2.index _ (0 : Fin 2) * 2000 ≤ (i 0).val ∧ (i 0).val < win9_2.index _ (0 : Fin 2) * 2000 + 2000; rw [e4]; show (i 0).val / 2000 * 2000 ≤ (i 0).val ∧ (i 0).val < (i 0).val / 2000 * 2000 + 2000; omega
  | ⟨1, _⟩ => show win9_2.index _ (1 : Fin 2) * 32 ≤ (i 1).val ∧ (i 1).val < win9_2.index _ (1 : Fin 2) * 32 + 32; rw [e5]; omega

/-- The output array after the region: the blend of the aggregate and the perceptron's output as the region found them. -/
theorem arr9 (c : Dev nD) : (dat9 V c).arrAt 2 cfg9.N = blend (V c main_v151) (V c main_v26) :=
  (dat9 V c).arrAt_eq_of_cover 2 (blend (V c main_v151) (V c main_v26)) (fun t _ => flushed9 V c t) (cover9)

end Cert.KernelIdeal.Blend

end
-- ==== Proof.HostStep10.lean ====
/-
  The host operations of propagation step 10: gather the current features' rows at the edges' source indices (a negative
  index first wrapped by the row count), scale each gathered row by its edge's normalisation, and scatter-add the
  rows into a zero array at the edges' destination indices.  Both programs spell these operations alike; so where the
  stretch finds the reference's stages in the buffers it reads, it leaves the reference's aggregate in the buffer it
  ends with.  The edge indices, the normalisation and the perceptron's output are not written.
-/
import proofs.«126228_j7885559956091_2_alg».proof.Proof.Gen.KernelIdeal.Launch
import proofs.«126228_j7885559956091_2_alg».proof.Proof.Gen.ReferenceIdeal.Read
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.Read (val_main_v1 val_main_v3 val_main_v25 val_main_v34)

variable {F : FTy → Type} [FloatOps F]

open Cert.ReferenceIdeal.Read (val_main_v209 val_main_v196)

variable (W : Valuation τ sig (Elt F))
variable (x0 : (⟨Cert.ReferenceIdeal.S100000x512, .f32⟩ : BufTy).Contents (Elt F)) (x1 : (⟨Cert.ReferenceIdeal.S2x3200000, .i32⟩ : BufTy).Contents (Elt F))
  (x2 : (⟨Cert.ReferenceIdeal.S512x64, .f32⟩ : BufTy).Contents (Elt F)) (x3 : (⟨Cert.ReferenceIdeal.S64, .f32⟩ : BufTy).Contents (Elt F))
  (x4 : (⟨Cert.ReferenceIdeal.S64x32, .f32⟩ : BufTy).Contents (Elt F)) (x5 : (⟨Cert.ReferenceIdeal.S32, .f32⟩ : BufTy).Contents (Elt F))

set_option maxHeartbeats 4000000 in
/-- Step 10's aggregate. -/
theorem agg10
    (hh : W (Proc.devRef .tc main_v152) = val_main_v196 x0 x1 x2 x3 x4 x5)
    (hs : W (Proc.devRef .tc main_v1) = val_main_v1 x1) (hd : W (Proc.devRef .tc main_v3) = val_main_v3 x1)
    (hn : W (Proc.devRef .tc main_v25) = val_main_v25 x1) :
    after hostOps10 W (Proc.devRef .tc main_v165) = val_main_v209 x0 x1 x2 x3 x4 x5 := by
  after_results_simp
  rw [hh, hs, hd, hn]
  rfl

theorem src10 : after hostOps10 W (Proc.devRef .tc main_v1) = W (Proc.devRef .tc main_v1) := by after_results
theorem dst10 : after hostOps10 W (Proc.devRef .tc main_v3) = W (Proc.devRef .tc main_v3) := by after_results
theorem norm10 : after hostOps10 W (Proc.devRef .tc main_v25) = W (Proc.devRef .tc main_v25) := by after_results
theorem mlp10 : after hostOps10 W (Proc.devRef .tc main_v26) = W (Proc.devRef .tc main_v26) := by after_results

end Cert.KernelIdeal.Host

end
-- ==== Proof.BlendRegion10.lean ====
/-
  Region 10 (propagation step 10's residual blend) as one whole-array function.  The grid has fifty points; point `t`
  fetches rows 2000·t … 2000·t + 1999 of the aggregate and of the perceptron's output, blends them entry by entry, and
  writes the block back to the same rows of the output array.  The fifty blocks tile the 100000 rows, so the output
  array ends as the blend of the two input arrays as the region found them.
-/
import proofs.«126228_j7885559956091_2_alg».proof.Proof.Gen.KernelIdeal.Frame
import proofs.«126228_j7885559956091_2_alg».proof.Proof.BlendLaw

set_option maxRecDepth 16384

noncomputable section

namespace Cert.KernelIdeal.Blend

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The body's stored value is the blend of its two loaded blocks (a shape cast to the same shape is the identity). -/
theorem pay10 (x0 x1 : Vec F S2000x32 .f32) : k10_pay1 x0 x1 = blend x0 x1 := by
  funext j
  unfold k10_pay1
  rw [shapeCast_self, shapeCast_self]
  rfl

/-- The index maps over the grid: all three windows sit at block row `t`, block column 0. -/
theorem idx10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0 :=
  (by decide +kernel : ∀ t : Fin grid10.N, _)

/-- What point `t` writes back is block `t` of the blend of the two input arrays. -/
theorem flushed10 (c : Dev nD) (t : Fin cfg10.N) :
    (dat10 V c).flushed 2 t = ((cfg10.win 2).blk t).view.read (Elt F) (blend (V c main_v165) (V c main_v26)) := by
  show (cfg10.win 2).cut (grid10.coords t) ((dat10 V c).after 2 t) = _
  rw [after10_2]
  unfold out10_2
  rw [View.canon_unit_zero zero_offset]
  simp only [View.ld_unit_zero (S := S2000x32) zero_offset]
  rw [pay10]
  obtain ⟨e0, e1, e2, e3, e4, e5⟩ := idx10 t
  funext j
  show blend (iblk10 V c 0 t) (iblk10 V c 1 t) j = blend (V c main_v165) (V c main_v26) (((cfg10.win 2).blk t).view.emb j)
  have h0 : ((cfg10.win 0).blk t).view.emb j = ((cfg10.win 2).blk t).view.emb j := by
    funext a; apply Fin.ext
    match a with
    | ⟨0, _⟩ => show win10_0.index t (0 : Fin 2) * 2000 + 1 * (j 0).val = win10_2.index t (0 : Fin 2) * 2000 + 1 * (j 0).val; omega
    | ⟨1, _⟩ => show win10_0.index t (1 : Fin 2) * 32 + 1 * (j 1).val = win10_2.index t (1 : Fin 2) * 32 + 1 * (j 1).val; omega
  have h1 : ((cfg10.win 1).blk t).view.emb j = ((cfg10.win 2).blk t).view.emb j := by
    funext a; apply Fin.ext
    match a with
    | ⟨0, _⟩ => show win10_1.index t (0 : Fin 2) * 2000 + 1 * (j 0).val = win10_2.index t (0 : Fin 2) * 2000 + 1 * (j 0).val; omega
    | ⟨1, _⟩ => show win10_1.index t (1 : Fin 2) * 32 + 1 * (j 1).val = win10_2.index t (1 : Fin 2) * 32 + 1 * (j 1).val; omega
  show blend (fun y => V c main_v165 (((cfg10.win 0).blk t).view.emb y)) (fun y => V c main_v26 (((cfg10.win 1).blk t).view.emb y)) j = _
  rw [blend_apply, blend_apply, h0, h1]

/-- An index of the output array is in point `t`'s block iff each coordinate is in the block's range on its axis. -/
theorem mem_blk10 (t : Fin cfg10.N) (i : S100000x32.Idx) :
    i ∈ ((cfg10.win 2).blk t).view.set ↔ ∀ a : Fin 2, win10_2.index t a * S2000x32.size a ≤ (i a).val ∧ (i a).val < win10_2.index t a * S2000x32.size a + S2000x32.size a := by
  show i ∈ ((View.whole main_v166).slice (win10_2.rect t)).set ↔ _
  rw [View.set_slice_whole, Rect.mem_set_unit]
  exact Iff.rfl

/-- Every index of the output array is in some point's block: row `r` is in block `r / 2000`. -/
theorem cover10 (i : S100000x32.Idx) :
    ∃ t : Fin cfg10.N, (cfg10.win 2).flush t = true ∧ i ∈ ((cfg10.win 2).blk t).view.set := by
  have hi0 : (i 0).val < 100000 := (i 0).isLt
  have hi1 : (i 1).val < 32 := (i 1).isLt
  have hN : grid10.N = 50 := N_10
  refine ⟨⟨(i 0).val / 2000, by show (i 0).val / 2000 < grid10.N; omega⟩, flush10_2 _, ?_⟩
  rw [mem_blk10]
  obtain ⟨e0, e1, e2, e3, e4, e5⟩ := idx10 ⟨(i 0).val / 2000, by show (i 0).val / 2000 < grid10.N; omega⟩
  intro a
  match a with
  | ⟨0, _⟩ => show win10_2.index _ (0 : Fin 2) * 2000 ≤ (i 0).val ∧ (i 0).val < win10_2.index _ (0 : Fin 2) * 2000 + 2000; rw [e4]; show (i 0).val / 2000 * 2000 ≤ (i 0).val ∧ (i 0).val < (i 0).val / 2000 * 2000 + 2000; omega
  | ⟨1, _⟩ => show win10_2.index _ (1 : Fin 2) * 32 ≤ (i 1).val ∧ (i 1).val < win10_2.index _ (1 : Fin 2) * 32 + 32; rw [e5]; omega

/-- The output array after the region: the blend of the aggregate and the perceptron's output as the region found them. -/
theorem arr10 (c : Dev nD) : (dat10 V c).arrAt 2 cfg10.N = blend (V c main_v165) (V c main_v26) :=
  (dat10 V c).arrAt_eq_of_cover 2 (blend (V c main_v165) (V c main_v26)) (fun t _ => flushed10 V c t) (cover10)

end Cert.KernelIdeal.Blend

end
-- ==== Proof.Chain.lean ====
/-
  The idealized kernel's buffers at every boundary of its run, named by the reference's stages.  The run alternates
  stretches of host operations with kernel regions; at each boundary the buffers the later steps read are tracked:
  the edges' source and destination indices and normalisation (computed once, never written again), the perceptron's
  output (written by region 0, then only read), and the current features (the perceptron's output at first, then each
  blend region's output array).  A host stretch leaves the reference's aggregate where it found the reference's
  features; a blend region leaves the reference's next features where it found that aggregate.  After ten steps the
  result buffer holds the reference's result, as a function of the six arguments as launched.
-/
import proofs.«126228_j7885559956091_2_alg».proof.Proof.HostPrefix
import proofs.«126228_j7885559956091_2_alg».proof.Proof.MlpRegion
import proofs.«126228_j7885559956091_2_alg».proof.Proof.MlpRef
import proofs.«126228_j7885559956091_2_alg».proof.Proof.BlendRef
import proofs.«126228_j7885559956091_2_alg».proof.Proof.HostStep1
import proofs.«126228_j7885559956091_2_alg».proof.Proof.BlendRegion1
import proofs.«126228_j7885559956091_2_alg».proof.Proof.HostStep2
import proofs.«126228_j7885559956091_2_alg».proof.Proof.BlendRegion2
import proofs.«126228_j7885559956091_2_alg».proof.Proof.HostStep3
import proofs.«126228_j7885559956091_2_alg».proof.Proof.BlendRegion3
import proofs.«126228_j7885559956091_2_alg».proof.Proof.HostStep4
import proofs.«126228_j7885559956091_2_alg».proof.Proof.BlendRegion4
import proofs.«126228_j7885559956091_2_alg».proof.Proof.HostStep5
import proofs.«126228_j7885559956091_2_alg».proof.Proof.BlendRegion5
import proofs.«126228_j7885559956091_2_alg».proof.Proof.HostStep6
import proofs.«126228_j7885559956091_2_alg».proof.Proof.BlendRegion6
import proofs.«126228_j7885559956091_2_alg».proof.Proof.HostStep7
import proofs.«126228_j7885559956091_2_alg».proof.Proof.BlendRegion7
import proofs.«126228_j7885559956091_2_alg».proof.Proof.HostStep8
import proofs.«126228_j7885559956091_2_alg».proof.Proof.BlendRegion8
import proofs.«126228_j7885559956091_2_alg».proof.Proof.HostStep9
import proofs.«126228_j7885559956091_2_alg».proof.Proof.BlendRegion9
import proofs.«126228_j7885559956091_2_alg».proof.Proof.HostStep10
import proofs.«126228_j7885559956091_2_alg».proof.Proof.BlendRegion10

set_option maxRecDepth 16384

noncomputable section

namespace Cert.KernelIdeal.Chain

open Idealize.ShloMosaic Idealize.ShloMosaic.TcCoe Idealize.SL.Sem Idealize.ShloMosaic.StableHlo Idealize.ShloMosaic.ValueIdx
open Idealize.ShloMosaic.Pipeline (Dat Cfg Window)
open Cert.KernelIdeal Cert.KernelIdeal.Gen
open Cert.ReferenceIdeal.Read (val_main_v1 val_main_v3 val_main_v25 val_main_v34 val_main_v47 val_main_v52 val_main_v65 val_main_v70 val_main_v83 val_main_v88 val_main_v101 val_main_v106 val_main_v119 val_main_v124 val_main_v137 val_main_v142 val_main_v155 val_main_v160 val_main_v173 val_main_v178 val_main_v191 val_main_v196 val_main_v209 val_main_v214)

variable (m : (ℓ : Loc nD τ sig) → Buf (Elt Ideal) ℓ) (ρ : Dev nD → PrngReg) (c : Dev nD)

/-- The perceptron of whole arrays is the reference's perceptron stage: entry by entry both are the same sums. -/
theorem mlp_ref_eq (x0 : FVec Ideal S100000x512 .f32) (x2 : FVec Ideal S512x64 .f32) (x3 : FVec Ideal S64 .f32)
    (x4 : FVec Ideal S64x32 .f32) (x5 : FVec Ideal S32 .f32) :
    MlpRegion.mlpArr x0 x2 x3 x4 x5 = val_main_v34 (F := Ideal) x0 x2 x3 x4 x5 := by
  funext i
  obtain ⟨r, q, rfl⟩ : ∃ (r : Fin 100000) (q : Fin 32), i = ix2 r q := ⟨i 0, i 1, eq_ix2 i⟩
  exact (MlpRegion.mlpArr_apply _ _ _ _ _ r q).trans (Cert.ReferenceIdeal.MlpRead.ref_apply _ _ _ _ _ r q).symm

/-! ## Before the first region (boundary 1) -/

theorem src_1 : W1 m ρ c (Proc.devRef .tc main_v1) = val_main_v1 (m ((c.tc : Thread nD τ).loc main_arg1)) := Host.src0 (W0 m ρ c)
theorem dst_1 : W1 m ρ c (Proc.devRef .tc main_v3) = val_main_v3 (m ((c.tc : Thread nD τ).loc main_arg1)) := Host.dst0 (W0 m ρ c)
theorem norm_1 : W1 m ρ c (Proc.devRef .tc main_v25) = val_main_v25 (m ((c.tc : Thread nD τ).loc main_arg1)) := Host.norm0 (W0 m ρ c)
theorem arg0_1 : W1 m ρ c (Proc.devRef .tc main_arg0) = m ((c.tc : Thread nD τ).loc main_arg0) := Host.arg0_0 (W0 m ρ c)
theorem arg2_1 : W1 m ρ c (Proc.devRef .tc main_arg2) = m ((c.tc : Thread nD τ).loc main_arg2) := Host.arg2_0 (W0 m ρ c)
theorem arg3_1 : W1 m ρ c (Proc.devRef .tc main_arg3) = m ((c.tc : Thread nD τ).loc main_arg3) := Host.arg3_0 (W0 m ρ c)
theorem arg4_1 : W1 m ρ c (Proc.devRef .tc main_arg4) = m ((c.tc : Thread nD τ).loc main_arg4) := Host.arg4_0 (W0 m ρ c)
theorem arg5_1 : W1 m ρ c (Proc.devRef .tc main_arg5) = m ((c.tc : Thread nD τ).loc main_arg5) := Host.arg5_0 (W0 m ρ c)

/-! ## After the perceptron region (boundary 2) -/

theorem src_2 : W2 m ρ c (Proc.devRef .tc main_v1) = val_main_v1 (m ((c.tc : Thread nD τ).loc main_arg1)) :=
  (W2_of_ne m ρ c main_v1 (by decide)).trans (src_1 m ρ c)
theorem dst_2 : W2 m ρ c (Proc.devRef .tc main_v3) = val_main_v3 (m ((c.tc : Thread nD τ).loc main_arg1)) :=
  (W2_of_ne m ρ c main_v3 (by decide)).trans (dst_1 m ρ c)
theorem norm_2 : W2 m ρ c (Proc.devRef .tc main_v25) = val_main_v25 (m ((c.tc : Thread nD τ).loc main_arg1)) :=
  (W2_of_ne m ρ c main_v25 (by decide)).trans (norm_1 m ρ c)
/-- The perceptron's output array is the reference's perceptron stage: entry by entry both are the same sums. -/
theorem mlp_2 : W2 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  refine (W2_arr m ρ c 5).trans ((MlpRegion.arr0 (V1 m ρ) c).trans ?_)
  rw [show V1 m ρ c main_arg0 = _ from arg0_1 m ρ c, show V1 m ρ c main_arg2 = _ from arg2_1 m ρ c,
    show V1 m ρ c main_arg3 = _ from arg3_1 m ρ c, show V1 m ρ c main_arg4 = _ from arg4_1 m ρ c,
    show V1 m ρ c main_arg5 = _ from arg5_1 m ρ c]
  exact mlp_ref_eq _ _ _ _ _

/-! ## Propagation step 1: the host stretch (boundary 3) and the blend region (boundary 4) -/

theorem src_3 : W3 m ρ c (Proc.devRef .tc main_v1) = val_main_v1 (m ((c.tc : Thread nD τ).loc main_arg1)) :=
  (Host.src1 (W2 m ρ c)).trans (src_2 m ρ c)
theorem dst_3 : W3 m ρ c (Proc.devRef .tc main_v3) = val_main_v3 (m ((c.tc : Thread nD τ).loc main_arg1)) :=
  (Host.dst1 (W2 m ρ c)).trans (dst_2 m ρ c)
theorem norm_3 : W3 m ρ c (Proc.devRef .tc main_v25) = val_main_v25 (m ((c.tc : Thread nD τ).loc main_arg1)) :=
  (Host.norm1 (W2 m ρ c)).trans (norm_2 m ρ c)
theorem mlp_3 : W3 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (Host.mlp1 (W2 m ρ c)).trans (mlp_2 m ρ c)
/-- The aggregate of step 1. -/
theorem agg_3 : W3 m ρ c (Proc.devRef .tc main_v39) = val_main_v47 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  Host.agg1 (W2 m ρ c) _ _ _ _ _ _ (mlp_2 m ρ c) (src_2 m ρ c) (dst_2 m ρ c) (norm_2 m ρ c)

theorem src_4 : W4 m ρ c (Proc.devRef .tc main_v1) = val_main_v1 (m ((c.tc : Thread nD τ).loc main_arg1)) :=
  (W4_of_ne m ρ c main_v1 (by decide)).trans (src_3 m ρ c)
theorem dst_4 : W4 m ρ c (Proc.devRef .tc main_v3) = val_main_v3 (m ((c.tc : Thread nD τ).loc main_arg1)) :=
  (W4_of_ne m ρ c main_v3 (by decide)).trans (dst_3 m ρ c)
theorem norm_4 : W4 m ρ c (Proc.devRef .tc main_v25) = val_main_v25 (m ((c.tc : Thread nD τ).loc main_arg1)) :=
  (W4_of_ne m ρ c main_v25 (by decide)).trans (norm_3 m ρ c)
/-- The perceptron's output is an input array of the blend: the region leaves it as it found it. -/
theorem mlp_4 : W4 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (W4_arr m ρ c 1).trans (((dat1 (V3 m ρ) c).arrAt_in 1 rfl _).trans ((A_eq1 (V3 m ρ) c 1).trans (mlp_3 m ρ c)))
/-- The features after step 1: the blend of the step's aggregate with the perceptron's output, which is how the
    reference's step ends too (the same two float words, the same order of operations). -/
theorem feat_4 : W4 m ρ c (Proc.devRef .tc main_v40) = val_main_v52 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W4_arr m ρ c 2).trans ((Blend.arr1 (V3 m ρ) c).trans
    ((congrArg₂ (Blend.blend (S := S100000x32)) (agg_3 m ρ c) (mlp_3 m ρ c)).trans
      (Cert.ReferenceIdeal.BlendRead.blend_ref1 _ _ _ _ _ _)))

/-! ## Propagation step 2: the host stretch (boundary 5) and the blend region (boundary 6) -/

theorem src_5 : W5 m ρ c (Proc.devRef .tc main_v1) = val_main_v1 (m ((c.tc : Thread nD τ).loc main_arg1)) :=
  (Host.src2 (W4 m ρ c)).trans (src_4 m ρ c)
theorem dst_5 : W5 m ρ c (Proc.devRef .tc main_v3) = val_main_v3 (m ((c.tc : Thread nD τ).loc main_arg1)) :=
  (Host.dst2 (W4 m ρ c)).trans (dst_4 m ρ c)
theorem norm_5 : W5 m ρ c (Proc.devRef .tc main_v25) = val_main_v25 (m ((c.tc : Thread nD τ).loc main_arg1)) :=
  (Host.norm2 (W4 m ρ c)).trans (norm_4 m ρ c)
theorem mlp_5 : W5 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (Host.mlp2 (W4 m ρ c)).trans (mlp_4 m ρ c)
/-- The aggregate of step 2. -/
theorem agg_5 : W5 m ρ c (Proc.devRef .tc main_v53) = val_main_v65 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  Host.agg2 (W4 m ρ c) _ _ _ _ _ _ (feat_4 m ρ c) (src_4 m ρ c) (dst_4 m ρ c) (norm_4 m ρ c)

theorem src_6 : W6 m ρ c (Proc.devRef .tc main_v1) = val_main_v1 (m ((c.tc : Thread nD τ).loc main_arg1)) :=
  (W6_of_ne m ρ c main_v1 (by decide)).trans (src_5 m ρ c)
theorem dst_6 : W6 m ρ c (Proc.devRef .tc main_v3) = val_main_v3 (m ((c.tc : Thread nD τ).loc main_arg1)) :=
  (W6_of_ne m ρ c main_v3 (by decide)).trans (dst_5 m ρ c)
theorem norm_6 : W6 m ρ c (Proc.devRef .tc main_v25) = val_main_v25 (m ((c.tc : Thread nD τ).loc main_arg1)) :=
  (W6_of_ne m ρ c main_v25 (by decide)).trans (norm_5 m ρ c)
/-- The perceptron's output is an input array of the blend: the region leaves it as it found it. -/
theorem mlp_6 : W6 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (W6_arr m ρ c 1).trans (((dat2 (V5 m ρ) c).arrAt_in 1 rfl _).trans ((A_eq2 (V5 m ρ) c 1).trans (mlp_5 m ρ c)))
/-- The features after step 2: the blend of the step's aggregate with the perceptron's output, which is how the
    reference's step ends too (the same two float words, the same order of operations). -/
theorem feat_6 : W6 m ρ c (Proc.devRef .tc main_v54) = val_main_v70 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W6_arr m ρ c 2).trans ((Blend.arr2 (V5 m ρ) c).trans
    ((congrArg₂ (Blend.blend (S := S100000x32)) (agg_5 m ρ c) (mlp_5 m ρ c)).trans
      (Cert.ReferenceIdeal.BlendRead.blend_ref2 _ _ _ _ _ _)))

/-! ## Propagation step 3: the host stretch (boundary 7) and the blend region (boundary 8) -/

theorem src_7 : W7 m ρ c (Proc.devRef .tc main_v1) = val_main_v1 (m ((c.tc : Thread nD τ).loc main_arg1)) :=
  (Host.src3 (W6 m ρ c)).trans (src_6 m ρ c)
theorem dst_7 : W7 m ρ c (Proc.devRef .tc main_v3) = val_main_v3 (m ((c.tc : Thread nD τ).loc main_arg1)) :=
  (Host.dst3 (W6 m ρ c)).trans (dst_6 m ρ c)
theorem norm_7 : W7 m ρ c (Proc.devRef .tc main_v25) = val_main_v25 (m ((c.tc : Thread nD τ).loc main_arg1)) :=
  (Host.norm3 (W6 m ρ c)).trans (norm_6 m ρ c)
theorem mlp_7 : W7 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (Host.mlp3 (W6 m ρ c)).trans (mlp_6 m ρ c)
/-- The aggregate of step 3. -/
theorem agg_7 : W7 m ρ c (Proc.devRef .tc main_v67) = val_main_v83 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  Host.agg3 (W6 m ρ c) _ _ _ _ _ _ (feat_6 m ρ c) (src_6 m ρ c) (dst_6 m ρ c) (norm_6 m ρ c)

theorem src_8 : W8 m ρ c (Proc.devRef .tc main_v1) = val_main_v1 (m ((c.tc : Thread nD τ).loc main_arg1)) :=
  (W8_of_ne m ρ c main_v1 (by decide)).trans (src_7 m ρ c)
theorem dst_8 : W8 m ρ c (Proc.devRef .tc main_v3) = val_main_v3 (m ((c.tc : Thread nD τ).loc main_arg1)) :=
  (W8_of_ne m ρ c main_v3 (by decide)).trans (dst_7 m ρ c)
theorem norm_8 : W8 m ρ c (Proc.devRef .tc main_v25) = val_main_v25 (m ((c.tc : Thread nD τ).loc main_arg1)) :=
  (W8_of_ne m ρ c main_v25 (by decide)).trans (norm_7 m ρ c)
/-- The perceptron's output is an input array of the blend: the region leaves it as it found it. -/
theorem mlp_8 : W8 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (W8_arr m ρ c 1).trans (((dat3 (V7 m ρ) c).arrAt_in 1 rfl _).trans ((A_eq3 (V7 m ρ) c 1).trans (mlp_7 m ρ c)))
/-- The features after step 3: the blend of the step's aggregate with the perceptron's output, which is how the
    reference's step ends too (the same two float words, the same order of operations). -/
theorem feat_8 : W8 m ρ c (Proc.devRef .tc main_v68) = val_main_v88 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W8_arr m ρ c 2).trans ((Blend.arr3 (V7 m ρ) c).trans
    ((congrArg₂ (Blend.blend (S := S100000x32)) (agg_7 m ρ c) (mlp_7 m ρ c)).trans
      (Cert.ReferenceIdeal.BlendRead.blend_ref3 _ _ _ _ _ _)))

/-! ## Propagation step 4: the host stretch (boundary 9) and the blend region (boundary 10) -/

theorem src_9 : W9 m ρ c (Proc.devRef .tc main_v1) = val_main_v1 (m ((c.tc : Thread nD τ).loc main_arg1)) :=
  (Host.src4 (W8 m ρ c)).trans (src_8 m ρ c)
theorem dst_9 : W9 m ρ c (Proc.devRef .tc main_v3) = val_main_v3 (m ((c.tc : Thread nD τ).loc main_arg1)) :=
  (Host.dst4 (W8 m ρ c)).trans (dst_8 m ρ c)
theorem norm_9 : W9 m ρ c (Proc.devRef .tc main_v25) = val_main_v25 (m ((c.tc : Thread nD τ).loc main_arg1)) :=
  (Host.norm4 (W8 m ρ c)).trans (norm_8 m ρ c)
theorem mlp_9 : W9 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (Host.mlp4 (W8 m ρ c)).trans (mlp_8 m ρ c)
/-- The aggregate of step 4. -/
theorem agg_9 : W9 m ρ c (Proc.devRef .tc main_v81) = val_main_v101 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  Host.agg4 (W8 m ρ c) _ _ _ _ _ _ (feat_8 m ρ c) (src_8 m ρ c) (dst_8 m ρ c) (norm_8 m ρ c)

theorem src_10 : W10 m ρ c (Proc.devRef .tc main_v1) = val_main_v1 (m ((c.tc : Thread nD τ).loc main_arg1)) :=
  (W10_of_ne m ρ c main_v1 (by decide)).trans (src_9 m ρ c)
theorem dst_10 : W10 m ρ c (Proc.devRef .tc main_v3) = val_main_v3 (m ((c.tc : Thread nD τ).loc main_arg1)) :=
  (W10_of_ne m ρ c main_v3 (by decide)).trans (dst_9 m ρ c)
theorem norm_10 : W10 m ρ c (Proc.devRef .tc main_v25) = val_main_v25 (m ((c.tc : Thread nD τ).loc main_arg1)) :=
  (W10_of_ne m ρ c main_v25 (by decide)).trans (norm_9 m ρ c)
/-- The perceptron's output is an input array of the blend: the region leaves it as it found it. -/
theorem mlp_10 : W10 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (W10_arr m ρ c 1).trans (((dat4 (V9 m ρ) c).arrAt_in 1 rfl _).trans ((A_eq4 (V9 m ρ) c 1).trans (mlp_9 m ρ c)))
/-- The features after step 4: the blend of the step's aggregate with the perceptron's output, which is how the
    reference's step ends too (the same two float words, the same order of operations). -/
theorem feat_10 : W10 m ρ c (Proc.devRef .tc main_v82) = val_main_v106 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W10_arr m ρ c 2).trans ((Blend.arr4 (V9 m ρ) c).trans
    ((congrArg₂ (Blend.blend (S := S100000x32)) (agg_9 m ρ c) (mlp_9 m ρ c)).trans
      (Cert.ReferenceIdeal.BlendRead.blend_ref4 _ _ _ _ _ _)))

/-! ## Propagation step 5: the host stretch (boundary 11) and the blend region (boundary 12) -/

theorem src_11 : W11 m ρ c (Proc.devRef .tc main_v1) = val_main_v1 (m ((c.tc : Thread nD τ).loc main_arg1)) :=
  (Host.src5 (W10 m ρ c)).trans (src_10 m ρ c)
theorem dst_11 : W11 m ρ c (Proc.devRef .tc main_v3) = val_main_v3 (m ((c.tc : Thread nD τ).loc main_arg1)) :=
  (Host.dst5 (W10 m ρ c)).trans (dst_10 m ρ c)
theorem norm_11 : W11 m ρ c (Proc.devRef .tc main_v25) = val_main_v25 (m ((c.tc : Thread nD τ).loc main_arg1)) :=
  (Host.norm5 (W10 m ρ c)).trans (norm_10 m ρ c)
theorem mlp_11 : W11 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (Host.mlp5 (W10 m ρ c)).trans (mlp_10 m ρ c)
/-- The aggregate of step 5. -/
theorem agg_11 : W11 m ρ c (Proc.devRef .tc main_v95) = val_main_v119 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  Host.agg5 (W10 m ρ c) _ _ _ _ _ _ (feat_10 m ρ c) (src_10 m ρ c) (dst_10 m ρ c) (norm_10 m ρ c)

theorem src_12 : W12 m ρ c (Proc.devRef .tc main_v1) = val_main_v1 (m ((c.tc : Thread nD τ).loc main_arg1)) :=
  (W12_of_ne m ρ c main_v1 (by decide)).trans (src_11 m ρ c)
theorem dst_12 : W12 m ρ c (Proc.devRef .tc main_v3) = val_main_v3 (m ((c.tc : Thread nD τ).loc main_arg1)) :=
  (W12_of_ne m ρ c main_v3 (by decide)).trans (dst_11 m ρ c)
theorem norm_12 : W12 m ρ c (Proc.devRef .tc main_v25) = val_main_v25 (m ((c.tc : Thread nD τ).loc main_arg1)) :=
  (W12_of_ne m ρ c main_v25 (by decide)).trans (norm_11 m ρ c)
/-- The perceptron's output is an input array of the blend: the region leaves it as it found it. -/
theorem mlp_12 : W12 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (W12_arr m ρ c 1).trans (((dat5 (V11 m ρ) c).arrAt_in 1 rfl _).trans ((A_eq5 (V11 m ρ) c 1).trans (mlp_11 m ρ c)))
/-- The features after step 5: the blend of the step's aggregate with the perceptron's output, which is how the
    reference's step ends too (the same two float words, the same order of operations). -/
theorem feat_12 : W12 m ρ c (Proc.devRef .tc main_v96) = val_main_v124 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W12_arr m ρ c 2).trans ((Blend.arr5 (V11 m ρ) c).trans
    ((congrArg₂ (Blend.blend (S := S100000x32)) (agg_11 m ρ c) (mlp_11 m ρ c)).trans
      (Cert.ReferenceIdeal.BlendRead.blend_ref5 _ _ _ _ _ _)))

/-! ## Propagation step 6: the host stretch (boundary 13) and the blend region (boundary 14) -/

theorem src_13 : W13 m ρ c (Proc.devRef .tc main_v1) = val_main_v1 (m ((c.tc : Thread nD τ).loc main_arg1)) :=
  (Host.src6 (W12 m ρ c)).trans (src_12 m ρ c)
theorem dst_13 : W13 m ρ c (Proc.devRef .tc main_v3) = val_main_v3 (m ((c.tc : Thread nD τ).loc main_arg1)) :=
  (Host.dst6 (W12 m ρ c)).trans (dst_12 m ρ c)
theorem norm_13 : W13 m ρ c (Proc.devRef .tc main_v25) = val_main_v25 (m ((c.tc : Thread nD τ).loc main_arg1)) :=
  (Host.norm6 (W12 m ρ c)).trans (norm_12 m ρ c)
theorem mlp_13 : W13 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (Host.mlp6 (W12 m ρ c)).trans (mlp_12 m ρ c)
/-- The aggregate of step 6. -/
theorem agg_13 : W13 m ρ c (Proc.devRef .tc main_v109) = val_main_v137 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  Host.agg6 (W12 m ρ c) _ _ _ _ _ _ (feat_12 m ρ c) (src_12 m ρ c) (dst_12 m ρ c) (norm_12 m ρ c)

theorem src_14 : W14 m ρ c (Proc.devRef .tc main_v1) = val_main_v1 (m ((c.tc : Thread nD τ).loc main_arg1)) :=
  (W14_of_ne m ρ c main_v1 (by decide)).trans (src_13 m ρ c)
theorem dst_14 : W14 m ρ c (Proc.devRef .tc main_v3) = val_main_v3 (m ((c.tc : Thread nD τ).loc main_arg1)) :=
  (W14_of_ne m ρ c main_v3 (by decide)).trans (dst_13 m ρ c)
theorem norm_14 : W14 m ρ c (Proc.devRef .tc main_v25) = val_main_v25 (m ((c.tc : Thread nD τ).loc main_arg1)) :=
  (W14_of_ne m ρ c main_v25 (by decide)).trans (norm_13 m ρ c)
/-- The perceptron's output is an input array of the blend: the region leaves it as it found it. -/
theorem mlp_14 : W14 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (W14_arr m ρ c 1).trans (((dat6 (V13 m ρ) c).arrAt_in 1 rfl _).trans ((A_eq6 (V13 m ρ) c 1).trans (mlp_13 m ρ c)))
/-- The features after step 6: the blend of the step's aggregate with the perceptron's output, which is how the
    reference's step ends too (the same two float words, the same order of operations). -/
theorem feat_14 : W14 m ρ c (Proc.devRef .tc main_v110) = val_main_v142 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W14_arr m ρ c 2).trans ((Blend.arr6 (V13 m ρ) c).trans
    ((congrArg₂ (Blend.blend (S := S100000x32)) (agg_13 m ρ c) (mlp_13 m ρ c)).trans
      (Cert.ReferenceIdeal.BlendRead.blend_ref6 _ _ _ _ _ _)))

/-! ## Propagation step 7: the host stretch (boundary 15) and the blend region (boundary 16) -/

theorem src_15 : W15 m ρ c (Proc.devRef .tc main_v1) = val_main_v1 (m ((c.tc : Thread nD τ).loc main_arg1)) :=
  (Host.src7 (W14 m ρ c)).trans (src_14 m ρ c)
theorem dst_15 : W15 m ρ c (Proc.devRef .tc main_v3) = val_main_v3 (m ((c.tc : Thread nD τ).loc main_arg1)) :=
  (Host.dst7 (W14 m ρ c)).trans (dst_14 m ρ c)
theorem norm_15 : W15 m ρ c (Proc.devRef .tc main_v25) = val_main_v25 (m ((c.tc : Thread nD τ).loc main_arg1)) :=
  (Host.norm7 (W14 m ρ c)).trans (norm_14 m ρ c)
theorem mlp_15 : W15 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (Host.mlp7 (W14 m ρ c)).trans (mlp_14 m ρ c)
/-- The aggregate of step 7. -/
theorem agg_15 : W15 m ρ c (Proc.devRef .tc main_v123) = val_main_v155 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  Host.agg7 (W14 m ρ c) _ _ _ _ _ _ (feat_14 m ρ c) (src_14 m ρ c) (dst_14 m ρ c) (norm_14 m ρ c)

theorem src_16 : W16 m ρ c (Proc.devRef .tc main_v1) = val_main_v1 (m ((c.tc : Thread nD τ).loc main_arg1)) :=
  (W16_of_ne m ρ c main_v1 (by decide)).trans (src_15 m ρ c)
theorem dst_16 : W16 m ρ c (Proc.devRef .tc main_v3) = val_main_v3 (m ((c.tc : Thread nD τ).loc main_arg1)) :=
  (W16_of_ne m ρ c main_v3 (by decide)).trans (dst_15 m ρ c)
theorem norm_16 : W16 m ρ c (Proc.devRef .tc main_v25) = val_main_v25 (m ((c.tc : Thread nD τ).loc main_arg1)) :=
  (W16_of_ne m ρ c main_v25 (by decide)).trans (norm_15 m ρ c)
/-- The perceptron's output is an input array of the blend: the region leaves it as it found it. -/
theorem mlp_16 : W16 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (W16_arr m ρ c 1).trans (((dat7 (V15 m ρ) c).arrAt_in 1 rfl _).trans ((A_eq7 (V15 m ρ) c 1).trans (mlp_15 m ρ c)))
/-- The features after step 7: the blend of the step's aggregate with the perceptron's output, which is how the
    reference's step ends too (the same two float words, the same order of operations). -/
theorem feat_16 : W16 m ρ c (Proc.devRef .tc main_v124) = val_main_v160 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W16_arr m ρ c 2).trans ((Blend.arr7 (V15 m ρ) c).trans
    ((congrArg₂ (Blend.blend (S := S100000x32)) (agg_15 m ρ c) (mlp_15 m ρ c)).trans
      (Cert.ReferenceIdeal.BlendRead.blend_ref7 _ _ _ _ _ _)))

/-! ## Propagation step 8: the host stretch (boundary 17) and the blend region (boundary 18) -/

theorem src_17 : W17 m ρ c (Proc.devRef .tc main_v1) = val_main_v1 (m ((c.tc : Thread nD τ).loc main_arg1)) :=
  (Host.src8 (W16 m ρ c)).trans (src_16 m ρ c)
theorem dst_17 : W17 m ρ c (Proc.devRef .tc main_v3) = val_main_v3 (m ((c.tc : Thread nD τ).loc main_arg1)) :=
  (Host.dst8 (W16 m ρ c)).trans (dst_16 m ρ c)
theorem norm_17 : W17 m ρ c (Proc.devRef .tc main_v25) = val_main_v25 (m ((c.tc : Thread nD τ).loc main_arg1)) :=
  (Host.norm8 (W16 m ρ c)).trans (norm_16 m ρ c)
theorem mlp_17 : W17 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (Host.mlp8 (W16 m ρ c)).trans (mlp_16 m ρ c)
/-- The aggregate of step 8. -/
theorem agg_17 : W17 m ρ c (Proc.devRef .tc main_v137) = val_main_v173 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  Host.agg8 (W16 m ρ c) _ _ _ _ _ _ (feat_16 m ρ c) (src_16 m ρ c) (dst_16 m ρ c) (norm_16 m ρ c)

theorem src_18 : W18 m ρ c (Proc.devRef .tc main_v1) = val_main_v1 (m ((c.tc : Thread nD τ).loc main_arg1)) :=
  (W18_of_ne m ρ c main_v1 (by decide)).trans (src_17 m ρ c)
theorem dst_18 : W18 m ρ c (Proc.devRef .tc main_v3) = val_main_v3 (m ((c.tc : Thread nD τ).loc main_arg1)) :=
  (W18_of_ne m ρ c main_v3 (by decide)).trans (dst_17 m ρ c)
theorem norm_18 : W18 m ρ c (Proc.devRef .tc main_v25) = val_main_v25 (m ((c.tc : Thread nD τ).loc main_arg1)) :=
  (W18_of_ne m ρ c main_v25 (by decide)).trans (norm_17 m ρ c)
/-- The perceptron's output is an input array of the blend: the region leaves it as it found it. -/
theorem mlp_18 : W18 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (W18_arr m ρ c 1).trans (((dat8 (V17 m ρ) c).arrAt_in 1 rfl _).trans ((A_eq8 (V17 m ρ) c 1).trans (mlp_17 m ρ c)))
/-- The features after step 8: the blend of the step's aggregate with the perceptron's output, which is how the
    reference's step ends too (the same two float words, the same order of operations). -/
theorem feat_18 : W18 m ρ c (Proc.devRef .tc main_v138) = val_main_v178 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W18_arr m ρ c 2).trans ((Blend.arr8 (V17 m ρ) c).trans
    ((congrArg₂ (Blend.blend (S := S100000x32)) (agg_17 m ρ c) (mlp_17 m ρ c)).trans
      (Cert.ReferenceIdeal.BlendRead.blend_ref8 _ _ _ _ _ _)))

/-! ## Propagation step 9: the host stretch (boundary 19) and the blend region (boundary 20) -/

theorem src_19 : W19 m ρ c (Proc.devRef .tc main_v1) = val_main_v1 (m ((c.tc : Thread nD τ).loc main_arg1)) :=
  (Host.src9 (W18 m ρ c)).trans (src_18 m ρ c)
theorem dst_19 : W19 m ρ c (Proc.devRef .tc main_v3) = val_main_v3 (m ((c.tc : Thread nD τ).loc main_arg1)) :=
  (Host.dst9 (W18 m ρ c)).trans (dst_18 m ρ c)
theorem norm_19 : W19 m ρ c (Proc.devRef .tc main_v25) = val_main_v25 (m ((c.tc : Thread nD τ).loc main_arg1)) :=
  (Host.norm9 (W18 m ρ c)).trans (norm_18 m ρ c)
theorem mlp_19 : W19 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (Host.mlp9 (W18 m ρ c)).trans (mlp_18 m ρ c)
/-- The aggregate of step 9. -/
theorem agg_19 : W19 m ρ c (Proc.devRef .tc main_v151) = val_main_v191 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  Host.agg9 (W18 m ρ c) _ _ _ _ _ _ (feat_18 m ρ c) (src_18 m ρ c) (dst_18 m ρ c) (norm_18 m ρ c)

theorem src_20 : W20 m ρ c (Proc.devRef .tc main_v1) = val_main_v1 (m ((c.tc : Thread nD τ).loc main_arg1)) :=
  (W20_of_ne m ρ c main_v1 (by decide)).trans (src_19 m ρ c)
theorem dst_20 : W20 m ρ c (Proc.devRef .tc main_v3) = val_main_v3 (m ((c.tc : Thread nD τ).loc main_arg1)) :=
  (W20_of_ne m ρ c main_v3 (by decide)).trans (dst_19 m ρ c)
theorem norm_20 : W20 m ρ c (Proc.devRef .tc main_v25) = val_main_v25 (m ((c.tc : Thread nD τ).loc main_arg1)) :=
  (W20_of_ne m ρ c main_v25 (by decide)).trans (norm_19 m ρ c)
/-- The perceptron's output is an input array of the blend: the region leaves it as it found it. -/
theorem mlp_20 : W20 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (W20_arr m ρ c 1).trans (((dat9 (V19 m ρ) c).arrAt_in 1 rfl _).trans ((A_eq9 (V19 m ρ) c 1).trans (mlp_19 m ρ c)))
/-- The features after step 9: the blend of the step's aggregate with the perceptron's output, which is how the
    reference's step ends too (the same two float words, the same order of operations). -/
theorem feat_20 : W20 m ρ c (Proc.devRef .tc main_v152) = val_main_v196 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W20_arr m ρ c 2).trans ((Blend.arr9 (V19 m ρ) c).trans
    ((congrArg₂ (Blend.blend (S := S100000x32)) (agg_19 m ρ c) (mlp_19 m ρ c)).trans
      (Cert.ReferenceIdeal.BlendRead.blend_ref9 _ _ _ _ _ _)))

/-! ## Propagation step 10: the host stretch (boundary 21) and the blend region (boundary 22) -/

theorem src_21 : W21 m ρ c (Proc.devRef .tc main_v1) = val_main_v1 (m ((c.tc : Thread nD τ).loc main_arg1)) :=
  (Host.src10 (W20 m ρ c)).trans (src_20 m ρ c)
theorem dst_21 : W21 m ρ c (Proc.devRef .tc main_v3) = val_main_v3 (m ((c.tc : Thread nD τ).loc main_arg1)) :=
  (Host.dst10 (W20 m ρ c)).trans (dst_20 m ρ c)
theorem norm_21 : W21 m ρ c (Proc.devRef .tc main_v25) = val_main_v25 (m ((c.tc : Thread nD τ).loc main_arg1)) :=
  (Host.norm10 (W20 m ρ c)).trans (norm_20 m ρ c)
theorem mlp_21 : W21 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (Host.mlp10 (W20 m ρ c)).trans (mlp_20 m ρ c)
/-- The aggregate of step 10. -/
theorem agg_21 : W21 m ρ c (Proc.devRef .tc main_v165) = val_main_v209 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  Host.agg10 (W20 m ρ c) _ _ _ _ _ _ (feat_20 m ρ c) (src_20 m ρ c) (dst_20 m ρ c) (norm_20 m ρ c)

theorem src_22 : W22 m ρ c (Proc.devRef .tc main_v1) = val_main_v1 (m ((c.tc : Thread nD τ).loc main_arg1)) :=
  (W22_of_ne m ρ c main_v1 (by decide)).trans (src_21 m ρ c)
theorem dst_22 : W22 m ρ c (Proc.devRef .tc main_v3) = val_main_v3 (m ((c.tc : Thread nD τ).loc main_arg1)) :=
  (W22_of_ne m ρ c main_v3 (by decide)).trans (dst_21 m ρ c)
theorem norm_22 : W22 m ρ c (Proc.devRef .tc main_v25) = val_main_v25 (m ((c.tc : Thread nD τ).loc main_arg1)) :=
  (W22_of_ne m ρ c main_v25 (by decide)).trans (norm_21 m ρ c)
/-- The perceptron's output is an input array of the blend: the region leaves it as it found it. -/
theorem mlp_22 : W22 m ρ c (Proc.devRef .tc main_v26) = val_main_v34 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (W22_arr m ρ c 1).trans (((dat10 (V21 m ρ) c).arrAt_in 1 rfl _).trans ((A_eq10 (V21 m ρ) c 1).trans (mlp_21 m ρ c)))
/-- The features after step 10: the blend of the step's aggregate with the perceptron's output, which is how the
    reference's step ends too (the same two float words, the same order of operations). -/
theorem feat_22 : W22 m ρ c (Proc.devRef .tc main_v166) = val_main_v214 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W22_arr m ρ c 2).trans ((Blend.arr10 (V21 m ρ) c).trans
    ((congrArg₂ (Blend.blend (S := S100000x32)) (agg_21 m ρ c) (mlp_21 m ρ c)).trans
      (Cert.ReferenceIdeal.BlendRead.blend_ref10 _ _ _ _ _ _)))

/-- The result buffer at the end of the run is the reference's result stage of the arguments as launched. -/
theorem result : W22 m ρ c (Proc.devRef .tc main_v166) = val_main_v214 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := feat_22 m ρ c

end Cert.KernelIdeal.Chain

end
-- ==== Proof.lean ====
/-
  The certificate of an APPNP propagation kernel against its jnp reference, over the extended reals.

  Both programs compute, from node features `x`, an edge list and two dense layers: the in-degrees (floored at one)
  and the symmetric normalisation  rsqrt(deg[src] · deg[dst])  of every edge; the perceptron
  h₀ = relu(x·W1 + b1)·W2 + b2;  and ten times  h ← (scatter-add over dst of h[src] · norm) · 9/10 + 1/10 · h₀,  the two
  factors as the floats nearest them.  The kernel runs the perceptron as one tiled region (bf16 operands into f32
  matrix products, 4000 rows per grid point) and each blend as one tiled region (2000 rows per grid point), and leaves
  the degree, gather and scatter-add steps to the host exactly as the reference spells them.

  Over the extended reals a change of float format is the identity, a matmul into a zero accumulator is the
  dot_general's sum, and tiling by rows changes nothing because every output row depends on its own input rows only.  No
  algebraic law beyond reading both sides entry by entry is needed, so the precondition (finite inputs) is never opened.

  The pieces: the kernel's run with its result named (Proof/KernelRun), each region as a whole-array function
  (Proof/MlpRegion, Proof/BlendRegion1 … 10), each host stretch against the reference's stages (Proof/HostPrefix,
  Proof/HostStep1 … 10), and the walk through the run's twenty-two boundaries (Proof/Chain).  The ideal pass rewrote
  nothing, so the idealization claim is trivial; the three frames are the generated ones.
-/
import proofs.«126228_j7885559956091_2_alg».proof.Defs
import proofs.«126228_j7885559956091_2_alg».proof.Proof.Gen.Kernel
import proofs.«126228_j7885559956091_2_alg».proof.Proof.Gen.Kernel.Skeleton
import proofs.«126228_j7885559956091_2_alg».proof.Proof.Gen.Kernel.Launch
import proofs.«126228_j7885559956091_2_alg».proof.Proof.Gen.Kernel.Points
import proofs.«126228_j7885559956091_2_alg».proof.Proof.Gen.Kernel.Frame
import proofs.«126228_j7885559956091_2_alg».proof.Proof.Gen.KernelIdeal
import proofs.«126228_j7885559956091_2_alg».proof.Proof.Gen.KernelIdeal.Skeleton
import proofs.«126228_j7885559956091_2_alg».proof.Proof.Gen.KernelIdeal.Launch
import proofs.«126228_j7885559956091_2_alg».proof.Proof.Gen.KernelIdeal.Points
import proofs.«126228_j7885559956091_2_alg».proof.Proof.Gen.KernelIdeal.Frame
import proofs.«126228_j7885559956091_2_alg».proof.Proof.Gen.ReferenceIdeal
import proofs.«126228_j7885559956091_2_alg».proof.Proof.Gen.ReferenceIdeal.Run
import proofs.«126228_j7885559956091_2_alg».proof.Proof.Gen.ReferenceIdeal.Read
import proofs.«126228_j7885559956091_2_alg».proof.Proof.Gen.Pre_finite_inputs
import proofs.«126228_j7885559956091_2_alg».proof.Proof.KernelRun
import proofs.«126228_j7885559956091_2_alg».proof.Proof.Chain
import Idealize.ShloMosaic.Adequacy
import Idealize.ShloMosaic.Init

noncomputable section

namespace Cert.Proof.Claims

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the reference's result stage of the (agreeing) arguments in their result buffers. -/
theorem algebraic : Cert.algebraic_KernelIdeal_ReferenceIdeal := by
  intro m ρ m' ρ' _ hagree
  refine ⟨fun c => Cert.ReferenceIdeal.Read.val_main_v214 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result m ρ c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v214_eq, (hagree c).1, (hagree c).2.1, (hagree c).2.2.1, (hagree c).2.2.2.1,
      (hagree c).2.2.2.2.1, (hagree c).2.2.2.2.2]

end Cert.Proof.Claims

namespace Cert.Proof

theorem claim : Cert.Claim := ⟨Cert.Kernel.Gen.facts, Cert.KernelIdeal.Gen.facts, Cert.ReferenceIdeal.Gen.facts, Cert.Pre_finite_inputs.Gen.facts,
  Claims.frame_kernel, Claims.frame_kernel_ideal, Claims.frame_reference_ideal, trivial, Claims.algebraic⟩

end Cert.Proof

end
